-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S2x800000 : Shape := ⟨2, ![2, 800000]⟩
abbrev S4x128 : Shape := ⟨2, ![4, 128]⟩
abbrev S3x128 : Shape := ⟨2, ![3, 128]⟩
abbrev S3 : Shape := ⟨1, ![3]⟩
abbrev S3x128x128 : Shape := ⟨3, ![3, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg14 : FVec F S128x128 .f32) (main_arg15 : FVec F S128 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg16
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg17 main_v63 main_v67

def fn_part2 {F : FTy → Type} [FloatOps F] (main_arg10 : FVec F S3x128 .f32) (main_arg11 : FVec F S3x128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_v48 main_v49 main_v50

def fn_part1 {F : FTy → Type} [FloatOps F] (main_arg7 : FVec F S3x128 .f32) (main_arg8 : FVec F S3x128x128 .f32) (main_arg9 : FVec F S3x128 .f32) (main_arg10 : FVec F S3x128 .f32) (main_arg11 : FVec F S3x128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg8
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg9
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : IVec S50000 32) (main_arg1 : IVec S800000 32) (main_arg2 : IVec S2x800000 32) (main_arg3 : FVec F S4x128 .f32) (main_arg4 : FVec F S3x128 .f32) (main_arg5 : FVec F S3 .f32) (main_arg6 : FVec F S3x128x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) : IVec S_ 1 :=
  let main_v0 : FVec F S4x128 .f32 := Host.absf main_arg3
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S3x128 .f32 := Host.absf main_arg4
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S3 .f32 := Host.absf main_arg5
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S50000 : Shape := ⟨1, ![50000]⟩
abbrev S800000 : Shape := ⟨1, ![800000]⟩
abbrev S2x800000 : Shape := ⟨2, ![2, 800000]⟩
abbrev S4x128 : Shape := ⟨2, ![4, 128]⟩
abbrev S3x128 : Shape := ⟨2, ![3, 128]⟩
abbrev S3 : Shape := ⟨1, ![3]⟩
abbrev S3x128x128 : Shape := ⟨3, ![3, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S1x800000 : Shape := ⟨2, ![1, 800000]⟩
abbrev S1x1 : Shape := ⟨2, ![1, 1]⟩
abbrev S1x128x128 : Shape := ⟨3, ![1, 128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 266
  | .vmem => 67
  | .smem => 0
  | _ => 0

abbrev hbmTy0_0 (i : Nat) : BufTy := match i % 128 with
  | 0 => ⟨S50000, .i32⟩
  | 1 => ⟨S800000, .i32⟩
  | 2 => ⟨S2x800000, .i32⟩
  | 3 => ⟨S4x128, .f32⟩
  | 4 => ⟨S3x128, .f32⟩
  | 5 => ⟨S3, .f32⟩
  | 6 => ⟨S3x128x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S128x128, .f32⟩
  | 13 => ⟨S128, .f32⟩
  | 14 => ⟨S128x128, .f32⟩
  | 15 => ⟨S128, .f32⟩
  | 16 => ⟨S128x1, .f32⟩
  | 17 => ⟨S1, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S1x800000, .i32⟩
  | 37 => ⟨S800000, .i32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S_, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S1, .f32⟩
  | 58 => ⟨S_, .f32⟩
  | 59 => ⟨S_, .f32⟩
  | 60 => ⟨S_, .f32⟩
  | 61 => ⟨S1x1, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S1x128x128, .f32⟩
  | 68 => ⟨S128x128, .f32⟩
  | 69 => ⟨S1x128, .f32⟩
  | 70 => ⟨S128, .f32⟩
  | 71 => ⟨S1x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S1x128, .f32⟩
  | 108 => ⟨S128, .f32⟩
  | 109 => ⟨S1x128, .f32⟩
  | 110 => ⟨S1x128, .f32⟩
  | 111 => ⟨S128, .f32⟩
  | 112 => ⟨S1x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x128, .f32⟩
  | 124 => ⟨S_, .f32⟩
  | 125 => ⟨S800000x128, .f32⟩
  | 126 => ⟨S800000x128, .f32⟩
  | 127 => ⟨S_, .f32⟩
  | _ => ⟨S50000, .i32⟩

abbrev hbmTy0_1 (i : Nat) : BufTy := match i % 128 with
  | 0 => ⟨S50000x128, .f32⟩
  | 1 => ⟨S800000x1, .i32⟩
  | 2 => ⟨S50000x128, .f32⟩
  | 3 => ⟨S1, .f32⟩
  | 4 => ⟨S_, .f32⟩
  | 5 => ⟨S_, .f32⟩
  | 6 => ⟨S_, .f32⟩
  | 7 => ⟨S1x1, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S50000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S50000x128, .f32⟩
  | 33 => ⟨S50000x128, .f32⟩
  | 34 => ⟨S50000x128, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .i1⟩
  | 44 => ⟨S_, .f32⟩
  | 45 => ⟨S_, .f32⟩
  | 46 => ⟨S128, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S1x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S50000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x128, .f32⟩
  | 70 => ⟨S_, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1, .f32⟩
  | 78 => ⟨S_, .f32⟩
  | 79 => ⟨S_, .f32⟩
  | 80 => ⟨S_, .f32⟩
  | 81 => ⟨S1x1, .f32⟩
  | 82 => ⟨S1x128x128, .f32⟩
  | 83 => ⟨S128x128, .f32⟩
  | 84 => ⟨S1x128, .f32⟩
  | 85 => ⟨S128, .f32⟩
  | 86 => ⟨S1x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S50000x128, .f32⟩
  | 93 => ⟨S_, .f32⟩
  | 94 => ⟨S128, .f32⟩
  | 95 => ⟨S_, .f32⟩
  | 96 => ⟨S128, .f32⟩
  | 97 => ⟨S128, .f32⟩
  | 98 => ⟨S1x128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S50000, .i32⟩

abbrev hbmTy0_2 (i : Nat) : BufTy := match i % 128 with
  | 0 => ⟨S128, .f32⟩
  | 1 => ⟨S1x128, .f32⟩
  | 2 => ⟨S1x128, .f32⟩
  | 3 => ⟨S128, .f32⟩
  | 4 => ⟨S1x128, .f32⟩
  | 5 => ⟨S50000x128, .f32⟩
  | 6 => ⟨S1x128, .f32⟩
  | 7 => ⟨S1x128, .f32⟩
  | 8 => ⟨S1x1, .f32⟩
  | 9 => ⟨S50000x1, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x1, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x1, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S128x128, .f32⟩
  | .local _ .vmem, ⟨60, _⟩ => ⟨S1x128, .f32⟩
  | .local _ .vmem, ⟨61, _⟩ => ⟨S128x128, .f32⟩
  | .local _ .vmem, ⟨62, _⟩ => ⟨S1x128, .f32⟩
  | .local _ .vmem, ⟨63, _⟩ => ⟨S128x1, .f32⟩
  | .local _ .vmem, ⟨64, _⟩ => ⟨S1x1, .f32⟩
  | .local _ .vmem, ⟨65, _⟩ => ⟨S5000x1, .f32⟩
  | .local _ .vmem, ⟨66, _⟩ => ⟨S5000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call0_cst : Ref sig .tc := ⟨.hbm, 50, rfl⟩
abbrev main_call0_v0 : Ref sig .tc := ⟨.hbm, 51, rfl⟩
abbrev main_v26 : Ref sig .tc := ⟨.hbm, 52, rfl⟩
abbrev main_cst : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_8 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v49 : Ref sig .tc := ⟨.hbm, 101, rfl⟩
abbrev main_v50 : Ref sig .tc := ⟨.hbm, 102, rfl⟩
abbrev main_cst_9 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_c_10 : Ref sig .tc := ⟨.hbm, 114, rfl⟩
abbrev main_v61 : Ref sig .tc := ⟨.hbm, 115, rfl⟩
abbrev main_v62 : Ref sig .tc := ⟨.hbm, 116, rfl⟩
abbrev main_c_11 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_call2_cst : Ref sig .tc := ⟨.hbm, 124, rfl⟩
abbrev main_call2_v0 : Ref sig .tc := ⟨.hbm, 125, rfl⟩
abbrev main_v69 : Ref sig .tc := ⟨.hbm, 126, rfl⟩
abbrev main_cst_12 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_13 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_14 : Ref sig .tc := ⟨.hbm, 147, rfl⟩
abbrev main_v88 : Ref sig .tc := ⟨.hbm, 148, rfl⟩
abbrev main_cst_15 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_c_16 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_cst_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_v7 : Ref sig .tc := ⟨.hbm, 163, rfl⟩
abbrev main_call3_cst_1 : Ref sig .tc := ⟨.hbm, 164, rfl⟩
abbrev main_call3_v8 : Ref sig .tc := ⟨.hbm, 165, rfl⟩
abbrev main_call3_cst_2 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_cst_3 : Ref sig .tc := ⟨.hbm, 170, rfl⟩
abbrev main_call3_v12 : Ref sig .tc := ⟨.hbm, 171, rfl⟩
abbrev main_call3_cst_4 : Ref sig .tc := ⟨.hbm, 172, rfl⟩
abbrev main_call3_call0_v0 : Ref sig .tc := ⟨.hbm, 173, rfl⟩
abbrev main_call3_call0_v1 : Ref sig .tc := ⟨.hbm, 174, rfl⟩
abbrev main_v92 : Ref sig .tc := ⟨.hbm, 175, rfl⟩
abbrev main_v93 : Ref sig .tc := ⟨.hbm, 176, rfl⟩
abbrev main_cst_17 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_c_18 : Ref sig .tc := ⟨.hbm, 188, rfl⟩
abbrev main_v104 : Ref sig .tc := ⟨.hbm, 189, rfl⟩
abbrev main_v105 : Ref sig .tc := ⟨.hbm, 190, rfl⟩
abbrev main_c_19 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_call4_cst : Ref sig .tc := ⟨.hbm, 198, rfl⟩
abbrev main_call4_v0 : Ref sig .tc := ⟨.hbm, 199, rfl⟩
abbrev main_v112 : Ref sig .tc := ⟨.hbm, 200, rfl⟩
abbrev main_cst_20 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_cst_21 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_22 : Ref sig .tc := ⟨.hbm, 221, rfl⟩
abbrev main_v131 : Ref sig .tc := ⟨.hbm, 222, rfl⟩
abbrev main_cst_23 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_c_24 : Ref sig .tc := ⟨.hbm, 227, rfl⟩
abbrev main_call5_cst : Ref sig .tc := ⟨.hbm, 228, rfl⟩
abbrev main_call5_v0 : Ref sig .tc := ⟨.hbm, 229, rfl⟩
abbrev main_call5_v1 : Ref sig .tc := ⟨.hbm, 230, rfl⟩
abbrev main_call5_cst_0 : Ref sig .tc := ⟨.hbm, 231, rfl⟩
abbrev main_call5_v2 : Ref sig .tc := ⟨.hbm, 232, rfl⟩
abbrev main_call5_v3 : Ref sig .tc := ⟨.hbm, 233, rfl⟩
abbrev main_call5_v4 : Ref sig .tc := ⟨.hbm, 234, rfl⟩
abbrev main_call5_v5 : Ref sig .tc := ⟨.hbm, 235, rfl⟩
abbrev main_call5_v6 : Ref sig .tc := ⟨.hbm, 236, rfl⟩
abbrev main_call5_v7 : Ref sig .tc := ⟨.hbm, 237, rfl⟩
abbrev main_call5_cst_1 : Ref sig .tc := ⟨.hbm, 238, rfl⟩
abbrev main_call5_v8 : Ref sig .tc := ⟨.hbm, 239, rfl⟩
abbrev main_call5_cst_2 : Ref sig .tc := ⟨.hbm, 240, rfl⟩
abbrev main_call5_v9 : Ref sig .tc := ⟨.hbm, 241, rfl⟩
abbrev main_call5_v10 : Ref sig .tc := ⟨.hbm, 242, rfl⟩
abbrev main_call5_v11 : Ref sig .tc := ⟨.hbm, 243, rfl⟩
abbrev main_call5_cst_3 : Ref sig .tc := ⟨.hbm, 244, rfl⟩
abbrev main_call5_v12 : Ref sig .tc := ⟨.hbm, 245, rfl⟩
abbrev main_call5_cst_4 : Ref sig .tc := ⟨.hbm, 246, rfl⟩
abbrev main_call5_call0_v0 : Ref sig .tc := ⟨.hbm, 247, rfl⟩
abbrev main_call5_call0_v1 : Ref sig .tc := ⟨.hbm, 248, rfl⟩
abbrev main_v135 : Ref sig .tc := ⟨.hbm, 249, rfl⟩
abbrev main_v136 : Ref sig .tc := ⟨.hbm, 250, rfl⟩
abbrev main_cst_25 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg7_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg6_0 : Ref sig .tc := ⟨.vmem, 64, rfl⟩
abbrev cc6_stg7_0 : Ref sig .tc := ⟨.vmem, 65, rfl⟩
abbrev cc6_stg7_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem7_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem7_0 : DmaSem sig := 65
abbrev cc6_sem7_1 : DmaSem sig := 66

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x128 : S_.BroadcastsInDim S800000x128 (![] : Fin 0 → Fin S800000x128.rank)
  bcast_S_S50000x128 : S_.BroadcastsInDim S50000x128 (![] : Fin 0 → Fin S50000x128.rank)
  slices_S3_S1_0 : S3.Slices ![0] S1
  shapeCasts_S1_S_ : S1.ShapeCasts S_
  shapeCasts_S_S1x1 : S_.ShapeCasts S1x1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S4x128_S50000x1_S50000x128_1_0_n_n_0_1_1128_wf : GatherDims.WF S4x128 S50000x1 S50000x128 [1] [0] [] [0] [] 1 ![1, 128]
  gather_S3x128_S800000x1_S800000x128_1_0_n_n_0_1_1128_wf : GatherDims.WF S3x128 S800000x1 S800000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S50000x1.size a
  hwx6_7 : ∀ i : grid6.Coords, EltTy.bits .f32 = 32 ∨ (Rect.block (s := S50000x1) S5000x1.size (cc6_transform_7 i) (hinb6_7 i)).WholeWords (EltTy.packing .f32)

variable [Facts₀]

def gather_S4x128_S50000x1_S50000x128_1_0_n_n_0_1_1128 : GatherDims S4x128 S50000x1 S50000x128 where
  offsetDims := [1]
  collapsedSliceDims := [0]
  operandBatchingDims := []
  startIndicesBatchingDims := []
  startIndexMap := [0]
  indexVectorDim := 1
  sliceSizes := ![1, 128]
  wf := gather_S4x128_S50000x1_S50000x128_1_0_n_n_0_1_1128_wf
def gather_S3x128_S800000x1_S800000x128_1_0_n_n_0_1_1128 : GatherDims S3x128 S800000x1 S800000x128 where
  offsetDims := [1]
  collapsedSliceDims := [0]
  operandBatchingDims := []
  startIndicesBatchingDims := []
  startIndexMap := [0]
  indexVectorDim := 1
  sliceSizes := ![1, 128]
  wf := gather_S3x128_S800000x1_S800000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v87) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v87) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v103) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v115) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v119) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v121) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v124) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v126) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v129) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v130) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v130) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v134) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v142) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v145) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v146) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v146) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v147) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v148) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg16) S128x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v149) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v150) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000 : Shape := ⟨1, ![50000]⟩
abbrev S800000 : Shape := ⟨1, ![800000]⟩
abbrev S2x800000 : Shape := ⟨2, ![2, 800000]⟩
abbrev S4x128 : Shape := ⟨2, ![4, 128]⟩
abbrev S3x128 : Shape := ⟨2, ![3, 128]⟩
abbrev S3 : Shape := ⟨1, ![3]⟩
abbrev S3x128x128 : Shape := ⟨3, ![3, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S1x800000 : Shape := ⟨2, ![1, 800000]⟩
abbrev S1x128x128 : Shape := ⟨3, ![1, 128, 128]⟩
abbrev S1x128 : Shape := ⟨2, ![1, 128]⟩
abbrev S1x1 : Shape := ⟨2, ![1, 1]⟩

abbrev nBuf : Space → Nat
  | .hbm => 340
  | .vmem => 0
  | .smem => 0
  | _ => 0

abbrev hbmTy0_0 (i : Nat) : BufTy := match i % 128 with
  | 0 => ⟨S50000, .i32⟩
  | 1 => ⟨S800000, .i32⟩
  | 2 => ⟨S2x800000, .i32⟩
  | 3 => ⟨S4x128, .f32⟩
  | 4 => ⟨S3x128, .f32⟩
  | 5 => ⟨S3, .f32⟩
  | 6 => ⟨S3x128x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S128x128, .f32⟩
  | 13 => ⟨S128, .f32⟩
  | 14 => ⟨S128x128, .f32⟩
  | 15 => ⟨S128, .f32⟩
  | 16 => ⟨S128x1, .f32⟩
  | 17 => ⟨S1, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S1x800000, .i32⟩
  | 37 => ⟨S800000, .i32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S_, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S1, .f32⟩
  | 58 => ⟨S_, .f32⟩
  | 59 => ⟨S_, .f32⟩
  | 60 => ⟨S_, .f32⟩
  | 61 => ⟨S50000x128, .f32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S1x128x128, .f32⟩
  | 76 => ⟨S128x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S128, .f32⟩
  | _ => ⟨S50000, .i32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S800000x128, .f32⟩
  | 16 => ⟨S_, .f32⟩
  | 17 => ⟨S800000x128, .f32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1, .f32⟩
  | 24 => ⟨S_, .f32⟩
  | 25 => ⟨S_, .f32⟩
  | 26 => ⟨S_, .f32⟩
  | 27 => ⟨S50000x128, .f32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x128, .f32⟩
  | 110 => ⟨S_, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1, .f32⟩
  | 118 => ⟨S_, .f32⟩
  | 119 => ⟨S_, .f32⟩
  | 120 => ⟨S_, .f32⟩
  | 121 => ⟨S50000x128, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000, .i32⟩

abbrev hbmTy0_2 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x1, .f32⟩
  | 81 => ⟨S1x1, .f32⟩
  | 82 => ⟨S50000x1, .f32⟩
  | 83 => ⟨S50000x1, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call0_cst : Ref sig .tc := ⟨.hbm, 50, rfl⟩
abbrev main_call0_v0 : Ref sig .tc := ⟨.hbm, 51, rfl⟩
abbrev main_v26 : Ref sig .tc := ⟨.hbm, 52, rfl⟩
abbrev main_cst : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call1_cst : Ref sig .tc := ⟨.hbm, 72, rfl⟩
abbrev main_call1_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_6 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_c_8 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_cst_1 : Ref sig .tc := ⟨.hbm, 99, rfl⟩
abbrev main_call2_v8 : Ref sig .tc := ⟨.hbm, 100, rfl⟩
abbrev main_call2_cst_2 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_cst_3 : Ref sig .tc := ⟨.hbm, 105, rfl⟩
abbrev main_call2_v12 : Ref sig .tc := ⟨.hbm, 106, rfl⟩
abbrev main_call2_cst_4 : Ref sig .tc := ⟨.hbm, 107, rfl⟩
abbrev main_call2_call0_v0 : Ref sig .tc := ⟨.hbm, 108, rfl⟩
abbrev main_call2_call0_v1 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_9 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call3_cst : Ref sig .tc := ⟨.hbm, 131, rfl⟩
abbrev main_call3_v0 : Ref sig .tc := ⟨.hbm, 132, rfl⟩
abbrev main_v76 : Ref sig .tc := ⟨.hbm, 133, rfl⟩
abbrev main_c_10 : Ref sig .tc := ⟨.hbm, 134, rfl⟩
abbrev main_v77 : Ref sig .tc := ⟨.hbm, 135, rfl⟩
abbrev main_v78 : Ref sig .tc := ⟨.hbm, 136, rfl⟩
abbrev main_c_11 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_call4_cst : Ref sig .tc := ⟨.hbm, 144, rfl⟩
abbrev main_call4_v0 : Ref sig .tc := ⟨.hbm, 145, rfl⟩
abbrev main_v85 : Ref sig .tc := ⟨.hbm, 146, rfl⟩
abbrev main_cst_12 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_13 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_call5_cst : Ref sig .tc := ⟨.hbm, 166, rfl⟩
abbrev main_call5_v0 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_14 : Ref sig .tc := ⟨.hbm, 177, rfl⟩
abbrev main_v112 : Ref sig .tc := ⟨.hbm, 178, rfl⟩
abbrev main_cst_15 : Ref sig .tc := ⟨.hbm, 179, rfl⟩
abbrev main_v113 : Ref sig .tc := ⟨.hbm, 180, rfl⟩
abbrev main_v114 : Ref sig .tc := ⟨.hbm, 181, rfl⟩
abbrev main_c_16 : Ref sig .tc := ⟨.hbm, 182, rfl⟩
abbrev main_call6_cst : Ref sig .tc := ⟨.hbm, 183, rfl⟩
abbrev main_call6_v0 : Ref sig .tc := ⟨.hbm, 184, rfl⟩
abbrev main_call6_v1 : Ref sig .tc := ⟨.hbm, 185, rfl⟩
abbrev main_call6_cst_0 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_v6 : Ref sig .tc := ⟨.hbm, 191, rfl⟩
abbrev main_call6_v7 : Ref sig .tc := ⟨.hbm, 192, rfl⟩
abbrev main_call6_cst_1 : Ref sig .tc := ⟨.hbm, 193, rfl⟩
abbrev main_call6_v8 : Ref sig .tc := ⟨.hbm, 194, rfl⟩
abbrev main_call6_cst_2 : Ref sig .tc := ⟨.hbm, 195, rfl⟩
abbrev main_call6_v9 : Ref sig .tc := ⟨.hbm, 196, rfl⟩
abbrev main_call6_v10 : Ref sig .tc := ⟨.hbm, 197, rfl⟩
abbrev main_call6_v11 : Ref sig .tc := ⟨.hbm, 198, rfl⟩
abbrev main_call6_cst_3 : Ref sig .tc := ⟨.hbm, 199, rfl⟩
abbrev main_call6_v12 : Ref sig .tc := ⟨.hbm, 200, rfl⟩
abbrev main_call6_cst_4 : Ref sig .tc := ⟨.hbm, 201, rfl⟩
abbrev main_call6_call0_v0 : Ref sig .tc := ⟨.hbm, 202, rfl⟩
abbrev main_call6_call0_v1 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_cst_17 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_call7_cst : Ref sig .tc := ⟨.hbm, 225, rfl⟩
abbrev main_call7_v0 : Ref sig .tc := ⟨.hbm, 226, rfl⟩
abbrev main_v135 : Ref sig .tc := ⟨.hbm, 227, rfl⟩
abbrev main_c_18 : Ref sig .tc := ⟨.hbm, 228, rfl⟩
abbrev main_v136 : Ref sig .tc := ⟨.hbm, 229, rfl⟩
abbrev main_v137 : Ref sig .tc := ⟨.hbm, 230, rfl⟩
abbrev main_c_19 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_call8_cst : Ref sig .tc := ⟨.hbm, 238, rfl⟩
abbrev main_call8_v0 : Ref sig .tc := ⟨.hbm, 239, rfl⟩
abbrev main_v144 : Ref sig .tc := ⟨.hbm, 240, rfl⟩
abbrev main_cst_20 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_cst_21 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_call9_cst : Ref sig .tc := ⟨.hbm, 260, rfl⟩
abbrev main_call9_v0 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_cst_22 : Ref sig .tc := ⟨.hbm, 271, rfl⟩
abbrev main_v171 : Ref sig .tc := ⟨.hbm, 272, rfl⟩
abbrev main_cst_23 : Ref sig .tc := ⟨.hbm, 273, rfl⟩
abbrev main_v172 : Ref sig .tc := ⟨.hbm, 274, rfl⟩
abbrev main_v173 : Ref sig .tc := ⟨.hbm, 275, rfl⟩
abbrev main_c_24 : Ref sig .tc := ⟨.hbm, 276, rfl⟩
abbrev main_call10_cst : Ref sig .tc := ⟨.hbm, 277, rfl⟩
abbrev main_call10_v0 : Ref sig .tc := ⟨.hbm, 278, rfl⟩
abbrev main_call10_v1 : Ref sig .tc := ⟨.hbm, 279, rfl⟩
abbrev main_call10_cst_0 : Ref sig .tc := ⟨.hbm, 280, rfl⟩
abbrev main_call10_v2 : Ref sig .tc := ⟨.hbm, 281, rfl⟩
abbrev main_call10_v3 : Ref sig .tc := ⟨.hbm, 282, rfl⟩
abbrev main_call10_v4 : Ref sig .tc := ⟨.hbm, 283, rfl⟩
abbrev main_call10_v5 : Ref sig .tc := ⟨.hbm, 284, rfl⟩
abbrev main_call10_v6 : Ref sig .tc := ⟨.hbm, 285, rfl⟩
abbrev main_call10_v7 : Ref sig .tc := ⟨.hbm, 286, rfl⟩
abbrev main_call10_cst_1 : Ref sig .tc := ⟨.hbm, 287, rfl⟩
abbrev main_call10_v8 : Ref sig .tc := ⟨.hbm, 288, rfl⟩
abbrev main_call10_cst_2 : Ref sig .tc := ⟨.hbm, 289, rfl⟩
abbrev main_call10_v9 : Ref sig .tc := ⟨.hbm, 290, rfl⟩
abbrev main_call10_v10 : Ref sig .tc := ⟨.hbm, 291, rfl⟩
abbrev main_call10_v11 : Ref sig .tc := ⟨.hbm, 292, rfl⟩
abbrev main_call10_cst_3 : Ref sig .tc := ⟨.hbm, 293, rfl⟩
abbrev main_call10_v12 : Ref sig .tc := ⟨.hbm, 294, rfl⟩
abbrev main_call10_cst_4 : Ref sig .tc := ⟨.hbm, 295, rfl⟩
abbrev main_call10_call0_v0 : Ref sig .tc := ⟨.hbm, 296, rfl⟩
abbrev main_call10_call0_v1 : Ref sig .tc := ⟨.hbm, 297, rfl⟩
abbrev main_v174 : Ref sig .tc := ⟨.hbm, 298, rfl⟩
abbrev main_v175 : Ref sig .tc := ⟨.hbm, 299, rfl⟩
abbrev main_v176 : Ref sig .tc := ⟨.hbm, 300, rfl⟩
abbrev main_v177 : Ref sig .tc := ⟨.hbm, 301, rfl⟩
abbrev main_cst_25 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_call11_cst : Ref sig .tc := ⟨.hbm, 319, rfl⟩
abbrev main_call11_v0 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_call12_cst : Ref sig .tc := ⟨.hbm, 326, rfl⟩
abbrev main_call12_v0 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_call13_cst : Ref sig .tc := ⟨.hbm, 333, rfl⟩
abbrev main_call13_v0 : Ref sig .tc := ⟨.hbm, 334, rfl⟩
abbrev main_v204 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x128 : S_.BroadcastsInDim S800000x128 (![] : Fin 0 → Fin S800000x128.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S4x128_S50000x1_S50000x128_1_0_n_n_0_1_1128_wf : GatherDims.WF S4x128 S50000x1 S50000x128 [1] [0] [] [0] [] 1 ![1, 128]
  gather_S3x128_S800000x1_S800000x128_1_0_n_n_0_1_1128_wf : GatherDims.WF S3x128 S800000x1 S800000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S4x128_S50000x1_S50000x128_1_0_n_n_0_1_1128 : GatherDims S4x128 S50000x1 S50000x128 where
  offsetDims := [1]
  collapsedSliceDims := [0]
  operandBatchingDims := []
  startIndicesBatchingDims := []
  startIndexMap := [0]
  indexVectorDim := 1
  sliceSizes := ![1, 128]
  wf := gather_S4x128_S50000x1_S50000x128_1_0_n_n_0_1_1128_wf
def gather_S3x128_S800000x1_S800000x128_1_0_n_n_0_1_1128 : GatherDims S3x128 S800000x1 S800000x128 where
  offsetDims := [1]
  collapsedSliceDims := [0]
  operandBatchingDims := []
  startIndicesBatchingDims := []
  startIndexMap := [0]
  indexVectorDim := 1
  sliceSizes := ![1, 128]
  wf := gather_S3x128_S800000x1_S800000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel program's run, with EVERY unscoped buffer read back.

  The program is 26 segments: stretches of host operations and seven kernel regions.  The buffer contents at each
  segment boundary form a fold from the launch memory (a stretch applies its operations, a region replaces its
  windows' arrays by what its write-backs leave).  Every weakly fair execution terminates without a fault, and in
  the final state every unscoped buffer holds the last stage of that fold; in particular the result buffer and the
  eighteen argument buffers do.
-/
import proofs.«124610_j72327249264834_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer `b` of core `c`
    ends at the last boundary's contents `W26 m ρ c b`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h => h)

/-- The reading at one buffer that is not scoped. -/
theorem run_at (b : Ref sig .tc) (hb : ¬ (Proc.devRef .tc b : DevRef τ sig).isScoped) {r : PUnit × MemSt nD τ sig (Elt F)}
    (h : ∀ c : Dev nD, ∀ b ∈ Pipeline.ucRefs τ sig, r.2.mem (((c : Thread nD τ)).1, b) = W26 m ρ c b) (c : Dev nD) :
    r.2.mem ((c.tc : Thread nD τ).loc b) = W26 m ρ c (Proc.devRef .tc b) :=
  h c _ (mem_uc b hb)

end Cert.KernelIdeal.Hand

end
-- ==== Proof.KStage.lean ====
/-
  The pure functions the idealized kernel program's host operations compute between its kernel regions: the two
  embeddings, the edge list's two rows, one layer's aggregation of messages, the column statistics of a feature
  matrix, and the slices of the stacked parameters each region is given.  Each is the composed term of the printed
  operations, nothing evaluated.
-/
import proofs.«124610_j72327249264834_2_alg».proof.Proof.Gen.KernelIdeal

noncomputable section

namespace Cert.KernelIdeal.Stage

open Cert.KernelIdeal Cert.KernelIdeal.Facts₀ Cert.KernelIdeal.Facts Idealize.ShloMosaic

variable {F : FTy → Type} [FloatOps F]

/-- The node embedding: row `n` is the row of the table at the node's type (a negative type counted from the end). -/
def x0 (a0 : IVec S50000 32) (a3 : FVec F S4x128 .f32) : FVec F S50000x128 .f32 :=
  (Host.gather gather_S4x128_S50000x1_S50000x128_1_0_n_n_0_1_1128 a3 (broadcastInDim S50000x1 ![0] bcast_S50000_S50000x1_0 (select (cmpi .slt a0 (broadcastInDim S50000 ![] bcast_S_S50000 (constantI S_ 32 0#32))) (addi a0 (broadcastInDim S50000 ![] bcast_S_S50000 (constantI S_ 32 4#32))) a0)))

/-- The edge embedding: row `e` is the row of the table at the edge's type. -/
def ea (a1 : IVec S800000 32) (a4 : FVec F S3x128 .f32) : FVec F S800000x128 .f32 :=
  (Host.gather gather_S3x128_S800000x1_S800000x128_1_0_n_n_0_1_1128 a4 (broadcastInDim S800000x1 ![0] bcast_S800000_S800000x1_0 (select (cmpi .slt a1 (broadcastInDim S800000 ![] bcast_S_S800000 (constantI S_ 32 0#32))) (addi a1 (broadcastInDim S800000 ![] bcast_S_S800000 (constantI S_ 32 3#32))) a1)))

/-- The edges' source nodes: row 0 of the edge list. -/
def src (a2 : IVec S2x800000 32) : IVec S800000 32 :=
  (shapeCast S800000 (extractStridedSlice S1x800000 ![0, 0] a2 slices_S2x800000_S1x800000_0_0) shapeCasts_S1x800000_S800000)

/-- The edges' target nodes: row 1 of the edge list. -/
def dst (a2 : IVec S2x800000 32) : IVec S800000 32 :=
  (shapeCast S800000 (extractStridedSlice S1x800000 ![1, 0] a2 slices_S2x800000_S1x800000_1_0) shapeCasts_S1x800000_S800000)

/-- One layer's aggregation: every edge's message `max (x[src] + e) 0` summed into its target node's row. -/
def agg (x : FVec F S50000x128 .f32) (e : FVec F S800000x128 .f32) (s d : IVec S800000 32) : FVec F S50000x128 .f32 :=
  (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 d) (maximumf (addf (Host.gather gather_S50000x128_S800000x1_S800000x128_1_0_n_n_0_1_1128 x (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s))) e) (broadcastInDim S800000x128 ![] bcast_S_S800000x128 (constant (F := F) S_ .f32 0x00000000#32))))

/-- The column means: the column sums divided by 50000. -/
def meanArr (h : FVec F S50000x128 .f32) : FVec F S128 .f32 :=
  (Host.divf (Host.reduceAdd h (constant (F := F) S_ .f32 0x00000000#32) reducesTo_S50000x128_S128_d0 h_S_) (broadcastInDim S128 ![] bcast_S_S128 (constant (F := F) S_ .f32 0x47435000#32)))

/-- The column variances (the mean of the squared deviations from the column means), as the variance routine spells them, its guard on the divisor included. -/
def varArr (h : FVec F S50000x128 .f32) : FVec F S128 .f32 :=
  (select (broadcastInDim S128 ![] bcast_S_S128 (cmpf .ogt (subf (constant (F := F) S_ .f32 0x47435000#32) (sitofp (F := F) .f32 (constantI S_ 32 0#32))) (constant (F := F) S_ .f32 0x00000000#32))) (Host.divf (Host.reduceAdd (mulf (subf h (broadcastInDim S50000x128 ![0, 1] bcast_S1x128_S50000x128_0_1 (Host.divf (broadcastInDim S1x128 ![1] bcast_S128_S1x128_1 (Host.reduceAdd h (constant (F := F) S_ .f32 0x00000000#32) reducesTo_S50000x128_S128_d0 h_S_)) (broadcastInDim S1x128 ![] bcast_S_S1x128 (constant (F := F) S_ .f32 0x47435000#32))))) (subf h (broadcastInDim S50000x128 ![0, 1] bcast_S1x128_S50000x128_0_1 (Host.divf (broadcastInDim S1x128 ![1] bcast_S128_S1x128_1 (Host.reduceAdd h (constant (F := F) S_ .f32 0x00000000#32) reducesTo_S50000x128_S128_d0 h_S_)) (broadcastInDim S1x128 ![] bcast_S_S1x128 (constant (F := F) S_ .f32 0x47435000#32)))))) (constant (F := F) S_ .f32 0x00000000#32) reducesTo_S50000x128_S128_d0 h_S_) (broadcastInDim S128 ![] bcast_S_S128 (subf (constant (F := F) S_ .f32 0x47435000#32) (sitofp (F := F) .f32 (constantI S_ 32 0#32))))) (broadcastInDim S128 ![] bcast_S_S128 (id (constant (F := F) S_ .f32 0x7FC00000#32))))

/-- A vector as a one-row matrix. -/
def rowOf (u : FVec F S128 .f32) : FVec F S1x128 .f32 :=
  (shapeCast S1x128 u shapeCasts_S128_S1x128)

/-- The reciprocal standard deviations as a one-row matrix: `rsqrt (v + ε)`. -/
def invRow (v : FVec F S128 .f32) : FVec F S1x128 .f32 :=
  (Host.rsqrt (addf (shapeCast S1x128 v shapeCasts_S128_S1x128) (broadcastInDim S1x128 ![] bcast_S_S1x128 (constant (F := F) S_ .f32 0x3727C5AC#32))))

/-- Layer 0's factor `1 + ε` as a one-entry matrix. -/
def scale0 (a5 : FVec F S3 .f32) : FVec F S1x1 .f32 :=
  (shapeCast S1x1 (addf (constant (F := F) S_ .f32 0x3F800000#32) (shapeCast S_ (extractStridedSlice S1 ![0] a5 slices_S3_S1_0) shapeCasts_S1_S_)) shapeCasts_S_S1x1)

/-- Layer 0's first weight matrix: slab 0 of the stack. -/
def wA0 (a6 : FVec F S3x128x128 .f32) : FVec F S128x128 .f32 :=
  (shapeCast S128x128 (extractStridedSlice S1x128x128 ![0, 0, 0] a6 slices_S3x128x128_S1x128x128_0_0_0) shapeCasts_S1x128x128_S128x128)

/-- Layer 0's first bias as a one-row matrix: row 0 of the stack. -/
def bA0 (a7 : FVec F S3x128 .f32) : FVec F S1x128 .f32 :=
  (shapeCast S1x128 (shapeCast S128 (extractStridedSlice S1x128 ![0, 0] a7 slices_S3x128_S1x128_0_0) shapeCasts_S1x128_S128) shapeCasts_S128_S1x128)

/-- Layer 0's second weight matrix: slab 0 of the stack. -/
def wB0 (a8 : FVec F S3x128x128 .f32) : FVec F S128x128 .f32 :=
  (shapeCast S128x128 (extractStridedSlice S1x128x128 ![0, 0, 0] a8 slices_S3x128x128_S1x128x128_0_0_0) shapeCasts_S1x128x128_S128x128)

/-- Layer 0's second bias as a one-row matrix: row 0 of the stack. -/
def bB0 (a9 : FVec F S3x128 .f32) : FVec F S1x128 .f32 :=
  (shapeCast S1x128 (shapeCast S128 (extractStridedSlice S1x128 ![0, 0] a9 slices_S3x128_S1x128_0_0) shapeCasts_S1x128_S128) shapeCasts_S128_S1x128)

/-- Layer 0's scale row: row 0 of the stack. -/
def gamma0 (a10 : FVec F S3x128 .f32) : FVec F S1x128 .f32 :=
  (shapeCast S1x128 (shapeCast S128 (extractStridedSlice S1x128 ![0, 0] a10 slices_S3x128_S1x128_0_0) shapeCasts_S1x128_S128) shapeCasts_S128_S1x128)

/-- Layer 0's shift row: row 0 of the stack. -/
def beta0 (a11 : FVec F S3x128 .f32) : FVec F S1x128 .f32 :=
  (shapeCast S1x128 (shapeCast S128 (extractStridedSlice S1x128 ![0, 0] a11 slices_S3x128_S1x128_0_0) shapeCasts_S1x128_S128) shapeCasts_S128_S1x128)

/-- Layer 1's factor `1 + ε` as a one-entry matrix. -/
def scale1 (a5 : FVec F S3 .f32) : FVec F S1x1 .f32 :=
  (shapeCast S1x1 (addf (constant (F := F) S_ .f32 0x3F800000#32) (shapeCast S_ (extractStridedSlice S1 ![1] a5 slices_S3_S1_1) shapeCasts_S1_S_)) shapeCasts_S_S1x1)

/-- Layer 1's first weight matrix: slab 1 of the stack. -/
def wA1 (a6 : FVec F S3x128x128 .f32) : FVec F S128x128 .f32 :=
  (shapeCast S128x128 (extractStridedSlice S1x128x128 ![1, 0, 0] a6 slices_S3x128x128_S1x128x128_1_0_0) shapeCasts_S1x128x128_S128x128)

/-- Layer 1's first bias as a one-row matrix: row 1 of the stack. -/
def bA1 (a7 : FVec F S3x128 .f32) : FVec F S1x128 .f32 :=
  (shapeCast S1x128 (shapeCast S128 (extractStridedSlice S1x128 ![1, 0] a7 slices_S3x128_S1x128_1_0) shapeCasts_S1x128_S128) shapeCasts_S128_S1x128)

/-- Layer 1's second weight matrix: slab 1 of the stack. -/
def wB1 (a8 : FVec F S3x128x128 .f32) : FVec F S128x128 .f32 :=
  (shapeCast S128x128 (extractStridedSlice S1x128x128 ![1, 0, 0] a8 slices_S3x128x128_S1x128x128_1_0_0) shapeCasts_S1x128x128_S128x128)

/-- Layer 1's second bias as a one-row matrix: row 1 of the stack. -/
def bB1 (a9 : FVec F S3x128 .f32) : FVec F S1x128 .f32 :=
  (shapeCast S1x128 (shapeCast S128 (extractStridedSlice S1x128 ![1, 0] a9 slices_S3x128_S1x128_1_0) shapeCasts_S1x128_S128) shapeCasts_S128_S1x128)

/-- Layer 1's scale row: row 1 of the stack. -/
def gamma1 (a10 : FVec F S3x128 .f32) : FVec F S1x128 .f32 :=
  (shapeCast S1x128 (shapeCast S128 (extractStridedSlice S1x128 ![1, 0] a10 slices_S3x128_S1x128_1_0) shapeCasts_S1x128_S128) shapeCasts_S128_S1x128)

/-- Layer 1's shift row: row 1 of the stack. -/
def beta1 (a11 : FVec F S3x128 .f32) : FVec F S1x128 .f32 :=
  (shapeCast S1x128 (shapeCast S128 (extractStridedSlice S1x128 ![1, 0] a11 slices_S3x128_S1x128_1_0) shapeCasts_S1x128_S128) shapeCasts_S128_S1x128)

/-- Layer 2's factor `1 + ε` as a one-entry matrix. -/
def scale2 (a5 : FVec F S3 .f32) : FVec F S1x1 .f32 :=
  (shapeCast S1x1 (addf (constant (F := F) S_ .f32 0x3F800000#32) (shapeCast S_ (extractStridedSlice S1 ![2] a5 slices_S3_S1_2) shapeCasts_S1_S_)) shapeCasts_S_S1x1)

/-- Layer 2's first weight matrix: slab 2 of the stack. -/
def wA2 (a6 : FVec F S3x128x128 .f32) : FVec F S128x128 .f32 :=
  (shapeCast S128x128 (extractStridedSlice S1x128x128 ![2, 0, 0] a6 slices_S3x128x128_S1x128x128_2_0_0) shapeCasts_S1x128x128_S128x128)

/-- Layer 2's first bias as a one-row matrix: row 2 of the stack. -/
def bA2 (a7 : FVec F S3x128 .f32) : FVec F S1x128 .f32 :=
  (shapeCast S1x128 (shapeCast S128 (extractStridedSlice S1x128 ![2, 0] a7 slices_S3x128_S1x128_2_0) shapeCasts_S1x128_S128) shapeCasts_S128_S1x128)

/-- Layer 2's second weight matrix: slab 2 of the stack. -/
def wB2 (a8 : FVec F S3x128x128 .f32) : FVec F S128x128 .f32 :=
  (shapeCast S128x128 (extractStridedSlice S1x128x128 ![2, 0, 0] a8 slices_S3x128x128_S1x128x128_2_0_0) shapeCasts_S1x128x128_S128x128)

/-- Layer 2's second bias as a one-row matrix: row 2 of the stack. -/
def bB2 (a9 : FVec F S3x128 .f32) : FVec F S1x128 .f32 :=
  (shapeCast S1x128 (shapeCast S128 (extractStridedSlice S1x128 ![2, 0] a9 slices_S3x128_S1x128_2_0) shapeCasts_S1x128_S128) shapeCasts_S128_S1x128)

/-- Layer 2's scale row: row 2 of the stack. -/
def gamma2 (a10 : FVec F S3x128 .f32) : FVec F S1x128 .f32 :=
  (shapeCast S1x128 (shapeCast S128 (extractStridedSlice S1x128 ![2, 0] a10 slices_S3x128_S1x128_2_0) shapeCasts_S1x128_S128) shapeCasts_S128_S1x128)

/-- Layer 2's shift row: row 2 of the stack. -/
def beta2 (a11 : FVec F S3x128 .f32) : FVec F S1x128 .f32 :=
  (shapeCast S1x128 (shapeCast S128 (extractStridedSlice S1x128 ![2, 0] a11 slices_S3x128_S1x128_2_0) shapeCasts_S1x128_S128) shapeCasts_S128_S1x128)

/-- The read-out's first bias as a one-row matrix. -/
def hb1 (a13 : FVec F S128 .f32) : FVec F S1x128 .f32 :=
  (shapeCast S1x128 a13 shapeCasts_S128_S1x128)

/-- The read-out's second bias as a one-row matrix. -/
def hb2 (a15 : FVec F S128 .f32) : FVec F S1x128 .f32 :=
  (shapeCast S1x128 a15 shapeCasts_S128_S1x128)

/-- The read-out's last bias as a one-entry matrix. -/
def hb3 (a17 : FVec F S1 .f32) : FVec F S1x1 .f32 :=
  (shapeCast S1x1 a17 shapeCasts_S1_S1x1)

end Cert.KernelIdeal.Stage

end
-- ==== Proof.KFold.lean ====
/-
  What the idealized kernel program's host stretches leave in the buffers its kernel regions read: for any buffer
  contents `U` before the three stretches that precede a region, each buffer the region reads is the stage function
  (module KStage) of the buffers the stretches read, and a buffer they do not write is unchanged.
-/
import proofs.«124610_j72327249264834_2_alg».proof.Proof.KStage
import proofs.«124610_j72327249264834_2_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

theorem f0_x (U : Valuation τ sig (Elt F)) : (StableHlo.after hostOps0_2 (StableHlo.after hostOps0_1 (StableHlo.after hostOps0 U))) (Proc.devRef .tc main_v6)
    = Stage.x0 (U (Proc.devRef .tc main_arg0)) (U (Proc.devRef .tc main_arg3)) := by
  after_results_simp
  try rfl

theorem f0_ea (U : Valuation τ sig (Elt F)) : (StableHlo.after hostOps0_2 (StableHlo.after hostOps0_1 (StableHlo.after hostOps0 U))) (Proc.devRef .tc main_v13)
    = Stage.ea (U (Proc.devRef .tc main_arg1)) (U (Proc.devRef .tc main_arg4)) := by
  after_results_simp
  try rfl

theorem f0_src (U : Valuation τ sig (Elt F)) : (StableHlo.after hostOps0_2 (StableHlo.after hostOps0_1 (StableHlo.after hostOps0 U))) (Proc.devRef .tc main_v15)
    = Stage.src (U (Proc.devRef .tc main_arg2)) := by
  after_results_simp
  try rfl

theorem f0_dst (U : Valuation τ sig (Elt F)) : (StableHlo.after hostOps0_2 (StableHlo.after hostOps0_1 (StableHlo.after hostOps0 U))) (Proc.devRef .tc main_v17)
    = Stage.dst (U (Proc.devRef .tc main_arg2)) := by
  after_results_simp
  try rfl

theorem f0_agg (U : Valuation τ sig (Elt F)) : (StableHlo.after hostOps0_2 (StableHlo.after hostOps0_1 (StableHlo.after hostOps0 U))) (Proc.devRef .tc main_v29)
    = Stage.agg (Stage.x0 (U (Proc.devRef .tc main_arg0)) (U (Proc.devRef .tc main_arg3))) (Stage.ea (U (Proc.devRef .tc main_arg1)) (U (Proc.devRef .tc main_arg4))) (Stage.src (U (Proc.devRef .tc main_arg2))) (Stage.dst (U (Proc.devRef .tc main_arg2))) := by
  after_results_simp
  try rfl

theorem f0_sc (U : Valuation τ sig (Elt F)) : (StableHlo.after hostOps0_2 (StableHlo.after hostOps0_1 (StableHlo.after hostOps0 U))) (Proc.devRef .tc main_v33)
    = Stage.scale0 (U (Proc.devRef .tc main_arg5)) := by
  after_results_simp
  try rfl

theorem f0_wA (U : Valuation τ sig (Elt F)) : (StableHlo.after hostOps0_2 (StableHlo.after hostOps0_1 (StableHlo.after hostOps0 U))) (Proc.devRef .tc main_v35)
    = Stage.wA0 (U (Proc.devRef .tc main_arg6)) := by
  after_results_simp
  try rfl

theorem f0_bA (U : Valuation τ sig (Elt F)) : (StableHlo.after hostOps0_2 (StableHlo.after hostOps0_1 (StableHlo.after hostOps0 U))) (Proc.devRef .tc main_v38)
    = Stage.bA0 (U (Proc.devRef .tc main_arg7)) := by
  after_results_simp
  try rfl

theorem f0_wB (U : Valuation τ sig (Elt F)) : (StableHlo.after hostOps0_2 (StableHlo.after hostOps0_1 (StableHlo.after hostOps0 U))) (Proc.devRef .tc main_v40)
    = Stage.wB0 (U (Proc.devRef .tc main_arg8)) := by
  after_results_simp
  try rfl

theorem f0_bB (U : Valuation τ sig (Elt F)) : (StableHlo.after hostOps0_2 (StableHlo.after hostOps0_1 (StableHlo.after hostOps0 U))) (Proc.devRef .tc main_v43)
    = Stage.bB0 (U (Proc.devRef .tc main_arg9)) := by
  after_results_simp
  try rfl

theorem f2_sc (U : Valuation τ sig (Elt F)) : (StableHlo.after hostOps2_2 (StableHlo.after hostOps2_1 (StableHlo.after hostOps2 U))) (Proc.devRef .tc main_v76)
    = Stage.scale1 (U (Proc.devRef .tc main_arg5)) := by
  after_results_simp
  try rfl

theorem f2_wA (U : Valuation τ sig (Elt F)) : (StableHlo.after hostOps2_2 (StableHlo.after hostOps2_1 (StableHlo.after hostOps2 U))) (Proc.devRef .tc main_v78)
    = Stage.wA1 (U (Proc.devRef .tc main_arg6)) := by
  after_results_simp
  try rfl

theorem f2_bA (U : Valuation τ sig (Elt F)) : (StableHlo.after hostOps2_2 (StableHlo.after hostOps2_1 (StableHlo.after hostOps2 U))) (Proc.devRef .tc main_v81)
    = Stage.bA1 (U (Proc.devRef .tc main_arg7)) := by
  after_results_simp
  try rfl

theorem f2_wB (U : Valuation τ sig (Elt F)) : (StableHlo.after hostOps2_2 (StableHlo.after hostOps2_1 (StableHlo.after hostOps2 U))) (Proc.devRef .tc main_v83)
    = Stage.wB1 (U (Proc.devRef .tc main_arg8)) := by
  after_results_simp
  try rfl

theorem f2_bB (U : Valuation τ sig (Elt F)) : (StableHlo.after hostOps2_2 (StableHlo.after hostOps2_1 (StableHlo.after hostOps2 U))) (Proc.devRef .tc main_v86)
    = Stage.bB1 (U (Proc.devRef .tc main_arg9)) := by
  after_results_simp
  try rfl

theorem f4_sc (U : Valuation τ sig (Elt F)) : (StableHlo.after hostOps4_2 (StableHlo.after hostOps4_1 (StableHlo.after hostOps4 U))) (Proc.devRef .tc main_v119)
    = Stage.scale2 (U (Proc.devRef .tc main_arg5)) := by
  after_results_simp
  try rfl

theorem f4_wA (U : Valuation τ sig (Elt F)) : (StableHlo.after hostOps4_2 (StableHlo.after hostOps4_1 (StableHlo.after hostOps4 U))) (Proc.devRef .tc main_v121)
    = Stage.wA2 (U (Proc.devRef .tc main_arg6)) := by
  after_results_simp
  try rfl

theorem f4_bA (U : Valuation τ sig (Elt F)) : (StableHlo.after hostOps4_2 (StableHlo.after hostOps4_1 (StableHlo.after hostOps4 U))) (Proc.devRef .tc main_v124)
    = Stage.bA2 (U (Proc.devRef .tc main_arg7)) := by
  after_results_simp
  try rfl

theorem f4_wB (U : Valuation τ sig (Elt F)) : (StableHlo.after hostOps4_2 (StableHlo.after hostOps4_1 (StableHlo.after hostOps4 U))) (Proc.devRef .tc main_v126)
    = Stage.wB2 (U (Proc.devRef .tc main_arg8)) := by
  after_results_simp
  try rfl

theorem f4_bB (U : Valuation τ sig (Elt F)) : (StableHlo.after hostOps4_2 (StableHlo.after hostOps4_1 (StableHlo.after hostOps4 U))) (Proc.devRef .tc main_v129)
    = Stage.bB2 (U (Proc.devRef .tc main_arg9)) := by
  after_results_simp
  try rfl

theorem f2_x (U : Valuation τ sig (Elt F)) : (StableHlo.after hostOps2_2 (StableHlo.after hostOps2_1 (StableHlo.after hostOps2 U))) (Proc.devRef .tc main_v60)
    = (U (Proc.devRef .tc main_v60)) := by
  after_results_simp
  try rfl

theorem f2_agg (U : Valuation τ sig (Elt F)) : (StableHlo.after hostOps2_2 (StableHlo.after hostOps2_1 (StableHlo.after hostOps2 U))) (Proc.devRef .tc main_v72)
    = Stage.agg (U (Proc.devRef .tc main_v60)) (U (Proc.devRef .tc main_v13)) (U (Proc.devRef .tc main_v15)) (U (Proc.devRef .tc main_v17)) := by
  after_results_simp
  try rfl

theorem f4_x (U : Valuation τ sig (Elt F)) : (StableHlo.after hostOps4_2 (StableHlo.after hostOps4_1 (StableHlo.after hostOps4 U))) (Proc.devRef .tc main_v103)
    = (U (Proc.devRef .tc main_v103)) := by
  after_results_simp
  try rfl

theorem f4_agg (U : Valuation τ sig (Elt F)) : (StableHlo.after hostOps4_2 (StableHlo.after hostOps4_1 (StableHlo.after hostOps4 U))) (Proc.devRef .tc main_v115)
    = Stage.agg (U (Proc.devRef .tc main_v103)) (U (Proc.devRef .tc main_v13)) (U (Proc.devRef .tc main_v15)) (U (Proc.devRef .tc main_v17)) := by
  after_results_simp
  try rfl

theorem f1_h (U : Valuation τ sig (Elt F)) : (StableHlo.after hostOps1_2 (StableHlo.after hostOps1_1 (StableHlo.after hostOps1 U))) (Proc.devRef .tc main_v44)
    = (U (Proc.devRef .tc main_v44)) := by
  after_results_simp
  try rfl

theorem f1_mu (U : Valuation τ sig (Elt F)) : (StableHlo.after hostOps1_2 (StableHlo.after hostOps1_1 (StableHlo.after hostOps1 U))) (Proc.devRef .tc main_v48)
    = Stage.rowOf (Stage.meanArr (U (Proc.devRef .tc main_v44))) := by
  after_results_simp
  try rfl

theorem f1_inv (U : Valuation τ sig (Elt F)) : (StableHlo.after hostOps1_2 (StableHlo.after hostOps1_1 (StableHlo.after hostOps1 U))) (Proc.devRef .tc main_v53)
    = Stage.invRow (Stage.varArr (U (Proc.devRef .tc main_v44))) := by
  after_results_simp
  try rfl

theorem f1_ga (U : Valuation τ sig (Elt F)) : (StableHlo.after hostOps1_2 (StableHlo.after hostOps1_1 (StableHlo.after hostOps1 U))) (Proc.devRef .tc main_v56)
    = Stage.gamma0 (U (Proc.devRef .tc main_arg10)) := by
  after_results_simp
  try rfl

theorem f1_be (U : Valuation τ sig (Elt F)) : (StableHlo.after hostOps1_2 (StableHlo.after hostOps1_1 (StableHlo.after hostOps1 U))) (Proc.devRef .tc main_v59)
    = Stage.beta0 (U (Proc.devRef .tc main_arg11)) := by
  after_results_simp
  try rfl

theorem f3_h (U : Valuation τ sig (Elt F)) : (StableHlo.after hostOps3_2 (StableHlo.after hostOps3_1 (StableHlo.after hostOps3 U))) (Proc.devRef .tc main_v87)
    = (U (Proc.devRef .tc main_v87)) := by
  after_results_simp
  try rfl

theorem f3_mu (U : Valuation τ sig (Elt F)) : (StableHlo.after hostOps3_2 (StableHlo.after hostOps3_1 (StableHlo.after hostOps3 U))) (Proc.devRef .tc main_v91)
    = Stage.rowOf (Stage.meanArr (U (Proc.devRef .tc main_v87))) := by
  after_results_simp
  try rfl

theorem f3_inv (U : Valuation τ sig (Elt F)) : (StableHlo.after hostOps3_2 (StableHlo.after hostOps3_1 (StableHlo.after hostOps3 U))) (Proc.devRef .tc main_v96)
    = Stage.invRow (Stage.varArr (U (Proc.devRef .tc main_v87))) := by
  after_results_simp
  try rfl

theorem f3_ga (U : Valuation τ sig (Elt F)) : (StableHlo.after hostOps3_2 (StableHlo.after hostOps3_1 (StableHlo.after hostOps3 U))) (Proc.devRef .tc main_v99)
    = Stage.gamma1 (U (Proc.devRef .tc main_arg10)) := by
  after_results_simp
  try rfl

theorem f3_be (U : Valuation τ sig (Elt F)) : (StableHlo.after hostOps3_2 (StableHlo.after hostOps3_1 (StableHlo.after hostOps3 U))) (Proc.devRef .tc main_v102)
    = Stage.beta1 (U (Proc.devRef .tc main_arg11)) := by
  after_results_simp
  try rfl

theorem f5_h (U : Valuation τ sig (Elt F)) : (StableHlo.after hostOps5_2 (StableHlo.after hostOps5_1 (StableHlo.after hostOps5 U))) (Proc.devRef .tc main_v130)
    = (U (Proc.devRef .tc main_v130)) := by
  after_results_simp
  try rfl

theorem f5_mu (U : Valuation τ sig (Elt F)) : (StableHlo.after hostOps5_2 (StableHlo.after hostOps5_1 (StableHlo.after hostOps5 U))) (Proc.devRef .tc main_v134)
    = Stage.rowOf (Stage.meanArr (U (Proc.devRef .tc main_v130))) := by
  after_results_simp
  try rfl

theorem f5_inv (U : Valuation τ sig (Elt F)) : (StableHlo.after hostOps5_2 (StableHlo.after hostOps5_1 (StableHlo.after hostOps5 U))) (Proc.devRef .tc main_v139)
    = Stage.invRow (Stage.varArr (U (Proc.devRef .tc main_v130))) := by
  after_results_simp
  try rfl

theorem f5_ga (U : Valuation τ sig (Elt F)) : (StableHlo.after hostOps5_2 (StableHlo.after hostOps5_1 (StableHlo.after hostOps5 U))) (Proc.devRef .tc main_v142)
    = Stage.gamma2 (U (Proc.devRef .tc main_arg10)) := by
  after_results_simp
  try rfl

theorem f5_be (U : Valuation τ sig (Elt F)) : (StableHlo.after hostOps5_2 (StableHlo.after hostOps5_1 (StableHlo.after hostOps5 U))) (Proc.devRef .tc main_v145)
    = Stage.beta2 (U (Proc.devRef .tc main_arg11)) := by
  after_results_simp
  try rfl

theorem f6_x (U : Valuation τ sig (Elt F)) : (StableHlo.after hostOps6 U) (Proc.devRef .tc main_v146)
    = (U (Proc.devRef .tc main_v146)) := by
  after_results_simp
  try rfl

theorem f6_w1 (U : Valuation τ sig (Elt F)) : (StableHlo.after hostOps6 U) (Proc.devRef .tc main_arg12)
    = (U (Proc.devRef .tc main_arg12)) := by
  after_results_simp
  try rfl

theorem f6_w2 (U : Valuation τ sig (Elt F)) : (StableHlo.after hostOps6 U) (Proc.devRef .tc main_arg14)
    = (U (Proc.devRef .tc main_arg14)) := by
  after_results_simp
  try rfl

theorem f6_w3 (U : Valuation τ sig (Elt F)) : (StableHlo.after hostOps6 U) (Proc.devRef .tc main_arg16)
    = (U (Proc.devRef .tc main_arg16)) := by
  after_results_simp
  try rfl

theorem f6_b1 (U : Valuation τ sig (Elt F)) : (StableHlo.after hostOps6 U) (Proc.devRef .tc main_v147)
    = Stage.hb1 (U (Proc.devRef .tc main_arg13)) := by
  after_results_simp
  try rfl

theorem f6_b2 (U : Valuation τ sig (Elt F)) : (StableHlo.after hostOps6 U) (Proc.devRef .tc main_v148)
    = Stage.hb2 (U (Proc.devRef .tc main_arg15)) := by
  after_results_simp
  try rfl

theorem f6_b3 (U : Valuation τ sig (Elt F)) : (StableHlo.after hostOps6 U) (Proc.devRef .tc main_v149)
    = Stage.hb3 (U (Proc.devRef .tc main_arg17)) := by
  after_results_simp
  try rfl

end Cert.KernelIdeal.Hand

end
-- ==== Proof.KWrites.lean ====
/-
  Which buffers each stretch of host operations of the idealized kernel program writes, and that every other
  buffer keeps its contents across the stretch.
-/
import proofs.«124610_j72327249264834_2_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The buffers `hostOps0` writes. -/
abbrev wl0 : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_c_3, main_v18, main_v19, main_c_4, main_v20, main_v21, main_v22, main_v23, main_v24, main_v25]

theorem writes0 : (hostOps0 : List (HloOp τ sig (Elt F))).Forall fun op => op.writes ⊆ (wl0.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps0` does not write keeps its contents. -/
theorem keep0 (U : Valuation τ sig (Elt F)) (r : Ref sig .tc) (hr : r ∉ wl0) :
    StableHlo.after hostOps0 U (Proc.devRef .tc r) = U (Proc.devRef .tc r) :=
  StableHlo.after_of_writes_sub hostOps0 U writes0 hr

/-- The buffers `hostOps0_1` writes. -/
abbrev wl0_1 : List (Ref sig .tc) := [main_call0_cst, main_call0_v0, main_v26]

theorem writes0_1 : (hostOps0_1 : List (HloOp τ sig (Elt F))).Forall fun op => op.writes ⊆ (wl0_1.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps0_1` does not write keeps its contents. -/
theorem keep0_1 (U : Valuation τ sig (Elt F)) (r : Ref sig .tc) (hr : r ∉ wl0_1) :
    StableHlo.after hostOps0_1 U (Proc.devRef .tc r) = U (Proc.devRef .tc r) :=
  StableHlo.after_of_writes_sub hostOps0_1 U writes0_1 hr

/-- The buffers `hostOps0_2` writes. -/
abbrev wl0_2 : List (Ref sig .tc) := [main_cst, main_v27, main_v28, main_v29, main_v30, main_v31, main_cst_5, main_v32, main_v33, main_v34, main_v35, main_v36, main_v37, main_v38, main_v39, main_v40, main_v41, main_v42, main_v43]

theorem writes0_2 : (hostOps0_2 : List (HloOp τ sig (Elt F))).Forall fun op => op.writes ⊆ (wl0_2.map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps0_2` does not write keeps its contents. -/
theorem keep0_2 (U : Valuation τ sig (Elt F)) (r : Ref sig .tc) (hr : r ∉ wl0_2) :
    StableHlo.after hostOps0_2 U (Proc.devRef .tc r) = U (Proc.devRef .tc r) :=
  StableHlo.after_of_writes_sub hostOps0_2 U writes0_2 hr

/-- The buffers `hostOps1` writes. -/
abbrev wl1 : List (Ref sig .tc) := [main_cst_6, main_v45, main_cst_7, main_v46, main_v47, main_v48, main_c_8]

theorem writes1 : (hostOps1 : List (HloOp τ sig (Elt F))).Forall fun op => op.writes ⊆ (wl1.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps1` does not write keeps its contents. -/
theorem keep1 (U : Valuation τ sig (Elt F)) (r : Ref sig .tc) (hr : r ∉ wl1) :
    StableHlo.after hostOps1 U (Proc.devRef .tc r) = U (Proc.devRef .tc r) :=
  StableHlo.after_of_writes_sub hostOps1 U writes1 hr

/-- The buffers `hostOps1_1` writes. -/
abbrev wl1_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v49]

theorem writes1_1 : (hostOps1_1 : List (HloOp τ sig (Elt F))).Forall fun op => op.writes ⊆ (wl1_1.map (Proc.devRef (τ := τ) .tc)).toFinset := by
  simp only [hostOps1_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps1_1` does not write keeps its contents. -/
theorem keep1_1 (U : Valuation τ sig (Elt F)) (r : Ref sig .tc) (hr : r ∉ wl1_1) :
    StableHlo.after hostOps1_1 U (Proc.devRef .tc r) = U (Proc.devRef .tc r) :=
  StableHlo.after_of_writes_sub hostOps1_1 U writes1_1 hr

/-- The buffers `hostOps1_2` writes. -/
abbrev wl1_2 : List (Ref sig .tc) := [main_v50, main_cst_9, main_v51, main_v52, main_v53, main_v54, main_v55, main_v56, main_v57, main_v58, main_v59]

theorem writes1_2 : (hostOps1_2 : List (HloOp τ sig (Elt F))).Forall fun op => op.writes ⊆ (wl1_2.map (Proc.devRef (τ := τ) .tc)).toFinset := by
  simp only [hostOps1_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps1_2` does not write keeps its contents. -/
theorem keep1_2 (U : Valuation τ sig (Elt F)) (r : Ref sig .tc) (hr : r ∉ wl1_2) :
    StableHlo.after hostOps1_2 U (Proc.devRef .tc r) = U (Proc.devRef .tc r) :=
  StableHlo.after_of_writes_sub hostOps1_2 U writes1_2 hr

/-- The buffers `hostOps2` writes. -/
abbrev wl2 : List (Ref sig .tc) := [main_c_10, main_v61, main_v62, main_c_11, main_v63, main_v64, main_v65, main_v66, main_v67, main_v68]

theorem writes2 : (hostOps2 : List (HloOp τ sig (Elt F))).Forall fun op => op.writes ⊆ (wl2.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps2` does not write keeps its contents. -/
theorem keep2 (U : Valuation τ sig (Elt F)) (r : Ref sig .tc) (hr : r ∉ wl2) :
    StableHlo.after hostOps2 U (Proc.devRef .tc r) = U (Proc.devRef .tc r) :=
  StableHlo.after_of_writes_sub hostOps2 U writes2 hr

/-- The buffers `hostOps2_1` writes. -/
abbrev wl2_1 : List (Ref sig .tc) := [main_call2_cst, main_call2_v0, main_v69]

theorem writes2_1 : (hostOps2_1 : List (HloOp τ sig (Elt F))).Forall fun op => op.writes ⊆ (wl2_1.map (Proc.devRef (τ := τ) .tc)).toFinset := by
  simp only [hostOps2_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps2_1` does not write keeps its contents. -/
theorem keep2_1 (U : Valuation τ sig (Elt F)) (r : Ref sig .tc) (hr : r ∉ wl2_1) :
    StableHlo.after hostOps2_1 U (Proc.devRef .tc r) = U (Proc.devRef .tc r) :=
  StableHlo.after_of_writes_sub hostOps2_1 U writes2_1 hr

/-- The buffers `hostOps2_2` writes. -/
abbrev wl2_2 : List (Ref sig .tc) := [main_cst_12, main_v70, main_v71, main_v72, main_v73, main_v74, main_cst_13, main_v75, main_v76, main_v77, main_v78, main_v79, main_v80, main_v81, main_v82, main_v83, main_v84, main_v85, main_v86]

theorem writes2_2 : (hostOps2_2 : List (HloOp τ sig (Elt F))).Forall fun op => op.writes ⊆ (wl2_2.map (Proc.devRef (τ := τ) .tc)).toFinset := by
  simp only [hostOps2_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps2_2` does not write keeps its contents. -/
theorem keep2_2 (U : Valuation τ sig (Elt F)) (r : Ref sig .tc) (hr : r ∉ wl2_2) :
    StableHlo.after hostOps2_2 U (Proc.devRef .tc r) = U (Proc.devRef .tc r) :=
  StableHlo.after_of_writes_sub hostOps2_2 U writes2_2 hr

/-- The buffers `hostOps3` writes. -/
abbrev wl3 : List (Ref sig .tc) := [main_cst_14, main_v88, main_cst_15, main_v89, main_v90, main_v91, main_c_16]

theorem writes3 : (hostOps3 : List (HloOp τ sig (Elt F))).Forall fun op => op.writes ⊆ (wl3.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps3` does not write keeps its contents. -/
theorem keep3 (U : Valuation τ sig (Elt F)) (r : Ref sig .tc) (hr : r ∉ wl3) :
    StableHlo.after hostOps3 U (Proc.devRef .tc r) = U (Proc.devRef .tc r) :=
  StableHlo.after_of_writes_sub hostOps3 U writes3 hr

/-- The buffers `hostOps3_1` writes. -/
abbrev wl3_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v92]

theorem writes3_1 : (hostOps3_1 : List (HloOp τ sig (Elt F))).Forall fun op => op.writes ⊆ (wl3_1.map (Proc.devRef (τ := τ) .tc)).toFinset := by
  simp only [hostOps3_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps3_1` does not write keeps its contents. -/
theorem keep3_1 (U : Valuation τ sig (Elt F)) (r : Ref sig .tc) (hr : r ∉ wl3_1) :
    StableHlo.after hostOps3_1 U (Proc.devRef .tc r) = U (Proc.devRef .tc r) :=
  StableHlo.after_of_writes_sub hostOps3_1 U writes3_1 hr

/-- The buffers `hostOps3_2` writes. -/
abbrev wl3_2 : List (Ref sig .tc) := [main_v93, main_cst_17, main_v94, main_v95, main_v96, main_v97, main_v98, main_v99, main_v100, main_v101, main_v102]

theorem writes3_2 : (hostOps3_2 : List (HloOp τ sig (Elt F))).Forall fun op => op.writes ⊆ (wl3_2.map (Proc.devRef (τ := τ) .tc)).toFinset := by
  simp only [hostOps3_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps3_2` does not write keeps its contents. -/
theorem keep3_2 (U : Valuation τ sig (Elt F)) (r : Ref sig .tc) (hr : r ∉ wl3_2) :
    StableHlo.after hostOps3_2 U (Proc.devRef .tc r) = U (Proc.devRef .tc r) :=
  StableHlo.after_of_writes_sub hostOps3_2 U writes3_2 hr

/-- The buffers `hostOps4` writes. -/
abbrev wl4 : List (Ref sig .tc) := [main_c_18, main_v104, main_v105, main_c_19, main_v106, main_v107, main_v108, main_v109, main_v110, main_v111]

theorem writes4 : (hostOps4 : List (HloOp τ sig (Elt F))).Forall fun op => op.writes ⊆ (wl4.map (Proc.devRef (τ := τ) .tc)).toFinset := by
  simp only [hostOps4, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps4` does not write keeps its contents. -/
theorem keep4 (U : Valuation τ sig (Elt F)) (r : Ref sig .tc) (hr : r ∉ wl4) :
    StableHlo.after hostOps4 U (Proc.devRef .tc r) = U (Proc.devRef .tc r) :=
  StableHlo.after_of_writes_sub hostOps4 U writes4 hr

/-- The buffers `hostOps4_1` writes. -/
abbrev wl4_1 : List (Ref sig .tc) := [main_call4_cst, main_call4_v0, main_v112]

theorem writes4_1 : (hostOps4_1 : List (HloOp τ sig (Elt F))).Forall fun op => op.writes ⊆ (wl4_1.map (Proc.devRef (τ := τ) .tc)).toFinset := by
  simp only [hostOps4_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps4_1` does not write keeps its contents. -/
theorem keep4_1 (U : Valuation τ sig (Elt F)) (r : Ref sig .tc) (hr : r ∉ wl4_1) :
    StableHlo.after hostOps4_1 U (Proc.devRef .tc r) = U (Proc.devRef .tc r) :=
  StableHlo.after_of_writes_sub hostOps4_1 U writes4_1 hr

/-- The buffers `hostOps4_2` writes. -/
abbrev wl4_2 : List (Ref sig .tc) := [main_cst_20, main_v113, main_v114, main_v115, main_v116, main_v117, main_cst_21, main_v118, main_v119, main_v120, main_v121, main_v122, main_v123, main_v124, main_v125, main_v126, main_v127, main_v128, main_v129]

theorem writes4_2 : (hostOps4_2 : List (HloOp τ sig (Elt F))).Forall fun op => op.writes ⊆ (wl4_2.map (Proc.devRef (τ := τ) .tc)).toFinset := by
  simp only [hostOps4_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps4_2` does not write keeps its contents. -/
theorem keep4_2 (U : Valuation τ sig (Elt F)) (r : Ref sig .tc) (hr : r ∉ wl4_2) :
    StableHlo.after hostOps4_2 U (Proc.devRef .tc r) = U (Proc.devRef .tc r) :=
  StableHlo.after_of_writes_sub hostOps4_2 U writes4_2 hr

/-- The buffers `hostOps5` writes. -/
abbrev wl5 : List (Ref sig .tc) := [main_cst_22, main_v131, main_cst_23, main_v132, main_v133, main_v134, main_c_24]

theorem writes5 : (hostOps5 : List (HloOp τ sig (Elt F))).Forall fun op => op.writes ⊆ (wl5.map (Proc.devRef (τ := τ) .tc)).toFinset := by
  simp only [hostOps5, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps5` does not write keeps its contents. -/
theorem keep5 (U : Valuation τ sig (Elt F)) (r : Ref sig .tc) (hr : r ∉ wl5) :
    StableHlo.after hostOps5 U (Proc.devRef .tc r) = U (Proc.devRef .tc r) :=
  StableHlo.after_of_writes_sub hostOps5 U writes5 hr

/-- The buffers `hostOps5_1` writes. -/
abbrev wl5_1 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v135]

theorem writes5_1 : (hostOps5_1 : List (HloOp τ sig (Elt F))).Forall fun op => op.writes ⊆ (wl5_1.map (Proc.devRef (τ := τ) .tc)).toFinset := by
  simp only [hostOps5_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps5_1` does not write keeps its contents. -/
theorem keep5_1 (U : Valuation τ sig (Elt F)) (r : Ref sig .tc) (hr : r ∉ wl5_1) :
    StableHlo.after hostOps5_1 U (Proc.devRef .tc r) = U (Proc.devRef .tc r) :=
  StableHlo.after_of_writes_sub hostOps5_1 U writes5_1 hr

/-- The buffers `hostOps5_2` writes. -/
abbrev wl5_2 : List (Ref sig .tc) := [main_v136, main_cst_25, main_v137, main_v138, main_v139, main_v140, main_v141, main_v142, main_v143, main_v144, main_v145]

theorem writes5_2 : (hostOps5_2 : List (HloOp τ sig (Elt F))).Forall fun op => op.writes ⊆ (wl5_2.map (Proc.devRef (τ := τ) .tc)).toFinset := by
  simp only [hostOps5_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps5_2` does not write keeps its contents. -/
theorem keep5_2 (U : Valuation τ sig (Elt F)) (r : Ref sig .tc) (hr : r ∉ wl5_2) :
    StableHlo.after hostOps5_2 U (Proc.devRef .tc r) = U (Proc.devRef .tc r) :=
  StableHlo.after_of_writes_sub hostOps5_2 U writes5_2 hr

/-- The buffers `hostOps6` writes. -/
abbrev wl6 : List (Ref sig .tc) := [main_v147, main_v148, main_v149]

theorem writes6 : (hostOps6 : List (HloOp τ sig (Elt F))).Forall fun op => op.writes ⊆ (wl6.map (Proc.devRef (τ := τ) .tc)).toFinset := by
  simp only [hostOps6, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- A buffer `hostOps6` does not write keeps its contents. -/
theorem keep6 (U : Valuation τ sig (Elt F)) (r : Ref sig .tc) (hr : r ∉ wl6) :
    StableHlo.after hostOps6 U (Proc.devRef .tc r) = U (Proc.devRef .tc r) :=
  StableHlo.after_of_writes_sub hostOps6 U writes6 hr

end Cert.KernelIdeal.Hand

end
-- ==== Proof.Spec.lean ====
/-
  The mathematics both programs compute, stated once, row by row, over the extended reals.

  A node feature matrix has 50000 rows (nodes) and 128 columns.  One message-passing layer updates every
  row independently of the others: `nodeRow` is the two-layer perceptron applied to `x·s + agg`
  (`s = 1 + ε`), `bnRow` the affine normalisation `(h − μ)·σ⁻¹·γ + β` followed by `max · 0`, with the
  column statistics `μ`, `σ⁻¹` given, and `headRow` the three-layer read-out perceptron.  Sums are
  finite sums of extended reals over the 128 hidden units; nothing here needs finiteness of the entries.
-/
import Idealize.ShloMosaic.PureOps.Ideal
import Idealize.ShloMosaic.Lib.ValueIdx

noncomputable section

namespace Cert.Spec

open Idealize.ShloMosaic Idealize.ShloMosaic.ValueIdx

/-- A real-extended matrix with `r` rows and `c` columns, indexed as the printed programs index arrays. -/
abbrev Mat (r c : Nat) : Type := (⟨2, ![r, c]⟩ : Shape).Idx → EReal

/-- The hidden layer of the node update at row `r`, unit `k`: `max (Σᵢ (x r i · s + agg r i) · w1 i k + b1 k) 0`. -/
def nodeHidden (x agg : Mat 50000 128) (s : EReal) (w1 : Mat 128 128) (b1 : Fin 128 → EReal)
    (r : Fin 50000) (k : Fin 128) : EReal :=
  max ((∑ i : Fin 128, (x (ix2 r i) * s + agg (ix2 r i)) * w1 (ix2 i k)) + b1 k) 0

/-- The node update at row `r`, column `c`: `Σₖ hidden r k · w2 k c + b2 c`. -/
def nodeRow (x agg : Mat 50000 128) (s : EReal) (w1 : Mat 128 128) (b1 : Fin 128 → EReal)
    (w2 : Mat 128 128) (b2 : Fin 128 → EReal) (r : Fin 50000) (c : Fin 128) : EReal :=
  (∑ k : Fin 128, nodeHidden x agg s w1 b1 r k * w2 (ix2 k c)) + b2 c

/-- The node update as a matrix. -/
def nodeMlp (x agg : Mat 50000 128) (s : EReal) (w1 : Mat 128 128) (b1 : Fin 128 → EReal)
    (w2 : Mat 128 128) (b2 : Fin 128 → EReal) : Mat 50000 128 :=
  fun j => nodeRow x agg s w1 b1 w2 b2 (j 0) (j 1)

/-- Normalisation, affine map and rectification of one entry, the column statistics given. -/
def bnRow (h : Mat 50000 128) (mu inv ga be : Fin 128 → EReal) (r : Fin 50000) (c : Fin 128) : EReal :=
  max ((h (ix2 r c) - mu c) * inv c * ga c + be c) 0

/-- The same as a matrix. -/
def bnAct (h : Mat 50000 128) (mu inv ga be : Fin 128 → EReal) : Mat 50000 128 :=
  fun j => bnRow h mu inv ga be (j 0) (j 1)

/-- First hidden layer of the read-out at row `r`, unit `i`. -/
def headHidden1 (x : Mat 50000 128) (w1 : Mat 128 128) (b1 : Fin 128 → EReal) (r : Fin 50000) (i : Fin 128) : EReal :=
  max ((∑ a : Fin 128, x (ix2 r a) * w1 (ix2 a i)) + b1 i) 0

/-- Second hidden layer of the read-out at row `r`, unit `k`. -/
def headHidden2 (x : Mat 50000 128) (w1 : Mat 128 128) (b1 : Fin 128 → EReal) (w2 : Mat 128 128)
    (b2 : Fin 128 → EReal) (r : Fin 50000) (k : Fin 128) : EReal :=
  max ((∑ i : Fin 128, headHidden1 x w1 b1 r i * w2 (ix2 i k)) + b2 k) 0

/-- The read-out at row `r` (its one column `c`). -/
def headRow (x : Mat 50000 128) (w1 : Mat 128 128) (b1 : Fin 128 → EReal) (w2 : Mat 128 128)
    (b2 : Fin 128 → EReal) (w3 : Mat 128 1) (b3 : EReal) (r : Fin 50000) (c : Fin 1) : EReal :=
  (∑ k : Fin 128, headHidden2 x w1 b1 w2 b2 r k * w3 (ix2 k c)) + b3

/-- The read-out as a one-column matrix. -/
def head (x : Mat 50000 128) (w1 : Mat 128 128) (b1 : Fin 128 → EReal) (w2 : Mat 128 128)
    (b2 : Fin 128 → EReal) (w3 : Mat 128 1) (b3 : EReal) : Mat 50000 1 :=
  fun j => headRow x w1 b1 w2 b2 w3 b3 (j 0) (j 1)

theorem nodeMlp_apply (x agg : Mat 50000 128) (s : EReal) (w1 : Mat 128 128) (b1 : Fin 128 → EReal)
    (w2 : Mat 128 128) (b2 : Fin 128 → EReal) (r : Fin 50000) (c : Fin 128) :
    nodeMlp x agg s w1 b1 w2 b2 (ix2 r c) = nodeRow x agg s w1 b1 w2 b2 r c := rfl

theorem bnAct_apply (h : Mat 50000 128) (mu inv ga be : Fin 128 → EReal) (r : Fin 50000) (c : Fin 128) :
    bnAct h mu inv ga be (ix2 r c) = bnRow h mu inv ga be r c := rfl

theorem head_apply (x : Mat 50000 128) (w1 : Mat 128 128) (b1 : Fin 128 → EReal) (w2 : Mat 128 128)
    (b2 : Fin 128 → EReal) (w3 : Mat 128 1) (b3 : EReal) (r : Fin 50000) (c : Fin 1) :
    head x w1 b1 w2 b2 w3 b3 (ix2 r c) = headRow x w1 b1 w2 b2 w3 b3 r c := rfl

end Cert.Spec

end
-- ==== Proof.KModel.lean ====
/-
  The whole computation as one function of the eighteen argument arrays, in the form the kernel program computes
  it: the node embedding, three layers (aggregate the edges' messages, update every node's row by a perceptron,
  normalise by the matrix's own column statistics, rectify), and the read-out perceptron.  The row-wise perceptrons
  and the normalisation are module Spec's; the embeddings, the aggregation, the statistics and the parameter
  slices are module KStage's.
-/
import proofs.«124610_j72327249264834_2_alg».proof.Proof.KStage
import proofs.«124610_j72327249264834_2_alg».proof.Proof.Spec

noncomputable section

namespace Cert.Model

open Cert.KernelIdeal Cert.KernelIdeal.Stage Cert.Spec Idealize.ShloMosaic Idealize.ShloMosaic.ValueIdx

/-- Layer 0's node update: the perceptron applied to `x · (1 + ε) + agg`, the aggregation taken over the edge list. -/
def pre0 (x : Mat 50000 128) (e : FVec Ideal S800000x128 .f32) (s d : IVec S800000 32) (a5 : FVec Ideal S3 .f32)
    (a6 : FVec Ideal S3x128x128 .f32) (a7 : FVec Ideal S3x128 .f32) (a8 : FVec Ideal S3x128x128 .f32) (a9 : FVec Ideal S3x128 .f32) : Mat 50000 128 :=
  nodeMlp x (agg (F := Ideal) x e s d) (scale0 a5 (ix2 0 0)) (wA0 a6) (fun k => bA0 a7 (ix2 0 k)) (wB0 a8) (fun k => bB0 a9 (ix2 0 k))

/-- Layer 0's normalisation of a feature matrix by its own column statistics, affine map and rectification. -/
def norm0 (h : Mat 50000 128) (a10 a11 : FVec Ideal S3x128 .f32) : Mat 50000 128 :=
  bnAct h (fun k => rowOf (meanArr (F := Ideal) h) (ix2 0 k)) (fun k => invRow (varArr (F := Ideal) h) (ix2 0 k)) (fun k => gamma0 a10 (ix2 0 k)) (fun k => beta0 a11 (ix2 0 k))

/-- Layer 0. -/
def layer0 (x : Mat 50000 128) (e : FVec Ideal S800000x128 .f32) (s d : IVec S800000 32) (a5 : FVec Ideal S3 .f32)
    (a6 : FVec Ideal S3x128x128 .f32) (a7 : FVec Ideal S3x128 .f32) (a8 : FVec Ideal S3x128x128 .f32) (a9 a10 a11 : FVec Ideal S3x128 .f32) : Mat 50000 128 :=
  norm0 (pre0 x e s d a5 a6 a7 a8 a9) a10 a11

/-- Layer 1's node update: the perceptron applied to `x · (1 + ε) + agg`, the aggregation taken over the edge list. -/
def pre1 (x : Mat 50000 128) (e : FVec Ideal S800000x128 .f32) (s d : IVec S800000 32) (a5 : FVec Ideal S3 .f32)
    (a6 : FVec Ideal S3x128x128 .f32) (a7 : FVec Ideal S3x128 .f32) (a8 : FVec Ideal S3x128x128 .f32) (a9 : FVec Ideal S3x128 .f32) : Mat 50000 128 :=
  nodeMlp x (agg (F := Ideal) x e s d) (scale1 a5 (ix2 0 0)) (wA1 a6) (fun k => bA1 a7 (ix2 0 k)) (wB1 a8) (fun k => bB1 a9 (ix2 0 k))

/-- Layer 1's normalisation of a feature matrix by its own column statistics, affine map and rectification. -/
def norm1 (h : Mat 50000 128) (a10 a11 : FVec Ideal S3x128 .f32) : Mat 50000 128 :=
  bnAct h (fun k => rowOf (meanArr (F := Ideal) h) (ix2 0 k)) (fun k => invRow (varArr (F := Ideal) h) (ix2 0 k)) (fun k => gamma1 a10 (ix2 0 k)) (fun k => beta1 a11 (ix2 0 k))

/-- Layer 1. -/
def layer1 (x : Mat 50000 128) (e : FVec Ideal S800000x128 .f32) (s d : IVec S800000 32) (a5 : FVec Ideal S3 .f32)
    (a6 : FVec Ideal S3x128x128 .f32) (a7 : FVec Ideal S3x128 .f32) (a8 : FVec Ideal S3x128x128 .f32) (a9 a10 a11 : FVec Ideal S3x128 .f32) : Mat 50000 128 :=
  norm1 (pre1 x e s d a5 a6 a7 a8 a9) a10 a11

/-- Layer 2's node update: the perceptron applied to `x · (1 + ε) + agg`, the aggregation taken over the edge list. -/
def pre2 (x : Mat 50000 128) (e : FVec Ideal S800000x128 .f32) (s d : IVec S800000 32) (a5 : FVec Ideal S3 .f32)
    (a6 : FVec Ideal S3x128x128 .f32) (a7 : FVec Ideal S3x128 .f32) (a8 : FVec Ideal S3x128x128 .f32) (a9 : FVec Ideal S3x128 .f32) : Mat 50000 128 :=
  nodeMlp x (agg (F := Ideal) x e s d) (scale2 a5 (ix2 0 0)) (wA2 a6) (fun k => bA2 a7 (ix2 0 k)) (wB2 a8) (fun k => bB2 a9 (ix2 0 k))

/-- Layer 2's normalisation of a feature matrix by its own column statistics, affine map and rectification. -/
def norm2 (h : Mat 50000 128) (a10 a11 : FVec Ideal S3x128 .f32) : Mat 50000 128 :=
  bnAct h (fun k => rowOf (meanArr (F := Ideal) h) (ix2 0 k)) (fun k => invRow (varArr (F := Ideal) h) (ix2 0 k)) (fun k => gamma2 a10 (ix2 0 k)) (fun k => beta2 a11 (ix2 0 k))

/-- Layer 2. -/
def layer2 (x : Mat 50000 128) (e : FVec Ideal S800000x128 .f32) (s d : IVec S800000 32) (a5 : FVec Ideal S3 .f32)
    (a6 : FVec Ideal S3x128x128 .f32) (a7 : FVec Ideal S3x128 .f32) (a8 : FVec Ideal S3x128x128 .f32) (a9 a10 a11 : FVec Ideal S3x128 .f32) : Mat 50000 128 :=
  norm2 (pre2 x e s d a5 a6 a7 a8 a9) a10 a11

/-- The read-out of the last layer's features. -/
def readout (x : Mat 50000 128) (a12 : FVec Ideal S128x128 .f32) (a13 : FVec Ideal S128 .f32) (a14 : FVec Ideal S128x128 .f32)
    (a15 : FVec Ideal S128 .f32) (a16 : FVec Ideal S128x1 .f32) (a17 : FVec Ideal S1 .f32) : Mat 50000 1 :=
  head x a12 (fun k => hb1 a13 (ix2 0 k)) a14 (fun k => hb2 a15 (ix2 0 k)) a16 (hb3 a17 (ix2 0 0))

/-- The result, of the eighteen arguments. -/
def out (a0 : IVec S50000 32) (a1 : IVec S800000 32) (a2 : IVec S2x800000 32) (a3 : FVec Ideal S4x128 .f32) (a4 : FVec Ideal S3x128 .f32)
    (a5 : FVec Ideal S3 .f32) (a6 : FVec Ideal S3x128x128 .f32) (a7 : FVec Ideal S3x128 .f32) (a8 : FVec Ideal S3x128x128 .f32)
    (a9 a10 a11 : FVec Ideal S3x128 .f32) (a12 : FVec Ideal S128x128 .f32) (a13 : FVec Ideal S128 .f32) (a14 : FVec Ideal S128x128 .f32)
    (a15 : FVec Ideal S128 .f32) (a16 : FVec Ideal S128x1 .f32) (a17 : FVec Ideal S1 .f32) : Mat 50000 1 :=
  readout (layer2 (layer1 (layer0 (x0 a0 a3) (ea a1 a4) (src a2) (dst a2) a5 a6 a7 a8 a9 a10 a11)
      (ea a1 a4) (src a2) (dst a2) a5 a6 a7 a8 a9 a10 a11) (ea a1 a4) (src a2) (dst a2) a5 a6 a7 a8 a9 a10 a11)
    a12 a13 a14 a15 a16 a17

end Cert.Model

end
-- ==== Proof.RegionBase.lean ====
/-
  What every region's value proof shares: the generated frame of the program, the row-by-row specification,
  and the one fact about the offsets of a whole-buffer rectangle.
-/
import proofs.«124610_j72327249264834_2_alg».proof.Proof.Gen.KernelIdeal.Frame
import proofs.«124610_j72327249264834_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The offsets of a rectangle that is a whole two-axis buffer are zero on both axes. -/
theorem zeroOffsets2 : (![0, 0] : Fin 2 → Nat) = fun _ => 0 := funext fun a => by fin_cases a <;> rfl

end Cert.KernelIdeal.RegionValue

end
-- ==== Proof.BlockProducts.lean ====
/-
  The two matrix products the bodies apply to a block of 5000 rows, read at one entry.

  Both contract the 128 columns of the block against the 128 rows of a weight matrix and accumulate into zero, so
  at the ideal values entry `(p, q)` of the product is the plain sum `Σₖ lhs (p, k) · rhs (k, q)`.
-/
import proofs.«124610_j72327249264834_2_alg».proof.Proof.RegionBase

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The contraction of a 5000×128 block with a 128×128 matrix: axis 1 of the block against axis 0 of the matrix. -/
abbrev rowsByMatrix := Cert.KernelIdeal.dot_S5000x128_S128x128_S5000x128_1_0_0_1_n_n

/-- The block operand is read at the output's row, -/
theorem rowsByMatrix_lhs0 (j : S5000x128.Idx) (k : rowsByMatrix.contr.Idx) : (rowsByMatrix.lhsIdx j k 0 : ℕ) = j 0 := by
  simp [DotDims.lhsIdx, rowsByMatrix, Cert.KernelIdeal.dot_S5000x128_S128x128_S5000x128_1_0_0_1_n_n]; rfl

/-- the matrix operand at the output's column. -/
theorem rowsByMatrix_rhs1 (j : S5000x128.Idx) (k : rowsByMatrix.contr.Idx) : (rowsByMatrix.rhsIdx j k 1 : ℕ) = j 1 := by
  simp [DotDims.rhsIdx, rowsByMatrix, Cert.KernelIdeal.dot_S5000x128_S128x128_S5000x128_1_0_0_1_n_n]; rfl

/-- A block times a 128×128 matrix, accumulated into zero, at entry `(p, q)`: `Σₖ lhs (p, k) · rhs (k, q)` over the
    128 contracted positions. -/
theorem rowsTimes (lhs : FVec Ideal S5000x128 .f32) (rhs : FVec Ideal S128x128 .f32) (p : Fin 5000) (q : Fin 128) :
    matmul Cert.KernelIdeal.dot_S5000x128_S128x128_S5000x128_1_0_0_1_n_n none lhs rhs
        (constant (F := Ideal) S5000x128 .f32 0x00000000#32) (ix2 p q)
      = ∑ k : Fin 128, lhs (ix2 p k) * rhs (ix2 k q) := by
  refine (Ideal.matmul_constant_zero_apply rowsByMatrix none lhs rhs (ix2 p q)).trans ?_
  rw [← Equiv.sum_comp (contrEquiv1 rowsByMatrix 128 rfl rfl).symm]
  refine Finset.sum_congr rfl fun k _ => ?_
  have hl : rowsByMatrix.lhsIdx (ix2 p q) ((contrEquiv1 rowsByMatrix 128 rfl rfl).symm k) = ix2 p k := by
    funext a; apply Fin.ext
    match a with
    | ⟨0, _⟩ => exact rowsByMatrix_lhs0 _ _
    | ⟨1, _⟩ => exact (DotDims.lhsIdx_val_of_single rowsByMatrix rfl _ _).trans (contrEquiv1_symm_val rowsByMatrix 128 rfl rfl k)
  have hr : rowsByMatrix.rhsIdx (ix2 p q) ((contrEquiv1 rowsByMatrix 128 rfl rfl).symm k) = ix2 k q := by
    funext a; apply Fin.ext
    match a with
    | ⟨0, _⟩ => exact (DotDims.rhsIdx_val_of_single rowsByMatrix rfl _ _).trans (contrEquiv1_symm_val rowsByMatrix 128 rfl rfl k)
    | ⟨1, _⟩ => exact rowsByMatrix_rhs1 _ _
  rw [hl, hr]

/-- The contraction of a 5000×128 block with a 128×1 column. -/
abbrev rowsByColumn := Cert.KernelIdeal.dot_S5000x128_S128x1_S5000x1_1_0_0_1_n_n

theorem rowsByColumn_lhs0 (j : S5000x1.Idx) (k : rowsByColumn.contr.Idx) : (rowsByColumn.lhsIdx j k 0 : ℕ) = j 0 := by
  simp [DotDims.lhsIdx, rowsByColumn, Cert.KernelIdeal.dot_S5000x128_S128x1_S5000x1_1_0_0_1_n_n]; rfl

theorem rowsByColumn_rhs1 (j : S5000x1.Idx) (k : rowsByColumn.contr.Idx) : (rowsByColumn.rhsIdx j k 1 : ℕ) = j 1 := by
  have h1 : (j 1).val < 1 := (j 1).isLt
  simp [DotDims.rhsIdx, rowsByColumn, Cert.KernelIdeal.dot_S5000x128_S128x1_S5000x1_1_0_0_1_n_n]; omega

/-- A block times a 128×1 column, accumulated into zero, at entry `(p, q)` (`q` the one column):
    `Σₖ lhs (p, k) · rhs (k, q)`. -/
theorem rowsTimesColumn (lhs : FVec Ideal S5000x128 .f32) (rhs : FVec Ideal S128x1 .f32) (p : Fin 5000) (q : Fin 1) :
    matmul Cert.KernelIdeal.dot_S5000x128_S128x1_S5000x1_1_0_0_1_n_n none lhs rhs
        (constant (F := Ideal) S5000x1 .f32 0x00000000#32) (ix2 p q)
      = ∑ k : Fin 128, lhs (ix2 p k) * rhs (ix2 k q) := by
  refine (Ideal.matmul_constant_zero_apply rowsByColumn none lhs rhs (ix2 p q)).trans ?_
  rw [← Equiv.sum_comp (contrEquiv1 rowsByColumn 128 rfl rfl).symm]
  refine Finset.sum_congr rfl fun k _ => ?_
  have hl : rowsByColumn.lhsIdx (ix2 p q) ((contrEquiv1 rowsByColumn 128 rfl rfl).symm k) = ix2 p k := by
    funext a; apply Fin.ext
    match a with
    | ⟨0, _⟩ => exact rowsByColumn_lhs0 _ _
    | ⟨1, _⟩ => exact (DotDims.lhsIdx_val_of_single rowsByColumn rfl _ _).trans (contrEquiv1_symm_val rowsByColumn 128 rfl rfl k)
  have hr : rowsByColumn.rhsIdx (ix2 p q) ((contrEquiv1 rowsByColumn 128 rfl rfl).symm k) = ix2 k q := by
    funext a; apply Fin.ext
    match a with
    | ⟨0, _⟩ => exact (DotDims.rhsIdx_val_of_single rowsByColumn rfl _ _).trans (contrEquiv1_symm_val rowsByColumn 128 rfl rfl k)
    | ⟨1, _⟩ => exact rowsByColumn_rhs1 _ _
  rw [hl, hr]

/-- The zero word is the real number zero. -/
theorem zeroWord : (Scalar.ofBits (F := Ideal) .f32 0x00000000#32 : Ideal .f32) = 0 := Ideal.ofBits_zero_f32

end Cert.KernelIdeal.RegionValue

end
-- ==== Proof.PayloadNode.lean ====
/-
  The node-update body (`_node_mlp_kernel`, regions 0, 2 and 4) at one entry of its block.

  The body holds a block `x` and a block `agg` of 5000 rows, the one-entry array `s`, two 128×128 weight matrices
  and two bias rows.  It forms `x·s + agg`, multiplies by `w1`, adds `b1`, rectifies, multiplies by `w2` and adds
  `b2`.  Both products contract the 128 columns of their left operand, so entry `(p, q)` of the result reads row `p`
  of the two blocks only.
-/
import proofs.«124610_j72327249264834_2_alg».proof.Proof.BlockProducts

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A one-entry array broadcast over a 5000×128 block reads its one entry everywhere. -/
theorem scalarOverBlock {α : Type} (v : S1x1.Idx → α) (h : S1x1.Broadcasts S5000x128) (p : Fin 5000) (q : Fin 128) :
    broadcastTo S5000x128 v h (ix2 p q) = v (ix2 0 0) := by
  refine broadcastTo_apply v h (ix2 p q) (ix2 0 0) fun ax => ?_
  match ax with
  | ⟨0, _⟩ => rfl
  | ⟨1, _⟩ => rfl

/-- The node-update body at entry `(p, q)` of its block: two matrix products with a rectified hidden layer between
    them, `Σₖ max (Σᵢ (x (p,i)·s + agg (p,i))·w1 (i,k) + b1 k) 0 · w2 (k,q) + b2 q`. -/
theorem nodePayload (x0 : Vec Ideal S5000x128 .f32) (s : Vec Ideal S1x1 .f32) (agg0 : Vec Ideal S5000x128 .f32)
    (w1 : Vec Ideal S128x128 .f32) (b1 : Vec Ideal S1x128 .f32) (w2 : Vec Ideal S128x128 .f32) (b2 : Vec Ideal S1x128 .f32)
    (p : Fin 5000) (q : Fin 128) :
    Gen.k0_pay1 (F := Ideal) x0 s agg0 w1 b1 w2 b2 (ix2 p q)
      = (∑ k : Fin 128, max ((∑ i : Fin 128, (x0 (ix2 p i) * s (ix2 0 0) + agg0 (ix2 p i)) * w1 (ix2 i k)) + b1 (ix2 0 k)) 0
          * w2 (ix2 k q)) + b2 (ix2 0 q) := by
  unfold Gen.k0_pay1
  simp only [addf_apply, shapeCast_self, broadcastTo_1b_ab_apply, rowsTimes, maximumf_apply, broadcast_apply, mulf_apply,
    scalarOverBlock, zeroWord]

/-- When row `p` of the two blocks is row `r` of the arrays `X` and `A`, the body's result at `(p, q)` is the
    specification's entry `(r, q)`. -/
theorem nodePoint (x0 : Vec Ideal S5000x128 .f32) (s : Vec Ideal S1x1 .f32) (agg0 : Vec Ideal S5000x128 .f32)
    (w1 : Vec Ideal S128x128 .f32) (b1 : Vec Ideal S1x128 .f32) (w2 : Vec Ideal S128x128 .f32) (b2 : Vec Ideal S1x128 .f32)
    (X A : Cert.Spec.Mat 50000 128) (p : Fin 5000) (q : Fin 128) (r : Fin 50000)
    (hX : ∀ i : Fin 128, x0 (ix2 p i) = X (ix2 r i)) (hA : ∀ i : Fin 128, agg0 (ix2 p i) = A (ix2 r i)) :
    Gen.k0_pay1 (F := Ideal) x0 s agg0 w1 b1 w2 b2 (ix2 p q)
      = Cert.Spec.nodeMlp X A (s (ix2 0 0)) w1 (fun k => b1 (ix2 0 k)) w2 (fun k => b2 (ix2 0 k)) (ix2 r q) := by
  rw [nodePayload, Cert.Spec.nodeMlp_apply]
  unfold Cert.Spec.nodeRow Cert.Spec.nodeHidden
  simp only [hX, hA]

/-- Regions 2 and 4 run the same body as region 0. -/
theorem nodeBody2 : @Gen.k2_pay1 Ideal _ = @Gen.k0_pay1 Ideal _ := rfl

theorem nodeBody4 : @Gen.k4_pay1 Ideal _ = @Gen.k0_pay1 Ideal _ := rfl

end Cert.KernelIdeal.RegionValue

end
-- ==== Proof.RegionNode0.lean ====
/-
  Region 0 (`_node_mlp_kernel`): the array its output window leaves, as one function of the arrays the region
  finds on entry.

  The grid has 10 points.  Point `t` reads rows `5000·t … 5000·t + 4999` of the features `main_v6` and of the
  aggregated messages `main_v29`, and the whole of the scale `main_v33`, the weights `main_v35`, `main_v40` and the
  biases `main_v38`, `main_v43`; it writes the same rows of `main_v44`.  The 10 row blocks tile the 50000 rows (row `r`
  is in block `r / 5000`), and the body treats every row on its own, so the output array ends holding the
  two-layer perceptron of `x·s + agg`, row by row.
-/
import proofs.«124610_j72327249264834_2_alg».proof.Proof.PayloadNode

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of region 0's windows at grid point `t`, decided over the 10 points: the two inputs and the
    output move down the rows with `t`, the scale, weights and biases stay at block `(0, 0)`. -/
theorem nodeWindows0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the feature block at point `t` is row `5000·t + p` of its array. -/
theorem nodeFeatureRows0 (c : Dev nD) (t : Fin cfg0.N) (p : Fin 5000) (q : Fin 128) (r : Fin 50000)
    (hr : r.val = t.val * 5000 + p.val) :
    (iblk0 V c 0 t : Vec Ideal S5000x128 .f32) (ix2 p q) = (V c main_v6 : S50000x128.Idx → Elt Ideal .f32) (ix2 r q) := by
  obtain ⟨e0, e1, -⟩ := nodeWindows0 t
  unfold iblk0
  rw [View.read_apply]
  show V c main_v6 _ = V c main_v6 _
  congr 1
  funext a; apply Fin.ext
  match a with
  | ⟨0, _⟩ => show win0_0.index t 0 * 5000 + 1 * p.val = r.val; rw [e0, hr]; omega
  | ⟨1, _⟩ => show win0_0.index t 1 * 128 + 1 * q.val = q.val; rw [e1]; omega

/-- Row `p` of the message block at point `t` is row `5000·t + p` of its array. -/
theorem nodeMessageRows0 (c : Dev nD) (t : Fin cfg0.N) (p : Fin 5000) (q : Fin 128) (r : Fin 50000)
    (hr : r.val = t.val * 5000 + p.val) :
    (iblk0 V c 1 t : Vec Ideal S5000x128 .f32) (ix2 p q) = (V c main_v29 : S50000x128.Idx → Elt Ideal .f32) (ix2 r q) := by
  obtain ⟨-, -, e0, e1, -⟩ := nodeWindows0 t
  unfold iblk0
  rw [View.read_apply]
  show V c main_v29 _ = V c main_v29 _
  congr 1
  funext a; apply Fin.ext
  match a with
  | ⟨0, _⟩ => show win0_1.index t 0 * 5000 + 1 * p.val = r.val; rw [e0, hr]; omega
  | ⟨1, _⟩ => show win0_1.index t 1 * 128 + 1 * q.val = q.val; rw [e1]; omega

/-- The scale's window's block is its whole array at every grid point (its block index is `(0, 0)`). -/
theorem nodeScale0 (c : Dev nD) (t : Fin cfg0.N) :
    (iblk0 V c 2 t : Vec Ideal S1x1 .f32) = (V c main_v33 : S1x1.Idx → Elt Ideal .f32) := by
  obtain ⟨-, -, -, -, e0, e1, -⟩ := nodeWindows0 t
  funext x
  unfold iblk0
  rw [View.read_apply]
  show V c main_v33 _ = V c main_v33 _
  congr 1
  funext a; apply Fin.ext
  match a with
  | ⟨0, _⟩ => show win0_2.index t 0 * 1 + 1 * (x 0).val = (x 0).val; rw [e0]; omega
  | ⟨1, _⟩ => show win0_2.index t 1 * 1 + 1 * (x 1).val = (x 1).val; rw [e1]; omega

/-- The first weight matrix's window's block is its whole array at every grid point (its block index is `(0, 0)`). -/
theorem nodeWeight10 (c : Dev nD) (t : Fin cfg0.N) :
    (iblk0 V c 3 t : Vec Ideal S128x128 .f32) = (V c main_v35 : S128x128.Idx → Elt Ideal .f32) := by
  obtain ⟨-, -, -, -, -, -, e0, e1, -⟩ := nodeWindows0 t
  funext x
  unfold iblk0
  rw [View.read_apply]
  show V c main_v35 _ = V c main_v35 _
  congr 1
  funext a; apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The first bias row's window's block is its whole array at every grid point (its block index is `(0, 0)`). -/
theorem nodeBias10 (c : Dev nD) (t : Fin cfg0.N) :
    (iblk0 V c 4 t : Vec Ideal S1x128 .f32) = (V c main_v38 : S1x128.Idx → Elt Ideal .f32) := by
  obtain ⟨-, -, -, -, -, -, -, -, e0, e1, -⟩ := nodeWindows0 t
  funext x
  unfold iblk0
  rw [View.read_apply]
  show V c main_v38 _ = V c main_v38 _
  congr 1
  funext a; apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- The second weight matrix's window's block is its whole array at every grid point (its block index is `(0, 0)`). -/
theorem nodeWeight20 (c : Dev nD) (t : Fin cfg0.N) :
    (iblk0 V c 5 t : Vec Ideal S128x128 .f32) = (V c main_v40 : S128x128.Idx → Elt Ideal .f32) := by
  obtain ⟨-, -, -, -, -, -, -, -, -, -, e0, e1, -⟩ := nodeWindows0 t
  funext x
  unfold iblk0
  rw [View.read_apply]
  show V c main_v40 _ = V c main_v40 _
  congr 1
  funext a; apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega

/-- The second bias row's window's block is its whole array at every grid point (its block index is `(0, 0)`). -/
theorem nodeBias20 (c : Dev nD) (t : Fin cfg0.N) :
    (iblk0 V c 6 t : Vec Ideal S1x128 .f32) = (V c main_v43 : S1x128.Idx → Elt Ideal .f32) := by
  obtain ⟨-, -, -, -, -, -, -, -, -, -, -, -, e0, e1, -⟩ := nodeWindows0 t
  funext x
  unfold iblk0
  rw [View.read_apply]
  show V c main_v43 _ = V c main_v43 _
  congr 1
  funext a; apply Fin.ext
  match a with
  | ⟨0, _⟩ => show win0_6.index t 0 * 1 + 1 * (x 0).val = (x 0).val; rw [e0]; omega
  | ⟨1, _⟩ => show win0_6.index t 1 * 128 + 1 * (x 1).val = (x 1).val; rw [e1]; omega

/-- The body's result at point `t`, at an entry `x` of the block that sits at index `k` of the array
    (`k`'s row is `5000·t` plus `x`'s, the columns agree): the specification's entry `k`. -/
theorem nodeBlockEntry0 (c : Dev nD) (t : Fin cfg0.N) (x : S5000x128.Idx) (k : S50000x128.Idx)
    (hk0 : (k 0).val = t.val * 5000 + (x 0).val) (hk1 : (k 1).val = (x 1).val) :
    Gen.k0_pay1 (F := Ideal) (iblk0 V c 0 t) (iblk0 V c 2 t) (iblk0 V c 1 t) (iblk0 V c 3 t) (iblk0 V c 4 t)
        (iblk0 V c 5 t) (iblk0 V c 6 t) x
      = Cert.Spec.nodeMlp (V c main_v6) (V c main_v29) (V c main_v33 (ix2 0 0)) (V c main_v35) (fun k => V c main_v38 (ix2 0 k))
          (V c main_v40) (fun k => V c main_v43 (ix2 0 k)) k := by
  obtain ⟨p, q, rfl⟩ : ∃ (p : Fin 5000) (q : Fin 128), x = ix2 p q := ⟨x 0, x 1, eq_ix2 x⟩
  obtain ⟨r, q', rfl⟩ : ∃ (r : Fin 50000) (q' : Fin 128), k = ix2 r q' := ⟨k 0, k 1, eq_ix2 k⟩
  obtain rfl : q' = q := Fin.ext hk1
  rw [nodeScale0 V c t, nodeWeight10 V c t, nodeBias10 V c t, nodeWeight20 V c t, nodeBias20 V c t]
  exact nodePoint (iblk0 V c 0 t) (V c main_v33) (iblk0 V c 1 t) (V c main_v35) (V c main_v38) (V c main_v40) (V c main_v43)
    (V c main_v6) (V c main_v29) p q' r
    (fun i => nodeFeatureRows0 V c t p i r hk0) (fun i => nodeMessageRows0 V c t p i r hk0)

/-- What point `t` writes back to `main_v44` is block `t` of the specification's matrix. -/
theorem nodeWritten0 (c : Dev nD) (t : Fin cfg0.N) :
    (Gen.dat0 (F := Ideal) V c).flushed 7 t = ((cfg0.win 7).blk t).view.read (Elt Ideal)
      (Cert.Spec.nodeMlp (V c main_v6) (V c main_v29) (V c main_v33 (ix2 0 0)) (V c main_v35) (fun k => V c main_v38 (ix2 0 k))
          (V c main_v40) (fun k => V c main_v43 (ix2 0 k))) := by
  show (cfg0.win 7).cut (grid0.coords t) ((dat0 V c).after 7 t) = _
  rw [after0_7]
  unfold out0_7
  rw [View.canon_unit_zero zeroOffsets2]
  simp only [View.ld_unit_zero (S := S5000x128) zeroOffsets2, View.ld_unit_zero (S := S1x1) zeroOffsets2,
    View.ld_unit_zero (S := S128x128) zeroOffsets2, View.ld_unit_zero (S := S1x128) zeroOffsets2]
  obtain ⟨-, -, -, -, -, -, -, -, -, -, -, -, -, -, e0, e1⟩ := nodeWindows0 t
  funext j
  refine nodeBlockEntry0 V c t j (((cfg0.win 7).blk t).view.emb j) ?_ ?_
  · show win0_7.index t 0 * 5000 + 1 * (j 0).val = t.val * 5000 + (j 0).val
    rw [e0]; omega
  · show win0_7.index t 1 * 128 + 1 * (j 1).val = (j 1).val
    rw [e1]; omega

/-- An index of `main_v44` is in point `t`'s output block iff each coordinate is in the block's range on its axis. -/
theorem nodeOutBlock0 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v44).slice (win0_7.rect t)).set ↔ _
  rw [View.set_slice_whole, Rect.mem_set_unit]
  exact Iff.rfl

/-- Every index of `main_v44` is written back by some point: row `r` by point `r / 5000`. -/
theorem nodeCover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have ht : (i 0).val / 5000 < cfg0.N := by rw [show cfg0.N = 10 from N_0]; omega
  obtain ⟨t, htv⟩ : ∃ t : Fin cfg0.N, t.val = (i 0).val / 5000 := ⟨⟨_, ht⟩, rfl⟩
  obtain ⟨-, -, -, -, -, -, -, -, -, -, -, -, -, -, e0, e1⟩ := nodeWindows0 t
  refine ⟨t, flush0_7 t, ?_⟩
  rw [nodeOutBlock0]
  intro a
  match a with
  | ⟨0, _⟩ =>
    show win0_7.index t 0 * 5000 ≤ (i 0).val ∧ (i 0).val < win0_7.index t 0 * 5000 + 5000
    rw [e0, htv]; omega
  | ⟨1, _⟩ =>
    show win0_7.index t 1 * 128 ≤ (i 1).val ∧ (i 1).val < win0_7.index t 1 * 128 + 128
    rw [e1]; omega

/-- THE ARRAY `main_v44` after region 0: the node update of the features and messages, row by row. -/
theorem final0 (c : Dev nD) :
    (Gen.dat0 (F := Ideal) V c).arrAt 7 cfg0.N
      = Cert.Spec.nodeMlp (V c main_v6) (V c main_v29) (V c main_v33 (ix2 0 0)) (V c main_v35) (fun k => V c main_v38 (ix2 0 k))
          (V c main_v40) (fun k => V c main_v43 (ix2 0 k)) :=
  (Gen.dat0 (F := Ideal) V c).arrAt_eq_of_cover 7 _ (fun t _ => nodeWritten0 V c t) nodeCover0

end Cert.KernelIdeal.RegionValue

end
-- ==== Proof.PayloadBn.lean ====
/-
  The normalisation-and-rectification body (`_bn_act_kernel`, regions 1, 3 and 5) at one entry of its block.

  The body holds a block `h` of 5000 rows and the four row vectors `μ`, `σ⁻¹`, `γ`, `β` (one row of 128 columns
  each).  Each row vector is broadcast down the 5000 rows, so entry `(p, q)` of the result only reads `h (p, q)`
  and column `q` of the four vectors: `max ((h − μ)·σ⁻¹·γ + β) 0`.
-/
import proofs.«124610_j72327249264834_2_alg».proof.Proof.RegionBase

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body's result at entry `(p, q)` of its block: the printed chain of casts, row broadcasts and pointwise
    operations is `max ((h − μ)·σ⁻¹·γ + β) 0`, the four row vectors read at column `q`. -/
theorem bnPayload (h0 : Vec Ideal S5000x128 .f32) (mu inv ga be : Vec Ideal S1x128 .f32) (p : Fin 5000) (q : Fin 128) :
    Gen.k1_pay1 (F := Ideal) h0 mu inv ga be (ix2 p q)
      = max ((h0 (ix2 p q) - mu (ix2 0 q)) * inv (ix2 0 q) * ga (ix2 0 q) + be (ix2 0 q)) 0 := by
  unfold Gen.k1_pay1
  simp only [maximumf_apply, addf_apply, mulf_apply, subf_apply, broadcast_apply, shapeCast_self,
    broadcastTo_1b_ab_apply]
  exact congrArg (max _) Ideal.ofBits_zero_f32

/-- When the block's row `p` is row `r` of the array `H`, the body's result at `(p, q)` is the specification's
    entry `(r, q)` of `H` normalised with the same four vectors. -/
theorem bnPoint (h0 : Vec Ideal S5000x128 .f32) (mu inv ga be : Vec Ideal S1x128 .f32) (H : Cert.Spec.Mat 50000 128)
    (p : Fin 5000) (q : Fin 128) (r : Fin 50000) (hH : h0 (ix2 p q) = H (ix2 r q)) :
    Gen.k1_pay1 (F := Ideal) h0 mu inv ga be (ix2 p q)
      = Cert.Spec.bnAct H (fun k => mu (ix2 0 k)) (fun k => inv (ix2 0 k)) (fun k => ga (ix2 0 k))
          (fun k => be (ix2 0 k)) (ix2 r q) := by
  rw [bnPayload, Cert.Spec.bnAct_apply, hH]
  rfl

/-- Regions 3 and 5 run the same body as region 1. -/
theorem bnBody3 : @Gen.k3_pay1 Ideal _ = @Gen.k1_pay1 Ideal _ := rfl

theorem bnBody5 : @Gen.k5_pay1 Ideal _ = @Gen.k1_pay1 Ideal _ := rfl

end Cert.KernelIdeal.RegionValue

end
-- ==== Proof.RegionBn1.lean ====
/-
  Region 1 (`_bn_act_kernel`): the array its output window leaves, as one function of the arrays the region
  finds on entry.

  The grid has 10 points.  Point `t` reads rows `5000·t … 5000·t + 4999` of the input `main_v44` and the whole
  of the four row vectors `main_v48` (μ), `main_v53` (σ⁻¹), `main_v56` (γ), `main_v59` (β), and writes the same rows of
  `main_v60`.  The 10 row blocks tile the 50000 rows (row `r` is in block `r / 5000`), so the output array ends
  holding `max ((h − μ)·σ⁻¹·γ + β) 0` at every entry.
-/
import proofs.«124610_j72327249264834_2_alg».proof.Proof.PayloadBn

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of region 1's windows at grid point `t`, decided over the 10 points: input and output move
    down the rows with `t`, the four row vectors stay at block `(0, 0)`. -/
theorem bnWindows1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the input block at point `t` is row `5000·t + p` of the input array. -/
theorem bnInRows1 (c : Dev nD) (t : Fin cfg1.N) (p : Fin 5000) (q : Fin 128) (r : Fin 50000)
    (hr : r.val = t.val * 5000 + p.val) :
    (iblk1 V c 0 t : Vec Ideal S5000x128 .f32) (ix2 p q) = (V c main_v44 : S50000x128.Idx → Elt Ideal .f32) (ix2 r q) := by
  obtain ⟨e0, e1, -⟩ := bnWindows1 t
  unfold iblk1
  rw [View.read_apply]
  show V c main_v44 _ = V c main_v44 _
  congr 1
  funext a; apply Fin.ext
  match a with
  | ⟨0, _⟩ => show win1_0.index t 0 * 5000 + 1 * p.val = r.val; rw [e0, hr]; omega
  | ⟨1, _⟩ => show win1_0.index t 1 * 128 + 1 * q.val = q.val; rw [e1]; omega

/-- The column means' window's block is its whole array at every grid point (its block index is `(0, 0)`). -/
theorem bnMean1 (c : Dev nD) (t : Fin cfg1.N) :
    (iblk1 V c 1 t : Vec Ideal S1x128 .f32) = (V c main_v48 : S1x128.Idx → Elt Ideal .f32) := by
  obtain ⟨-, -, e0, e1, -⟩ := bnWindows1 t
  funext x
  unfold iblk1
  rw [View.read_apply]
  show V c main_v48 _ = V c main_v48 _
  congr 1
  funext a; apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The inverse deviations' window's block is its whole array at every grid point (its block index is `(0, 0)`). -/
theorem bnInvStd1 (c : Dev nD) (t : Fin cfg1.N) :
    (iblk1 V c 2 t : Vec Ideal S1x128 .f32) = (V c main_v53 : S1x128.Idx → Elt Ideal .f32) := by
  obtain ⟨-, -, -, -, e0, e1, -⟩ := bnWindows1 t
  funext x
  unfold iblk1
  rw [View.read_apply]
  show V c main_v53 _ = V c main_v53 _
  congr 1
  funext a; apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The scale's window's block is its whole array at every grid point (its block index is `(0, 0)`). -/
theorem bnGamma1 (c : Dev nD) (t : Fin cfg1.N) :
    (iblk1 V c 3 t : Vec Ideal S1x128 .f32) = (V c main_v56 : S1x128.Idx → Elt Ideal .f32) := by
  obtain ⟨-, -, -, -, -, -, e0, e1, -⟩ := bnWindows1 t
  funext x
  unfold iblk1
  rw [View.read_apply]
  show V c main_v56 _ = V c main_v56 _
  congr 1
  funext a; apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The shift's window's block is its whole array at every grid point (its block index is `(0, 0)`). -/
theorem bnBeta1 (c : Dev nD) (t : Fin cfg1.N) :
    (iblk1 V c 4 t : Vec Ideal S1x128 .f32) = (V c main_v59 : S1x128.Idx → Elt Ideal .f32) := by
  obtain ⟨-, -, -, -, -, -, -, -, e0, e1, -⟩ := bnWindows1 t
  funext x
  unfold iblk1
  rw [View.read_apply]
  show V c main_v59 _ = V c main_v59 _
  congr 1
  funext a; apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- The body's result at point `t`, at an entry `x` of the block that sits at index `k` of the array
    (`k`'s row is `5000·t` plus `x`'s, the columns agree): the specification's entry `k`. -/
theorem bnBlockEntry1 (c : Dev nD) (t : Fin cfg1.N) (x : S5000x128.Idx) (k : S50000x128.Idx)
    (hk0 : (k 0).val = t.val * 5000 + (x 0).val) (hk1 : (k 1).val = (x 1).val) :
    Gen.k1_pay1 (F := Ideal) (iblk1 V c 0 t) (iblk1 V c 1 t) (iblk1 V c 2 t) (iblk1 V c 3 t) (iblk1 V c 4 t) x
      = Cert.Spec.bnAct (V c main_v44) (fun k => V c main_v48 (ix2 0 k)) (fun k => V c main_v53 (ix2 0 k))
          (fun k => V c main_v56 (ix2 0 k)) (fun k => V c main_v59 (ix2 0 k)) k := by
  obtain ⟨p, q, rfl⟩ : ∃ (p : Fin 5000) (q : Fin 128), x = ix2 p q := ⟨x 0, x 1, eq_ix2 x⟩
  obtain ⟨r, q', rfl⟩ : ∃ (r : Fin 50000) (q' : Fin 128), k = ix2 r q' := ⟨k 0, k 1, eq_ix2 k⟩
  obtain rfl : q' = q := Fin.ext hk1
  rw [bnMean1 V c t, bnInvStd1 V c t, bnGamma1 V c t, bnBeta1 V c t]
  exact bnPoint (iblk1 V c 0 t) (V c main_v48) (V c main_v53) (V c main_v56) (V c main_v59) (V c main_v44) p q' r
    (bnInRows1 V c t p q' r hk0)

/-- What point `t` writes back to `main_v60` is block `t` of the specification's matrix. -/
theorem bnWritten1 (c : Dev nD) (t : Fin cfg1.N) :
    (Gen.dat1 (F := Ideal) V c).flushed 5 t = ((cfg1.win 5).blk t).view.read (Elt Ideal)
      (Cert.Spec.bnAct (V c main_v44) (fun k => V c main_v48 (ix2 0 k)) (fun k => V c main_v53 (ix2 0 k))
          (fun k => V c main_v56 (ix2 0 k)) (fun k => V c main_v59 (ix2 0 k))) := by
  show (cfg1.win 5).cut (grid1.coords t) ((dat1 V c).after 5 t) = _
  rw [after1_5]
  unfold out1_5
  rw [View.canon_unit_zero zeroOffsets2]
  simp only [View.ld_unit_zero (S := S5000x128) zeroOffsets2, View.ld_unit_zero (S := S1x128) zeroOffsets2]
  obtain ⟨-, -, -, -, -, -, -, -, -, -, e0, e1⟩ := bnWindows1 t
  funext j
  refine bnBlockEntry1 V c t j (((cfg1.win 5).blk t).view.emb j) ?_ ?_
  · show win1_5.index t 0 * 5000 + 1 * (j 0).val = t.val * 5000 + (j 0).val
    rw [e0]; omega
  · show win1_5.index t 1 * 128 + 1 * (j 1).val = (j 1).val
    rw [e1]; omega

/-- An index of `main_v60` is in point `t`'s output block iff each coordinate is in the block's range on its axis. -/
theorem bnOutBlock1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v60).slice (win1_5.rect t)).set ↔ _
  rw [View.set_slice_whole, Rect.mem_set_unit]
  exact Iff.rfl

/-- Every index of `main_v60` is written back by some point: row `r` by point `r / 5000`. -/
theorem bnCover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 5000 < cfg1.N := by rw [show cfg1.N = 10 from N_1]; omega
  obtain ⟨t, htv⟩ : ∃ t : Fin cfg1.N, t.val = (i 0).val / 5000 := ⟨⟨_, ht⟩, rfl⟩
  obtain ⟨-, -, -, -, -, -, -, -, -, -, e0, e1⟩ := bnWindows1 t
  refine ⟨t, flush1_5 t, ?_⟩
  rw [bnOutBlock1]
  intro a
  match a with
  | ⟨0, _⟩ =>
    show win1_5.index t 0 * 5000 ≤ (i 0).val ∧ (i 0).val < win1_5.index t 0 * 5000 + 5000
    rw [e0, htv]; omega
  | ⟨1, _⟩ =>
    show win1_5.index t 1 * 128 ≤ (i 1).val ∧ (i 1).val < win1_5.index t 1 * 128 + 128
    rw [e1]; omega

/-- THE ARRAY `main_v60` after region 1: the normalised and rectified input, entry by entry. -/
theorem final1 (c : Dev nD) :
    (Gen.dat1 (F := Ideal) V c).arrAt 5 cfg1.N
      = Cert.Spec.bnAct (V c main_v44) (fun k => V c main_v48 (ix2 0 k)) (fun k => V c main_v53 (ix2 0 k))
          (fun k => V c main_v56 (ix2 0 k)) (fun k => V c main_v59 (ix2 0 k)) :=
  (Gen.dat1 (F := Ideal) V c).arrAt_eq_of_cover 5 _ (fun t _ => bnWritten1 V c t) bnCover1

end Cert.KernelIdeal.RegionValue

end
-- ==== Proof.RegionNode2.lean ====
/-
  Region 2 (`_node_mlp_kernel`): the array its output window leaves, as one function of the arrays the region
  finds on entry.

  The grid has 10 points.  Point `t` reads rows `5000·t … 5000·t + 4999` of the features `main_v60` and of the
  aggregated messages `main_v72`, and the whole of the scale `main_v76`, the weights `main_v78`, `main_v83` and the
  biases `main_v81`, `main_v86`; it writes the same rows of `main_v87`.  The 10 row blocks tile the 50000 rows (row `r`
  is in block `r / 5000`), and the body treats every row on its own, so the output array ends holding the
  two-layer perceptron of `x·s + agg`, row by row.
-/
import proofs.«124610_j72327249264834_2_alg».proof.Proof.PayloadNode

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of region 2's windows at grid point `t`, decided over the 10 points: the two inputs and the
    output move down the rows with `t`, the scale, weights and biases stay at block `(0, 0)`. -/
theorem nodeWindows2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of the feature block at point `t` is row `5000·t + p` of its array. -/
theorem nodeFeatureRows2 (c : Dev nD) (t : Fin cfg2.N) (p : Fin 5000) (q : Fin 128) (r : Fin 50000)
    (hr : r.val = t.val * 5000 + p.val) :
    (iblk2 V c 0 t : Vec Ideal S5000x128 .f32) (ix2 p q) = (V c main_v60 : S50000x128.Idx → Elt Ideal .f32) (ix2 r q) := by
  obtain ⟨e0, e1, -⟩ := nodeWindows2 t
  unfold iblk2
  rw [View.read_apply]
  show V c main_v60 _ = V c main_v60 _
  congr 1
  funext a; apply Fin.ext
  match a with
  | ⟨0, _⟩ => show win2_0.index t 0 * 5000 + 1 * p.val = r.val; rw [e0, hr]; omega
  | ⟨1, _⟩ => show win2_0.index t 1 * 128 + 1 * q.val = q.val; rw [e1]; omega

/-- Row `p` of the message block at point `t` is row `5000·t + p` of its array. -/
theorem nodeMessageRows2 (c : Dev nD) (t : Fin cfg2.N) (p : Fin 5000) (q : Fin 128) (r : Fin 50000)
    (hr : r.val = t.val * 5000 + p.val) :
    (iblk2 V c 1 t : Vec Ideal S5000x128 .f32) (ix2 p q) = (V c main_v72 : S50000x128.Idx → Elt Ideal .f32) (ix2 r q) := by
  obtain ⟨-, -, e0, e1, -⟩ := nodeWindows2 t
  unfold iblk2
  rw [View.read_apply]
  show V c main_v72 _ = V c main_v72 _
  congr 1
  funext a; apply Fin.ext
  match a with
  | ⟨0, _⟩ => show win2_1.index t 0 * 5000 + 1 * p.val = r.val; rw [e0, hr]; omega
  | ⟨1, _⟩ => show win2_1.index t 1 * 128 + 1 * q.val = q.val; rw [e1]; omega

/-- The scale's window's block is its whole array at every grid point (its block index is `(0, 0)`). -/
theorem nodeScale2 (c : Dev nD) (t : Fin cfg2.N) :
    (iblk2 V c 2 t : Vec Ideal S1x1 .f32) = (V c main_v76 : S1x1.Idx → Elt Ideal .f32) := by
  obtain ⟨-, -, -, -, e0, e1, -⟩ := nodeWindows2 t
  funext x
  unfold iblk2
  rw [View.read_apply]
  show V c main_v76 _ = V c main_v76 _
  congr 1
  funext a; apply Fin.ext
  match a with
  | ⟨0, _⟩ => show win2_2.index t 0 * 1 + 1 * (x 0).val = (x 0).val; rw [e0]; omega
  | ⟨1, _⟩ => show win2_2.index t 1 * 1 + 1 * (x 1).val = (x 1).val; rw [e1]; omega

/-- The first weight matrix's window's block is its whole array at every grid point (its block index is `(0, 0)`). -/
theorem nodeWeight12 (c : Dev nD) (t : Fin cfg2.N) :
    (iblk2 V c 3 t : Vec Ideal S128x128 .f32) = (V c main_v78 : S128x128.Idx → Elt Ideal .f32) := by
  obtain ⟨-, -, -, -, -, -, e0, e1, -⟩ := nodeWindows2 t
  funext x
  unfold iblk2
  rw [View.read_apply]
  show V c main_v78 _ = V c main_v78 _
  congr 1
  funext a; apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega

/-- The first bias row's window's block is its whole array at every grid point (its block index is `(0, 0)`). -/
theorem nodeBias12 (c : Dev nD) (t : Fin cfg2.N) :
    (iblk2 V c 4 t : Vec Ideal S1x128 .f32) = (V c main_v81 : S1x128.Idx → Elt Ideal .f32) := by
  obtain ⟨-, -, -, -, -, -, -, -, e0, e1, -⟩ := nodeWindows2 t
  funext x
  unfold iblk2
  rw [View.read_apply]
  show V c main_v81 _ = V c main_v81 _
  congr 1
  funext a; apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The second weight matrix's window's block is its whole array at every grid point (its block index is `(0, 0)`). -/
theorem nodeWeight22 (c : Dev nD) (t : Fin cfg2.N) :
    (iblk2 V c 5 t : Vec Ideal S128x128 .f32) = (V c main_v83 : S128x128.Idx → Elt Ideal .f32) := by
  obtain ⟨-, -, -, -, -, -, -, -, -, -, e0, e1, -⟩ := nodeWindows2 t
  funext x
  unfold iblk2
  rw [View.read_apply]
  show V c main_v83 _ = V c main_v83 _
  congr 1
  funext a; apply Fin.ext
  match a with
  | ⟨0, _⟩ => show win2_5.index t 0 * 128 + 1 * (x 0).val = (x 0).val; rw [e0]; omega
  | ⟨1, _⟩ => show win2_5.index t 1 * 128 + 1 * (x 1).val = (x 1).val; rw [e1]; omega

/-- The second bias row's window's block is its whole array at every grid point (its block index is `(0, 0)`). -/
theorem nodeBias22 (c : Dev nD) (t : Fin cfg2.N) :
    (iblk2 V c 6 t : Vec Ideal S1x128 .f32) = (V c main_v86 : S1x128.Idx → Elt Ideal .f32) := by
  obtain ⟨-, -, -, -, -, -, -, -, -, -, -, -, e0, e1, -⟩ := nodeWindows2 t
  funext x
  unfold iblk2
  rw [View.read_apply]
  show V c main_v86 _ = V c main_v86 _
  congr 1
  funext a; apply Fin.ext
  match a with
  | ⟨0, _⟩ => show win2_6.index t 0 * 1 + 1 * (x 0).val = (x 0).val; rw [e0]; omega
  | ⟨1, _⟩ => show win2_6.index t 1 * 128 + 1 * (x 1).val = (x 1).val; rw [e1]; omega

/-- The body's result at point `t`, at an entry `x` of the block that sits at index `k` of the array
    (`k`'s row is `5000·t` plus `x`'s, the columns agree): the specification's entry `k`. -/
theorem nodeBlockEntry2 (c : Dev nD) (t : Fin cfg2.N) (x : S5000x128.Idx) (k : S50000x128.Idx)
    (hk0 : (k 0).val = t.val * 5000 + (x 0).val) (hk1 : (k 1).val = (x 1).val) :
    Gen.k2_pay1 (F := Ideal) (iblk2 V c 0 t) (iblk2 V c 2 t) (iblk2 V c 1 t) (iblk2 V c 3 t) (iblk2 V c 4 t)
        (iblk2 V c 5 t) (iblk2 V c 6 t) x
      = Cert.Spec.nodeMlp (V c main_v60) (V c main_v72) (V c main_v76 (ix2 0 0)) (V c main_v78) (fun k => V c main_v81 (ix2 0 k))
          (V c main_v83) (fun k => V c main_v86 (ix2 0 k)) k := by
  obtain ⟨p, q, rfl⟩ : ∃ (p : Fin 5000) (q : Fin 128), x = ix2 p q := ⟨x 0, x 1, eq_ix2 x⟩
  obtain ⟨r, q', rfl⟩ : ∃ (r : Fin 50000) (q' : Fin 128), k = ix2 r q' := ⟨k 0, k 1, eq_ix2 k⟩
  obtain rfl : q' = q := Fin.ext hk1
  rw [nodeBody2]
  rw [nodeScale2 V c t, nodeWeight12 V c t, nodeBias12 V c t, nodeWeight22 V c t, nodeBias22 V c t]
  exact nodePoint (iblk2 V c 0 t) (V c main_v76) (iblk2 V c 1 t) (V c main_v78) (V c main_v81) (V c main_v83) (V c main_v86)
    (V c main_v60) (V c main_v72) p q' r
    (fun i => nodeFeatureRows2 V c t p i r hk0) (fun i => nodeMessageRows2 V c t p i r hk0)

/-- What point `t` writes back to `main_v87` is block `t` of the specification's matrix. -/
theorem nodeWritten2 (c : Dev nD) (t : Fin cfg2.N) :
    (Gen.dat2 (F := Ideal) V c).flushed 7 t = ((cfg2.win 7).blk t).view.read (Elt Ideal)
      (Cert.Spec.nodeMlp (V c main_v60) (V c main_v72) (V c main_v76 (ix2 0 0)) (V c main_v78) (fun k => V c main_v81 (ix2 0 k))
          (V c main_v83) (fun k => V c main_v86 (ix2 0 k))) := by
  show (cfg2.win 7).cut (grid2.coords t) ((dat2 V c).after 7 t) = _
  rw [after2_7]
  unfold out2_7
  rw [View.canon_unit_zero zeroOffsets2]
  simp only [View.ld_unit_zero (S := S5000x128) zeroOffsets2, View.ld_unit_zero (S := S1x1) zeroOffsets2,
    View.ld_unit_zero (S := S128x128) zeroOffsets2, View.ld_unit_zero (S := S1x128) zeroOffsets2]
  obtain ⟨-, -, -, -, -, -, -, -, -, -, -, -, -, -, e0, e1⟩ := nodeWindows2 t
  funext j
  refine nodeBlockEntry2 V c t j (((cfg2.win 7).blk t).view.emb j) ?_ ?_
  · show win2_7.index t 0 * 5000 + 1 * (j 0).val = t.val * 5000 + (j 0).val
    rw [e0]; omega
  · show win2_7.index t 1 * 128 + 1 * (j 1).val = (j 1).val
    rw [e1]; omega

/-- An index of `main_v87` is in point `t`'s output block iff each coordinate is in the block's range on its axis. -/
theorem nodeOutBlock2 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v87).slice (win2_7.rect t)).set ↔ _
  rw [View.set_slice_whole, Rect.mem_set_unit]
  exact Iff.rfl

/-- Every index of `main_v87` is written back by some point: row `r` by point `r / 5000`. -/
theorem nodeCover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have ht : (i 0).val / 5000 < cfg2.N := by rw [show cfg2.N = 10 from N_2]; omega
  obtain ⟨t, htv⟩ : ∃ t : Fin cfg2.N, t.val = (i 0).val / 5000 := ⟨⟨_, ht⟩, rfl⟩
  obtain ⟨-, -, -, -, -, -, -, -, -, -, -, -, -, -, e0, e1⟩ := nodeWindows2 t
  refine ⟨t, flush2_7 t, ?_⟩
  rw [nodeOutBlock2]
  intro a
  match a with
  | ⟨0, _⟩ =>
    show win2_7.index t 0 * 5000 ≤ (i 0).val ∧ (i 0).val < win2_7.index t 0 * 5000 + 5000
    rw [e0, htv]; omega
  | ⟨1, _⟩ =>
    show win2_7.index t 1 * 128 ≤ (i 1).val ∧ (i 1).val < win2_7.index t 1 * 128 + 128
    rw [e1]; omega

/-- THE ARRAY `main_v87` after region 2: the node update of the features and messages, row by row. -/
theorem final2 (c : Dev nD) :
    (Gen.dat2 (F := Ideal) V c).arrAt 7 cfg2.N
      = Cert.Spec.nodeMlp (V c main_v60) (V c main_v72) (V c main_v76 (ix2 0 0)) (V c main_v78) (fun k => V c main_v81 (ix2 0 k))
          (V c main_v83) (fun k => V c main_v86 (ix2 0 k)) :=
  (Gen.dat2 (F := Ideal) V c).arrAt_eq_of_cover 7 _ (fun t _ => nodeWritten2 V c t) nodeCover2

end Cert.KernelIdeal.RegionValue

end
-- ==== Proof.RegionBn3.lean ====
/-
  Region 3 (`_bn_act_kernel`): the array its output window leaves, as one function of the arrays the region
  finds on entry.

  The grid has 10 points.  Point `t` reads rows `5000·t … 5000·t + 4999` of the input `main_v87` and the whole
  of the four row vectors `main_v91` (μ), `main_v96` (σ⁻¹), `main_v99` (γ), `main_v102` (β), and writes the same rows of
  `main_v103`.  The 10 row blocks tile the 50000 rows (row `r` is in block `r / 5000`), so the output array ends
  holding `max ((h − μ)·σ⁻¹·γ + β) 0` at every entry.
-/
import proofs.«124610_j72327249264834_2_alg».proof.Proof.PayloadBn

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of region 3's windows at grid point `t`, decided over the 10 points: input and output move
    down the rows with `t`, the four row vectors stay at block `(0, 0)`. -/
theorem bnWindows3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the input block at point `t` is row `5000·t + p` of the input array. -/
theorem bnInRows3 (c : Dev nD) (t : Fin cfg3.N) (p : Fin 5000) (q : Fin 128) (r : Fin 50000)
    (hr : r.val = t.val * 5000 + p.val) :
    (iblk3 V c 0 t : Vec Ideal S5000x128 .f32) (ix2 p q) = (V c main_v87 : S50000x128.Idx → Elt Ideal .f32) (ix2 r q) := by
  obtain ⟨e0, e1, -⟩ := bnWindows3 t
  unfold iblk3
  rw [View.read_apply]
  show V c main_v87 _ = V c main_v87 _
  congr 1
  funext a; apply Fin.ext
  match a with
  | ⟨0, _⟩ => show win3_0.index t 0 * 5000 + 1 * p.val = r.val; rw [e0, hr]; omega
  | ⟨1, _⟩ => show win3_0.index t 1 * 128 + 1 * q.val = q.val; rw [e1]; omega

/-- The column means' window's block is its whole array at every grid point (its block index is `(0, 0)`). -/
theorem bnMean3 (c : Dev nD) (t : Fin cfg3.N) :
    (iblk3 V c 1 t : Vec Ideal S1x128 .f32) = (V c main_v91 : S1x128.Idx → Elt Ideal .f32) := by
  obtain ⟨-, -, e0, e1, -⟩ := bnWindows3 t
  funext x
  unfold iblk3
  rw [View.read_apply]
  show V c main_v91 _ = V c main_v91 _
  congr 1
  funext a; apply Fin.ext
  match a with
  | ⟨0, _⟩ => show win3_1.index t 0 * 1 + 1 * (x 0).val = (x 0).val; rw [e0]; omega
  | ⟨1, _⟩ => show win3_1.index t 1 * 128 + 1 * (x 1).val = (x 1).val; rw [e1]; omega

/-- The inverse deviations' window's block is its whole array at every grid point (its block index is `(0, 0)`). -/
theorem bnInvStd3 (c : Dev nD) (t : Fin cfg3.N) :
    (iblk3 V c 2 t : Vec Ideal S1x128 .f32) = (V c main_v96 : S1x128.Idx → Elt Ideal .f32) := by
  obtain ⟨-, -, -, -, e0, e1, -⟩ := bnWindows3 t
  funext x
  unfold iblk3
  rw [View.read_apply]
  show V c main_v96 _ = V c main_v96 _
  congr 1
  funext a; apply Fin.ext
  match a with
  | ⟨0, _⟩ => show win3_2.index t 0 * 1 + 1 * (x 0).val = (x 0).val; rw [e0]; omega
  | ⟨1, _⟩ => show win3_2.index t 1 * 128 + 1 * (x 1).val = (x 1).val; rw [e1]; omega

/-- The scale's window's block is its whole array at every grid point (its block index is `(0, 0)`). -/
theorem bnGamma3 (c : Dev nD) (t : Fin cfg3.N) :
    (iblk3 V c 3 t : Vec Ideal S1x128 .f32) = (V c main_v99 : S1x128.Idx → Elt Ideal .f32) := by
  obtain ⟨-, -, -, -, -, -, e0, e1, -⟩ := bnWindows3 t
  funext x
  unfold iblk3
  rw [View.read_apply]
  show V c main_v99 _ = V c main_v99 _
  congr 1
  funext a; apply Fin.ext
  match a with
  | ⟨0, _⟩ => show win3_3.index t 0 * 1 + 1 * (x 0).val = (x 0).val; rw [e0]; omega
  | ⟨1, _⟩ => show win3_3.index t 1 * 128 + 1 * (x 1).val = (x 1).val; rw [e1]; omega

/-- The shift's window's block is its whole array at every grid point (its block index is `(0, 0)`). -/
theorem bnBeta3 (c : Dev nD) (t : Fin cfg3.N) :
    (iblk3 V c 4 t : Vec Ideal S1x128 .f32) = (V c main_v102 : S1x128.Idx → Elt Ideal .f32) := by
  obtain ⟨-, -, -, -, -, -, -, -, e0, e1, -⟩ := bnWindows3 t
  funext x
  unfold iblk3
  rw [View.read_apply]
  show V c main_v102 _ = V c main_v102 _
  congr 1
  funext a; apply Fin.ext
  match a with
  | ⟨0, _⟩ => show win3_4.index t 0 * 1 + 1 * (x 0).val = (x 0).val; rw [e0]; omega
  | ⟨1, _⟩ => show win3_4.index t 1 * 128 + 1 * (x 1).val = (x 1).val; rw [e1]; omega

/-- The body's result at point `t`, at an entry `x` of the block that sits at index `k` of the array
    (`k`'s row is `5000·t` plus `x`'s, the columns agree): the specification's entry `k`. -/
theorem bnBlockEntry3 (c : Dev nD) (t : Fin cfg3.N) (x : S5000x128.Idx) (k : S50000x128.Idx)
    (hk0 : (k 0).val = t.val * 5000 + (x 0).val) (hk1 : (k 1).val = (x 1).val) :
    Gen.k3_pay1 (F := Ideal) (iblk3 V c 0 t) (iblk3 V c 1 t) (iblk3 V c 2 t) (iblk3 V c 3 t) (iblk3 V c 4 t) x
      = Cert.Spec.bnAct (V c main_v87) (fun k => V c main_v91 (ix2 0 k)) (fun k => V c main_v96 (ix2 0 k))
          (fun k => V c main_v99 (ix2 0 k)) (fun k => V c main_v102 (ix2 0 k)) k := by
  obtain ⟨p, q, rfl⟩ : ∃ (p : Fin 5000) (q : Fin 128), x = ix2 p q := ⟨x 0, x 1, eq_ix2 x⟩
  obtain ⟨r, q', rfl⟩ : ∃ (r : Fin 50000) (q' : Fin 128), k = ix2 r q' := ⟨k 0, k 1, eq_ix2 k⟩
  obtain rfl : q' = q := Fin.ext hk1
  rw [bnBody3]
  rw [bnMean3 V c t, bnInvStd3 V c t, bnGamma3 V c t, bnBeta3 V c t]
  exact bnPoint (iblk3 V c 0 t) (V c main_v91) (V c main_v96) (V c main_v99) (V c main_v102) (V c main_v87) p q' r
    (bnInRows3 V c t p q' r hk0)

/-- What point `t` writes back to `main_v103` is block `t` of the specification's matrix. -/
theorem bnWritten3 (c : Dev nD) (t : Fin cfg3.N) :
    (Gen.dat3 (F := Ideal) V c).flushed 5 t = ((cfg3.win 5).blk t).view.read (Elt Ideal)
      (Cert.Spec.bnAct (V c main_v87) (fun k => V c main_v91 (ix2 0 k)) (fun k => V c main_v96 (ix2 0 k))
          (fun k => V c main_v99 (ix2 0 k)) (fun k => V c main_v102 (ix2 0 k))) := by
  show (cfg3.win 5).cut (grid3.coords t) ((dat3 V c).after 5 t) = _
  rw [after3_5]
  unfold out3_5
  rw [View.canon_unit_zero zeroOffsets2]
  simp only [View.ld_unit_zero (S := S5000x128) zeroOffsets2, View.ld_unit_zero (S := S1x128) zeroOffsets2]
  obtain ⟨-, -, -, -, -, -, -, -, -, -, e0, e1⟩ := bnWindows3 t
  funext j
  refine bnBlockEntry3 V c t j (((cfg3.win 5).blk t).view.emb j) ?_ ?_
  · show win3_5.index t 0 * 5000 + 1 * (j 0).val = t.val * 5000 + (j 0).val
    rw [e0]; omega
  · show win3_5.index t 1 * 128 + 1 * (j 1).val = (j 1).val
    rw [e1]; omega

/-- An index of `main_v103` is in point `t`'s output block iff each coordinate is in the block's range on its axis. -/
theorem bnOutBlock3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v103).slice (win3_5.rect t)).set ↔ _
  rw [View.set_slice_whole, Rect.mem_set_unit]
  exact Iff.rfl

/-- Every index of `main_v103` is written back by some point: row `r` by point `r / 5000`. -/
theorem bnCover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have ht : (i 0).val / 5000 < cfg3.N := by rw [show cfg3.N = 10 from N_3]; omega
  obtain ⟨t, htv⟩ : ∃ t : Fin cfg3.N, t.val = (i 0).val / 5000 := ⟨⟨_, ht⟩, rfl⟩
  obtain ⟨-, -, -, -, -, -, -, -, -, -, e0, e1⟩ := bnWindows3 t
  refine ⟨t, flush3_5 t, ?_⟩
  rw [bnOutBlock3]
  intro a
  match a with
  | ⟨0, _⟩ =>
    show win3_5.index t 0 * 5000 ≤ (i 0).val ∧ (i 0).val < win3_5.index t 0 * 5000 + 5000
    rw [e0, htv]; omega
  | ⟨1, _⟩ =>
    show win3_5.index t 1 * 128 ≤ (i 1).val ∧ (i 1).val < win3_5.index t 1 * 128 + 128
    rw [e1]; omega

/-- THE ARRAY `main_v103` after region 3: the normalised and rectified input, entry by entry. -/
theorem final3 (c : Dev nD) :
    (Gen.dat3 (F := Ideal) V c).arrAt 5 cfg3.N
      = Cert.Spec.bnAct (V c main_v87) (fun k => V c main_v91 (ix2 0 k)) (fun k => V c main_v96 (ix2 0 k))
          (fun k => V c main_v99 (ix2 0 k)) (fun k => V c main_v102 (ix2 0 k)) :=
  (Gen.dat3 (F := Ideal) V c).arrAt_eq_of_cover 5 _ (fun t _ => bnWritten3 V c t) bnCover3

end Cert.KernelIdeal.RegionValue

end
-- ==== Proof.RegionNode4.lean ====
/-
  Region 4 (`_node_mlp_kernel`): the array its output window leaves, as one function of the arrays the region
  finds on entry.

  The grid has 10 points.  Point `t` reads rows `5000·t … 5000·t + 4999` of the features `main_v103` and of the
  aggregated messages `main_v115`, and the whole of the scale `main_v119`, the weights `main_v121`, `main_v126` and the
  biases `main_v124`, `main_v129`; it writes the same rows of `main_v130`.  The 10 row blocks tile the 50000 rows (row `r`
  is in block `r / 5000`), and the body treats every row on its own, so the output array ends holding the
  two-layer perceptron of `x·s + agg`, row by row.
-/
import proofs.«124610_j72327249264834_2_alg».proof.Proof.PayloadNode

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of region 4's windows at grid point `t`, decided over the 10 points: the two inputs and the
    output move down the rows with `t`, the scale, weights and biases stay at block `(0, 0)`. -/
theorem nodeWindows4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p` of the feature block at point `t` is row `5000·t + p` of its array. -/
theorem nodeFeatureRows4 (c : Dev nD) (t : Fin cfg4.N) (p : Fin 5000) (q : Fin 128) (r : Fin 50000)
    (hr : r.val = t.val * 5000 + p.val) :
    (iblk4 V c 0 t : Vec Ideal S5000x128 .f32) (ix2 p q) = (V c main_v103 : S50000x128.Idx → Elt Ideal .f32) (ix2 r q) := by
  obtain ⟨e0, e1, -⟩ := nodeWindows4 t
  unfold iblk4
  rw [View.read_apply]
  show V c main_v103 _ = V c main_v103 _
  congr 1
  funext a; apply Fin.ext
  match a with
  | ⟨0, _⟩ => show win4_0.index t 0 * 5000 + 1 * p.val = r.val; rw [e0, hr]; omega
  | ⟨1, _⟩ => show win4_0.index t 1 * 128 + 1 * q.val = q.val; rw [e1]; omega

/-- Row `p` of the message block at point `t` is row `5000·t + p` of its array. -/
theorem nodeMessageRows4 (c : Dev nD) (t : Fin cfg4.N) (p : Fin 5000) (q : Fin 128) (r : Fin 50000)
    (hr : r.val = t.val * 5000 + p.val) :
    (iblk4 V c 1 t : Vec Ideal S5000x128 .f32) (ix2 p q) = (V c main_v115 : S50000x128.Idx → Elt Ideal .f32) (ix2 r q) := by
  obtain ⟨-, -, e0, e1, -⟩ := nodeWindows4 t
  unfold iblk4
  rw [View.read_apply]
  show V c main_v115 _ = V c main_v115 _
  congr 1
  funext a; apply Fin.ext
  match a with
  | ⟨0, _⟩ => show win4_1.index t 0 * 5000 + 1 * p.val = r.val; rw [e0, hr]; omega
  | ⟨1, _⟩ => show win4_1.index t 1 * 128 + 1 * q.val = q.val; rw [e1]; omega

/-- The scale's window's block is its whole array at every grid point (its block index is `(0, 0)`). -/
theorem nodeScale4 (c : Dev nD) (t : Fin cfg4.N) :
    (iblk4 V c 2 t : Vec Ideal S1x1 .f32) = (V c main_v119 : S1x1.Idx → Elt Ideal .f32) := by
  obtain ⟨-, -, -, -, e0, e1, -⟩ := nodeWindows4 t
  funext x
  unfold iblk4
  rw [View.read_apply]
  show V c main_v119 _ = V c main_v119 _
  congr 1
  funext a; apply Fin.ext
  match a with
  | ⟨0, _⟩ => show win4_2.index t 0 * 1 + 1 * (x 0).val = (x 0).val; rw [e0]; omega
  | ⟨1, _⟩ => show win4_2.index t 1 * 1 + 1 * (x 1).val = (x 1).val; rw [e1]; omega

/-- The first weight matrix's window's block is its whole array at every grid point (its block index is `(0, 0)`). -/
theorem nodeWeight14 (c : Dev nD) (t : Fin cfg4.N) :
    (iblk4 V c 3 t : Vec Ideal S128x128 .f32) = (V c main_v121 : S128x128.Idx → Elt Ideal .f32) := by
  obtain ⟨-, -, -, -, -, -, e0, e1, -⟩ := nodeWindows4 t
  funext x
  unfold iblk4
  rw [View.read_apply]
  show V c main_v121 _ = V c main_v121 _
  congr 1
  funext a; apply Fin.ext
  match a with
  | ⟨0, _⟩ => show win4_3.index t 0 * 128 + 1 * (x 0).val = (x 0).val; rw [e0]; omega
  | ⟨1, _⟩ => show win4_3.index t 1 * 128 + 1 * (x 1).val = (x 1).val; rw [e1]; omega

/-- The first bias row's window's block is its whole array at every grid point (its block index is `(0, 0)`). -/
theorem nodeBias14 (c : Dev nD) (t : Fin cfg4.N) :
    (iblk4 V c 4 t : Vec Ideal S1x128 .f32) = (V c main_v124 : S1x128.Idx → Elt Ideal .f32) := by
  obtain ⟨-, -, -, -, -, -, -, -, e0, e1, -⟩ := nodeWindows4 t
  funext x
  unfold iblk4
  rw [View.read_apply]
  show V c main_v124 _ = V c main_v124 _
  congr 1
  funext a; apply Fin.ext
  match a with
  | ⟨0, _⟩ => show win4_4.index t 0 * 1 + 1 * (x 0).val = (x 0).val; rw [e0]; omega
  | ⟨1, _⟩ => show win4_4.index t 1 * 128 + 1 * (x 1).val = (x 1).val; rw [e1]; omega

/-- The second weight matrix's window's block is its whole array at every grid point (its block index is `(0, 0)`). -/
theorem nodeWeight24 (c : Dev nD) (t : Fin cfg4.N) :
    (iblk4 V c 5 t : Vec Ideal S128x128 .f32) = (V c main_v126 : S128x128.Idx → Elt Ideal .f32) := by
  obtain ⟨-, -, -, -, -, -, -, -, -, -, e0, e1, -⟩ := nodeWindows4 t
  funext x
  unfold iblk4
  rw [View.read_apply]
  show V c main_v126 _ = V c main_v126 _
  congr 1
  funext a; apply Fin.ext
  match a with
  | ⟨0, _⟩ => show win4_5.index t 0 * 128 + 1 * (x 0).val = (x 0).val; rw [e0]; omega
  | ⟨1, _⟩ => show win4_5.index t 1 * 128 + 1 * (x 1).val = (x 1).val; rw [e1]; omega

/-- The second bias row's window's block is its whole array at every grid point (its block index is `(0, 0)`). -/
theorem nodeBias24 (c : Dev nD) (t : Fin cfg4.N) :
    (iblk4 V c 6 t : Vec Ideal S1x128 .f32) = (V c main_v129 : S1x128.Idx → Elt Ideal .f32) := by
  obtain ⟨-, -, -, -, -, -, -, -, -, -, -, -, e0, e1, -⟩ := nodeWindows4 t
  funext x
  unfold iblk4
  rw [View.read_apply]
  show V c main_v129 _ = V c main_v129 _
  congr 1
  funext a; apply Fin.ext
  match a with
  | ⟨0, _⟩ => show win4_6.index t 0 * 1 + 1 * (x 0).val = (x 0).val; rw [e0]; omega
  | ⟨1, _⟩ => show win4_6.index t 1 * 128 + 1 * (x 1).val = (x 1).val; rw [e1]; omega

/-- The body's result at point `t`, at an entry `x` of the block that sits at index `k` of the array
    (`k`'s row is `5000·t` plus `x`'s, the columns agree): the specification's entry `k`. -/
theorem nodeBlockEntry4 (c : Dev nD) (t : Fin cfg4.N) (x : S5000x128.Idx) (k : S50000x128.Idx)
    (hk0 : (k 0).val = t.val * 5000 + (x 0).val) (hk1 : (k 1).val = (x 1).val) :
    Gen.k4_pay1 (F := Ideal) (iblk4 V c 0 t) (iblk4 V c 2 t) (iblk4 V c 1 t) (iblk4 V c 3 t) (iblk4 V c 4 t)
        (iblk4 V c 5 t) (iblk4 V c 6 t) x
      = Cert.Spec.nodeMlp (V c main_v103) (V c main_v115) (V c main_v119 (ix2 0 0)) (V c main_v121) (fun k => V c main_v124 (ix2 0 k))
          (V c main_v126) (fun k => V c main_v129 (ix2 0 k)) k := by
  obtain ⟨p, q, rfl⟩ : ∃ (p : Fin 5000) (q : Fin 128), x = ix2 p q := ⟨x 0, x 1, eq_ix2 x⟩
  obtain ⟨r, q', rfl⟩ : ∃ (r : Fin 50000) (q' : Fin 128), k = ix2 r q' := ⟨k 0, k 1, eq_ix2 k⟩
  obtain rfl : q' = q := Fin.ext hk1
  rw [nodeBody4]
  rw [nodeScale4 V c t, nodeWeight14 V c t, nodeBias14 V c t, nodeWeight24 V c t, nodeBias24 V c t]
  exact nodePoint (iblk4 V c 0 t) (V c main_v119) (iblk4 V c 1 t) (V c main_v121) (V c main_v124) (V c main_v126) (V c main_v129)
    (V c main_v103) (V c main_v115) p q' r
    (fun i => nodeFeatureRows4 V c t p i r hk0) (fun i => nodeMessageRows4 V c t p i r hk0)

/-- What point `t` writes back to `main_v130` is block `t` of the specification's matrix. -/
theorem nodeWritten4 (c : Dev nD) (t : Fin cfg4.N) :
    (Gen.dat4 (F := Ideal) V c).flushed 7 t = ((cfg4.win 7).blk t).view.read (Elt Ideal)
      (Cert.Spec.nodeMlp (V c main_v103) (V c main_v115) (V c main_v119 (ix2 0 0)) (V c main_v121) (fun k => V c main_v124 (ix2 0 k))
          (V c main_v126) (fun k => V c main_v129 (ix2 0 k))) := by
  show (cfg4.win 7).cut (grid4.coords t) ((dat4 V c).after 7 t) = _
  rw [after4_7]
  unfold out4_7
  rw [View.canon_unit_zero zeroOffsets2]
  simp only [View.ld_unit_zero (S := S5000x128) zeroOffsets2, View.ld_unit_zero (S := S1x1) zeroOffsets2,
    View.ld_unit_zero (S := S128x128) zeroOffsets2, View.ld_unit_zero (S := S1x128) zeroOffsets2]
  obtain ⟨-, -, -, -, -, -, -, -, -, -, -, -, -, -, e0, e1⟩ := nodeWindows4 t
  funext j
  refine nodeBlockEntry4 V c t j (((cfg4.win 7).blk t).view.emb j) ?_ ?_
  · show win4_7.index t 0 * 5000 + 1 * (j 0).val = t.val * 5000 + (j 0).val
    rw [e0]; omega
  · show win4_7.index t 1 * 128 + 1 * (j 1).val = (j 1).val
    rw [e1]; omega

/-- An index of `main_v130` is in point `t`'s output block iff each coordinate is in the block's range on its axis. -/
theorem nodeOutBlock4 (t : Fin cfg4.N) (i : S50000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v130).slice (win4_7.rect t)).set ↔ _
  rw [View.set_slice_whole, Rect.mem_set_unit]
  exact Iff.rfl

/-- Every index of `main_v130` is written back by some point: row `r` by point `r / 5000`. -/
theorem nodeCover4 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have ht : (i 0).val / 5000 < cfg4.N := by rw [show cfg4.N = 10 from N_4]; omega
  obtain ⟨t, htv⟩ : ∃ t : Fin cfg4.N, t.val = (i 0).val / 5000 := ⟨⟨_, ht⟩, rfl⟩
  obtain ⟨-, -, -, -, -, -, -, -, -, -, -, -, -, -, e0, e1⟩ := nodeWindows4 t
  refine ⟨t, flush4_7 t, ?_⟩
  rw [nodeOutBlock4]
  intro a
  match a with
  | ⟨0, _⟩ =>
    show win4_7.index t 0 * 5000 ≤ (i 0).val ∧ (i 0).val < win4_7.index t 0 * 5000 + 5000
    rw [e0, htv]; omega
  | ⟨1, _⟩ =>
    show win4_7.index t 1 * 128 ≤ (i 1).val ∧ (i 1).val < win4_7.index t 1 * 128 + 128
    rw [e1]; omega

/-- THE ARRAY `main_v130` after region 4: the node update of the features and messages, row by row. -/
theorem final4 (c : Dev nD) :
    (Gen.dat4 (F := Ideal) V c).arrAt 7 cfg4.N
      = Cert.Spec.nodeMlp (V c main_v103) (V c main_v115) (V c main_v119 (ix2 0 0)) (V c main_v121) (fun k => V c main_v124 (ix2 0 k))
          (V c main_v126) (fun k => V c main_v129 (ix2 0 k)) :=
  (Gen.dat4 (F := Ideal) V c).arrAt_eq_of_cover 7 _ (fun t _ => nodeWritten4 V c t) nodeCover4

end Cert.KernelIdeal.RegionValue

end
-- ==== Proof.RegionBn5.lean ====
/-
  Region 5 (`_bn_act_kernel`): the array its output window leaves, as one function of the arrays the region
  finds on entry.

  The grid has 10 points.  Point `t` reads rows `5000·t … 5000·t + 4999` of the input `main_v130` and the whole
  of the four row vectors `main_v134` (μ), `main_v139` (σ⁻¹), `main_v142` (γ), `main_v145` (β), and writes the same rows of
  `main_v146`.  The 10 row blocks tile the 50000 rows (row `r` is in block `r / 5000`), so the output array ends
  holding `max ((h − μ)·σ⁻¹·γ + β) 0` at every entry.
-/
import proofs.«124610_j72327249264834_2_alg».proof.Proof.PayloadBn

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of region 5's windows at grid point `t`, decided over the 10 points: input and output move
    down the rows with `t`, the four row vectors stay at block `(0, 0)`. -/
theorem bnWindows5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p` of the input block at point `t` is row `5000·t + p` of the input array. -/
theorem bnInRows5 (c : Dev nD) (t : Fin cfg5.N) (p : Fin 5000) (q : Fin 128) (r : Fin 50000)
    (hr : r.val = t.val * 5000 + p.val) :
    (iblk5 V c 0 t : Vec Ideal S5000x128 .f32) (ix2 p q) = (V c main_v130 : S50000x128.Idx → Elt Ideal .f32) (ix2 r q) := by
  obtain ⟨e0, e1, -⟩ := bnWindows5 t
  unfold iblk5
  rw [View.read_apply]
  show V c main_v130 _ = V c main_v130 _
  congr 1
  funext a; apply Fin.ext
  match a with
  | ⟨0, _⟩ => show win5_0.index t 0 * 5000 + 1 * p.val = r.val; rw [e0, hr]; omega
  | ⟨1, _⟩ => show win5_0.index t 1 * 128 + 1 * q.val = q.val; rw [e1]; omega

/-- The column means' window's block is its whole array at every grid point (its block index is `(0, 0)`). -/
theorem bnMean5 (c : Dev nD) (t : Fin cfg5.N) :
    (iblk5 V c 1 t : Vec Ideal S1x128 .f32) = (V c main_v134 : S1x128.Idx → Elt Ideal .f32) := by
  obtain ⟨-, -, e0, e1, -⟩ := bnWindows5 t
  funext x
  unfold iblk5
  rw [View.read_apply]
  show V c main_v134 _ = V c main_v134 _
  congr 1
  funext a; apply Fin.ext
  match a with
  | ⟨0, _⟩ => show win5_1.index t 0 * 1 + 1 * (x 0).val = (x 0).val; rw [e0]; omega
  | ⟨1, _⟩ => show win5_1.index t 1 * 128 + 1 * (x 1).val = (x 1).val; rw [e1]; omega

/-- The inverse deviations' window's block is its whole array at every grid point (its block index is `(0, 0)`). -/
theorem bnInvStd5 (c : Dev nD) (t : Fin cfg5.N) :
    (iblk5 V c 2 t : Vec Ideal S1x128 .f32) = (V c main_v139 : S1x128.Idx → Elt Ideal .f32) := by
  obtain ⟨-, -, -, -, e0, e1, -⟩ := bnWindows5 t
  funext x
  unfold iblk5
  rw [View.read_apply]
  show V c main_v139 _ = V c main_v139 _
  congr 1
  funext a; apply Fin.ext
  match a with
  | ⟨0, _⟩ => show win5_2.index t 0 * 1 + 1 * (x 0).val = (x 0).val; rw [e0]; omega
  | ⟨1, _⟩ => show win5_2.index t 1 * 128 + 1 * (x 1).val = (x 1).val; rw [e1]; omega

/-- The scale's window's block is its whole array at every grid point (its block index is `(0, 0)`). -/
theorem bnGamma5 (c : Dev nD) (t : Fin cfg5.N) :
    (iblk5 V c 3 t : Vec Ideal S1x128 .f32) = (V c main_v142 : S1x128.Idx → Elt Ideal .f32) := by
  obtain ⟨-, -, -, -, -, -, e0, e1, -⟩ := bnWindows5 t
  funext x
  unfold iblk5
  rw [View.read_apply]
  show V c main_v142 _ = V c main_v142 _
  congr 1
  funext a; apply Fin.ext
  match a with
  | ⟨0, _⟩ => show win5_3.index t 0 * 1 + 1 * (x 0).val = (x 0).val; rw [e0]; omega
  | ⟨1, _⟩ => show win5_3.index t 1 * 128 + 1 * (x 1).val = (x 1).val; rw [e1]; omega

/-- The shift's window's block is its whole array at every grid point (its block index is `(0, 0)`). -/
theorem bnBeta5 (c : Dev nD) (t : Fin cfg5.N) :
    (iblk5 V c 4 t : Vec Ideal S1x128 .f32) = (V c main_v145 : S1x128.Idx → Elt Ideal .f32) := by
  obtain ⟨-, -, -, -, -, -, -, -, e0, e1, -⟩ := bnWindows5 t
  funext x
  unfold iblk5
  rw [View.read_apply]
  show V c main_v145 _ = V c main_v145 _
  congr 1
  funext a; apply Fin.ext
  match a with
  | ⟨0, _⟩ => show win5_4.index t 0 * 1 + 1 * (x 0).val = (x 0).val; rw [e0]; omega
  | ⟨1, _⟩ => show win5_4.index t 1 * 128 + 1 * (x 1).val = (x 1).val; rw [e1]; omega

/-- The body's result at point `t`, at an entry `x` of the block that sits at index `k` of the array
    (`k`'s row is `5000·t` plus `x`'s, the columns agree): the specification's entry `k`. -/
theorem bnBlockEntry5 (c : Dev nD) (t : Fin cfg5.N) (x : S5000x128.Idx) (k : S50000x128.Idx)
    (hk0 : (k 0).val = t.val * 5000 + (x 0).val) (hk1 : (k 1).val = (x 1).val) :
    Gen.k5_pay1 (F := Ideal) (iblk5 V c 0 t) (iblk5 V c 1 t) (iblk5 V c 2 t) (iblk5 V c 3 t) (iblk5 V c 4 t) x
      = Cert.Spec.bnAct (V c main_v130) (fun k => V c main_v134 (ix2 0 k)) (fun k => V c main_v139 (ix2 0 k))
          (fun k => V c main_v142 (ix2 0 k)) (fun k => V c main_v145 (ix2 0 k)) k := by
  obtain ⟨p, q, rfl⟩ : ∃ (p : Fin 5000) (q : Fin 128), x = ix2 p q := ⟨x 0, x 1, eq_ix2 x⟩
  obtain ⟨r, q', rfl⟩ : ∃ (r : Fin 50000) (q' : Fin 128), k = ix2 r q' := ⟨k 0, k 1, eq_ix2 k⟩
  obtain rfl : q' = q := Fin.ext hk1
  rw [bnBody5]
  rw [bnMean5 V c t, bnInvStd5 V c t, bnGamma5 V c t, bnBeta5 V c t]
  exact bnPoint (iblk5 V c 0 t) (V c main_v134) (V c main_v139) (V c main_v142) (V c main_v145) (V c main_v130) p q' r
    (bnInRows5 V c t p q' r hk0)

/-- What point `t` writes back to `main_v146` is block `t` of the specification's matrix. -/
theorem bnWritten5 (c : Dev nD) (t : Fin cfg5.N) :
    (Gen.dat5 (F := Ideal) V c).flushed 5 t = ((cfg5.win 5).blk t).view.read (Elt Ideal)
      (Cert.Spec.bnAct (V c main_v130) (fun k => V c main_v134 (ix2 0 k)) (fun k => V c main_v139 (ix2 0 k))
          (fun k => V c main_v142 (ix2 0 k)) (fun k => V c main_v145 (ix2 0 k))) := by
  show (cfg5.win 5).cut (grid5.coords t) ((dat5 V c).after 5 t) = _
  rw [after5_5]
  unfold out5_5
  rw [View.canon_unit_zero zeroOffsets2]
  simp only [View.ld_unit_zero (S := S5000x128) zeroOffsets2, View.ld_unit_zero (S := S1x128) zeroOffsets2]
  obtain ⟨-, -, -, -, -, -, -, -, -, -, e0, e1⟩ := bnWindows5 t
  funext j
  refine bnBlockEntry5 V c t j (((cfg5.win 5).blk t).view.emb j) ?_ ?_
  · show win5_5.index t 0 * 5000 + 1 * (j 0).val = t.val * 5000 + (j 0).val
    rw [e0]; omega
  · show win5_5.index t 1 * 128 + 1 * (j 1).val = (j 1).val
    rw [e1]; omega

/-- An index of `main_v146` is in point `t`'s output block iff each coordinate is in the block's range on its axis. -/
theorem bnOutBlock5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v146).slice (win5_5.rect t)).set ↔ _
  rw [View.set_slice_whole, Rect.mem_set_unit]
  exact Iff.rfl

/-- Every index of `main_v146` is written back by some point: row `r` by point `r / 5000`. -/
theorem bnCover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have ht : (i 0).val / 5000 < cfg5.N := by rw [show cfg5.N = 10 from N_5]; omega
  obtain ⟨t, htv⟩ : ∃ t : Fin cfg5.N, t.val = (i 0).val / 5000 := ⟨⟨_, ht⟩, rfl⟩
  obtain ⟨-, -, -, -, -, -, -, -, -, -, e0, e1⟩ := bnWindows5 t
  refine ⟨t, flush5_5 t, ?_⟩
  rw [bnOutBlock5]
  intro a
  match a with
  | ⟨0, _⟩ =>
    show win5_5.index t 0 * 5000 ≤ (i 0).val ∧ (i 0).val < win5_5.index t 0 * 5000 + 5000
    rw [e0, htv]; omega
  | ⟨1, _⟩ =>
    show win5_5.index t 1 * 128 ≤ (i 1).val ∧ (i 1).val < win5_5.index t 1 * 128 + 128
    rw [e1]; omega

/-- THE ARRAY `main_v146` after region 5: the normalised and rectified input, entry by entry. -/
theorem final5 (c : Dev nD) :
    (Gen.dat5 (F := Ideal) V c).arrAt 5 cfg5.N
      = Cert.Spec.bnAct (V c main_v130) (fun k => V c main_v134 (ix2 0 k)) (fun k => V c main_v139 (ix2 0 k))
          (fun k => V c main_v142 (ix2 0 k)) (fun k => V c main_v145 (ix2 0 k)) :=
  (Gen.dat5 (F := Ideal) V c).arrAt_eq_of_cover 5 _ (fun t _ => bnWritten5 V c t) bnCover5

end Cert.KernelIdeal.RegionValue

end
-- ==== Proof.PayloadHead.lean ====
/-
  The read-out body (`_head_kernel`, region 6) at one entry of its block.

  The body holds a block `x` of 5000 rows, two 128×128 weight matrices with their bias rows, and a 128×1 output
  column with its one-entry bias.  It multiplies by `w1`, adds `b1`, rectifies, multiplies by `w2`, adds `b2`,
  rectifies, multiplies by `w3` and adds `b3`.  Every product contracts the 128 columns of its left operand, so
  entry `(p, q)` of the result reads row `p` of the block only.
-/
import proofs.«124610_j72327249264834_2_alg».proof.Proof.BlockProducts

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The read-out body at entry `(p, q)` of its block (`q` the one output column): three matrix products with two
    rectified hidden layers between them. -/
theorem headPayload (x0 : Vec Ideal S5000x128 .f32) (w1 : Vec Ideal S128x128 .f32) (b1 : Vec Ideal S1x128 .f32)
    (w2 : Vec Ideal S128x128 .f32) (b2 : Vec Ideal S1x128 .f32) (w3 : Vec Ideal S128x1 .f32) (b3 : Vec Ideal S1x1 .f32)
    (p : Fin 5000) (q : Fin 1) :
    Gen.k6_pay1 (F := Ideal) x0 w1 b1 w2 b2 w3 b3 (ix2 p q)
      = (∑ k : Fin 128, max ((∑ i : Fin 128, max ((∑ a : Fin 128, x0 (ix2 p a) * w1 (ix2 a i)) + b1 (ix2 0 i)) 0
            * w2 (ix2 i k)) + b2 (ix2 0 k)) 0 * w3 (ix2 k q)) + b3 (ix2 0 q) := by
  unfold Gen.k6_pay1
  simp only [addf_apply, shapeCast_self, broadcastTo_1b_ab_apply, rowsTimes, rowsTimesColumn, maximumf_apply,
    broadcast_apply, zeroWord]

/-- When row `p` of the block is row `r` of the array `X`, the body's result at `(p, q)` is the specification's
    entry `(r, q)`. -/
theorem headPoint (x0 : Vec Ideal S5000x128 .f32) (w1 : Vec Ideal S128x128 .f32) (b1 : Vec Ideal S1x128 .f32)
    (w2 : Vec Ideal S128x128 .f32) (b2 : Vec Ideal S1x128 .f32) (w3 : Vec Ideal S128x1 .f32) (b3 : Vec Ideal S1x1 .f32)
    (X : Cert.Spec.Mat 50000 128) (p : Fin 5000) (q : Fin 1) (r : Fin 50000)
    (hX : ∀ a : Fin 128, x0 (ix2 p a) = X (ix2 r a)) :
    Gen.k6_pay1 (F := Ideal) x0 w1 b1 w2 b2 w3 b3 (ix2 p q)
      = Cert.Spec.head X w1 (fun k => b1 (ix2 0 k)) w2 (fun k => b2 (ix2 0 k)) w3 (b3 (ix2 0 0)) (ix2 r q) := by
  rw [headPayload, Cert.Spec.head_apply]
  unfold Cert.Spec.headRow Cert.Spec.headHidden2 Cert.Spec.headHidden1
  obtain rfl : q = 0 := Subsingleton.elim q 0
  simp only [hX]

end Cert.KernelIdeal.RegionValue

end
-- ==== Proof.RegionHead6.lean ====
/-
  Region 6 (`_head_kernel`): the array its output window leaves, as one function of the arrays the region finds
  on entry.

  The grid has 10 points.  Point `t` reads rows `5000·t … 5000·t + 4999` of the features `main_v146` and the whole of
  the weights `main_arg12`, `main_arg14`, `main_arg16` and the biases `main_v147`, `main_v148`, `main_v149`; it writes the same rows of
  the one-column array `main_v150`.  The 10 row blocks tile the 50000 rows (row `r` is in block `r / 5000`), and the
  body treats every row on its own, so the output array ends holding the three-layer read-out, row by row.
-/
import proofs.«124610_j72327249264834_2_alg».proof.Proof.PayloadHead

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of region 6's windows at grid point `t`, decided over the 10 points: the input and the output
    move down the rows with `t`, the weights and biases stay at block `(0, 0)`. -/
theorem headWindows6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row `p` of the feature block at point `t` is row `5000·t + p` of its array. -/
theorem headFeatureRows6 (c : Dev nD) (t : Fin cfg6.N) (p : Fin 5000) (q : Fin 128) (r : Fin 50000)
    (hr : r.val = t.val * 5000 + p.val) :
    (iblk6 V c 0 t : Vec Ideal S5000x128 .f32) (ix2 p q) = (V c main_v146 : S50000x128.Idx → Elt Ideal .f32) (ix2 r q) := by
  obtain ⟨e0, e1, -⟩ := headWindows6 t
  unfold iblk6
  rw [View.read_apply]
  show V c main_v146 _ = V c main_v146 _
  congr 1
  funext a; apply Fin.ext
  match a with
  | ⟨0, _⟩ => show win6_0.index t 0 * 5000 + 1 * p.val = r.val; rw [e0, hr]; omega
  | ⟨1, _⟩ => show win6_0.index t 1 * 128 + 1 * q.val = q.val; rw [e1]; omega

/-- The first weight matrix's window's block is its whole array at every grid point (its block index is `(0, 0)`). -/
theorem headWeight16 (c : Dev nD) (t : Fin cfg6.N) :
    (iblk6 V c 1 t : Vec Ideal S128x128 .f32) = (V c main_arg12 : S128x128.Idx → Elt Ideal .f32) := by
  obtain ⟨-, -, e0, e1, -⟩ := headWindows6 t
  funext x
  unfold iblk6
  rw [View.read_apply]
  show V c main_arg12 _ = V c main_arg12 _
  congr 1
  funext a; apply Fin.ext
  match a with
  | ⟨0, _⟩ => show win6_1.index t 0 * 128 + 1 * (x 0).val = (x 0).val; rw [e0]; omega
  | ⟨1, _⟩ => show win6_1.index t 1 * 128 + 1 * (x 1).val = (x 1).val; rw [e1]; omega

/-- The first bias row's window's block is its whole array at every grid point (its block index is `(0, 0)`). -/
theorem headBias16 (c : Dev nD) (t : Fin cfg6.N) :
    (iblk6 V c 2 t : Vec Ideal S1x128 .f32) = (V c main_v147 : S1x128.Idx → Elt Ideal .f32) := by
  obtain ⟨-, -, -, -, e0, e1, -⟩ := headWindows6 t
  funext x
  unfold iblk6
  rw [View.read_apply]
  show V c main_v147 _ = V c main_v147 _
  congr 1
  funext a; apply Fin.ext
  match a with
  | ⟨0, _⟩ => show win6_2.index t 0 * 1 + 1 * (x 0).val = (x 0).val; rw [e0]; omega
  | ⟨1, _⟩ => show win6_2.index t 1 * 128 + 1 * (x 1).val = (x 1).val; rw [e1]; omega

/-- The second weight matrix's window's block is its whole array at every grid point (its block index is `(0, 0)`). -/
theorem headWeight26 (c : Dev nD) (t : Fin cfg6.N) :
    (iblk6 V c 3 t : Vec Ideal S128x128 .f32) = (V c main_arg14 : S128x128.Idx → Elt Ideal .f32) := by
  obtain ⟨-, -, -, -, -, -, e0, e1, -⟩ := headWindows6 t
  funext x
  unfold iblk6
  rw [View.read_apply]
  show V c main_arg14 _ = V c main_arg14 _
  congr 1
  funext a; apply Fin.ext
  match a with
  | ⟨0, _⟩ => show win6_3.index t 0 * 128 + 1 * (x 0).val = (x 0).val; rw [e0]; omega
  | ⟨1, _⟩ => show win6_3.index t 1 * 128 + 1 * (x 1).val = (x 1).val; rw [e1]; omega

/-- The second bias row's window's block is its whole array at every grid point (its block index is `(0, 0)`). -/
theorem headBias26 (c : Dev nD) (t : Fin cfg6.N) :
    (iblk6 V c 4 t : Vec Ideal S1x128 .f32) = (V c main_v148 : S1x128.Idx → Elt Ideal .f32) := by
  obtain ⟨-, -, -, -, -, -, -, -, e0, e1, -⟩ := headWindows6 t
  funext x
  unfold iblk6
  rw [View.read_apply]
  show V c main_v148 _ = V c main_v148 _
  congr 1
  funext a; apply Fin.ext
  match a with
  | ⟨0, _⟩ => show win6_4.index t 0 * 1 + 1 * (x 0).val = (x 0).val; rw [e0]; omega
  | ⟨1, _⟩ => show win6_4.index t 1 * 128 + 1 * (x 1).val = (x 1).val; rw [e1]; omega

/-- The output column's window's block is its whole array at every grid point (its block index is `(0, 0)`). -/
theorem headWeight36 (c : Dev nD) (t : Fin cfg6.N) :
    (iblk6 V c 5 t : Vec Ideal S128x1 .f32) = (V c main_arg16 : S128x1.Idx → Elt Ideal .f32) := by
  obtain ⟨-, -, -, -, -, -, -, -, -, -, e0, e1, -⟩ := headWindows6 t
  funext x
  unfold iblk6
  rw [View.read_apply]
  show V c main_arg16 _ = V c main_arg16 _
  congr 1
  funext a; apply Fin.ext
  match a with
  | ⟨0, _⟩ => show win6_5.index t 0 * 128 + 1 * (x 0).val = (x 0).val; rw [e0]; omega
  | ⟨1, _⟩ => show win6_5.index t 1 * 1 + 1 * (x 1).val = (x 1).val; rw [e1]; omega

/-- The output bias's window's block is its whole array at every grid point (its block index is `(0, 0)`). -/
theorem headBias36 (c : Dev nD) (t : Fin cfg6.N) :
    (iblk6 V c 6 t : Vec Ideal S1x1 .f32) = (V c main_v149 : S1x1.Idx → Elt Ideal .f32) := by
  obtain ⟨-, -, -, -, -, -, -, -, -, -, -, -, e0, e1, -⟩ := headWindows6 t
  funext x
  unfold iblk6
  rw [View.read_apply]
  show V c main_v149 _ = V c main_v149 _
  congr 1
  funext a; apply Fin.ext
  match a with
  | ⟨0, _⟩ => show win6_6.index t 0 * 1 + 1 * (x 0).val = (x 0).val; rw [e0]; omega
  | ⟨1, _⟩ => show win6_6.index t 1 * 1 + 1 * (x 1).val = (x 1).val; rw [e1]; omega

/-- The body's result at point `t`, at an entry `x` of the block that sits at index `k` of the array
    (`k`'s row is `5000·t` plus `x`'s, the columns agree): the specification's entry `k`. -/
theorem headBlockEntry6 (c : Dev nD) (t : Fin cfg6.N) (x : S5000x1.Idx) (k : S50000x1.Idx)
    (hk0 : (k 0).val = t.val * 5000 + (x 0).val) (hk1 : (k 1).val = (x 1).val) :
    Gen.k6_pay1 (F := Ideal) (iblk6 V c 0 t) (iblk6 V c 1 t) (iblk6 V c 2 t) (iblk6 V c 3 t) (iblk6 V c 4 t)
        (iblk6 V c 5 t) (iblk6 V c 6 t) x
      = Cert.Spec.head (V c main_v146) (V c main_arg12) (fun k => V c main_v147 (ix2 0 k)) (V c main_arg14) (fun k => V c main_v148 (ix2 0 k))
          (V c main_arg16) (V c main_v149 (ix2 0 0)) k := by
  obtain ⟨p, q, rfl⟩ : ∃ (p : Fin 5000) (q : Fin 1), x = ix2 p q := ⟨x 0, x 1, eq_ix2 x⟩
  obtain ⟨r, q', rfl⟩ : ∃ (r : Fin 50000) (q' : Fin 1), k = ix2 r q' := ⟨k 0, k 1, eq_ix2 k⟩
  obtain rfl : q' = q := Fin.ext hk1
  rw [headWeight16 V c t, headBias16 V c t, headWeight26 V c t, headBias26 V c t, headWeight36 V c t, headBias36 V c t]
  exact headPoint (iblk6 V c 0 t) (V c main_arg12) (V c main_v147) (V c main_arg14) (V c main_v148) (V c main_arg16) (V c main_v149)
    (V c main_v146) p q' r (fun a => headFeatureRows6 V c t p a r hk0)

/-- What point `t` writes back to `main_v150` is block `t` of the specification's one-column matrix. -/
theorem headWritten6 (c : Dev nD) (t : Fin cfg6.N) :
    (Gen.dat6 (F := Ideal) V c).flushed 7 t = ((cfg6.win 7).blk t).view.read (Elt Ideal)
      (Cert.Spec.head (V c main_v146) (V c main_arg12) (fun k => V c main_v147 (ix2 0 k)) (V c main_arg14) (fun k => V c main_v148 (ix2 0 k))
          (V c main_arg16) (V c main_v149 (ix2 0 0))) := by
  show (cfg6.win 7).cut (grid6.coords t) ((dat6 V c).after 7 t) = _
  rw [after6_7]
  unfold out6_7
  rw [View.canon_unit_zero zeroOffsets2]
  simp only [View.ld_unit_zero (S := S5000x128) zeroOffsets2, View.ld_unit_zero (S := S1x1) zeroOffsets2,
    View.ld_unit_zero (S := S128x128) zeroOffsets2, View.ld_unit_zero (S := S1x128) zeroOffsets2,
    View.ld_unit_zero (S := S128x1) zeroOffsets2]
  obtain ⟨-, -, -, -, -, -, -, -, -, -, -, -, -, -, e0, e1⟩ := headWindows6 t
  funext j
  refine headBlockEntry6 V c t j (((cfg6.win 7).blk t).view.emb j) ?_ ?_
  · show win6_7.index t 0 * 5000 + 1 * (j 0).val = t.val * 5000 + (j 0).val
    rw [e0]; omega
  · show win6_7.index t 1 * 1 + 1 * (j 1).val = (j 1).val
    rw [e1]; omega

/-- An index of `main_v150` is in point `t`'s output block iff each coordinate is in the block's range on its axis. -/
theorem headOutBlock6 (t : Fin cfg6.N) (i : S50000x1.Idx) :
    i ∈ ((cfg6.win 7).blk t).view.set ↔ ∀ a : Fin 2, win6_7.index t a * S5000x1.size a ≤ (i a).val
      ∧ (i a).val < win6_7.index t a * S5000x1.size a + S5000x1.size a := by
  show i ∈ ((View.whole main_v150).slice (win6_7.rect t)).set ↔ _
  rw [View.set_slice_whole, Rect.mem_set_unit]
  exact Iff.rfl

/-- Every index of `main_v150` is written back by some point: row `r` by point `r / 5000`. -/
theorem headCover6 (i : S50000x1.Idx) :
    ∃ t : Fin cfg6.N, (cfg6.win 7).flush t = true ∧ i ∈ ((cfg6.win 7).blk t).view.set := by
  have hi0 : (i 0).val < 50000 := (i 0).isLt
  have hi1 : (i 1).val < 1 := (i 1).isLt
  have ht : (i 0).val / 5000 < cfg6.N := by rw [show cfg6.N = 10 from N_6]; omega
  obtain ⟨t, htv⟩ : ∃ t : Fin cfg6.N, t.val = (i 0).val / 5000 := ⟨⟨_, ht⟩, rfl⟩
  obtain ⟨-, -, -, -, -, -, -, -, -, -, -, -, -, -, e0, e1⟩ := headWindows6 t
  refine ⟨t, flush6_7 t, ?_⟩
  rw [headOutBlock6]
  intro a
  match a with
  | ⟨0, _⟩ =>
    show win6_7.index t 0 * 5000 ≤ (i 0).val ∧ (i 0).val < win6_7.index t 0 * 5000 + 5000
    rw [e0, htv]; omega
  | ⟨1, _⟩ =>
    show win6_7.index t 1 * 1 ≤ (i 1).val ∧ (i 1).val < win6_7.index t 1 * 1 + 1
    rw [e1]; omega

/-- THE ARRAY `main_v150` after region 6: the read-out of the features, row by row. -/
theorem final6 (c : Dev nD) :
    (Gen.dat6 (F := Ideal) V c).arrAt 7 cfg6.N
      = Cert.Spec.head (V c main_v146) (V c main_arg12) (fun k => V c main_v147 (ix2 0 k)) (V c main_arg14) (fun k => V c main_v148 (ix2 0 k))
          (V c main_arg16) (V c main_v149 (ix2 0 0)) :=
  (Gen.dat6 (F := Ideal) V c).arrAt_eq_of_cover 7 _ (fun t _ => headWritten6 V c t) headCover6

end Cert.KernelIdeal.RegionValue

end
-- ==== Proof.KValue.lean ====
/-
  The value of the idealized kernel program's result buffer: reading the fold of buffer contents backwards from the
  last boundary, each region's output array is its row-wise function (module Spec) of the arrays the region finds,
  and those are the stage functions (module KStage) of the arguments and of the previous region's output.  So the
  result buffer ends at `Model.out` of the eighteen argument arrays, which no segment writes.
-/
import proofs.«124610_j72327249264834_2_alg».proof.Proof.KFold
import proofs.«124610_j72327249264834_2_alg».proof.Proof.KWrites
import proofs.«124610_j72327249264834_2_alg».proof.Proof.KModel
import proofs.«124610_j72327249264834_2_alg».proof.Proof.Gen.KernelIdeal.Frame
import proofs.«124610_j72327249264834_2_alg».proof.Proof.RegionNode0
import proofs.«124610_j72327249264834_2_alg».proof.Proof.RegionBn1
import proofs.«124610_j72327249264834_2_alg».proof.Proof.RegionNode2
import proofs.«124610_j72327249264834_2_alg».proof.Proof.RegionBn3
import proofs.«124610_j72327249264834_2_alg».proof.Proof.RegionNode4
import proofs.«124610_j72327249264834_2_alg».proof.Proof.RegionBn5
import proofs.«124610_j72327249264834_2_alg».proof.Proof.RegionHead6

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert

variable (m : (ℓ : Loc nD τ sig) → Buf (Elt Ideal) ℓ) (ρ : Dev nD → PrngReg) (c : Dev nD)

theorem x_at3 : W3 m ρ c (Proc.devRef .tc main_v6) = (Stage.x0 (F := Ideal) (m ((c : Thread nD τ).loc main_arg0)) (m ((c : Thread nD τ).loc main_arg3))) :=
  f0_x (W0 m ρ c)

theorem ea_at3 : W3 m ρ c (Proc.devRef .tc main_v13) = (Stage.ea (F := Ideal) (m ((c : Thread nD τ).loc main_arg1)) (m ((c : Thread nD τ).loc main_arg4))) :=
  f0_ea (W0 m ρ c)

theorem src_at3 : W3 m ρ c (Proc.devRef .tc main_v15) = (Stage.src (m ((c : Thread nD τ).loc main_arg2))) :=
  f0_src (W0 m ρ c)

theorem dst_at3 : W3 m ρ c (Proc.devRef .tc main_v17) = (Stage.dst (m ((c : Thread nD τ).loc main_arg2))) :=
  f0_dst (W0 m ρ c)

theorem agg_at3 : W3 m ρ c (Proc.devRef .tc main_v29) = Stage.agg (F := Ideal) (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) :=
  f0_agg (W0 m ρ c)

theorem sc_at3 : W3 m ρ c (Proc.devRef .tc main_v33) = Stage.scale0 (F := Ideal) (m ((c : Thread nD τ).loc main_arg5)) :=
  f0_sc (W0 m ρ c)

theorem wA_at3 : W3 m ρ c (Proc.devRef .tc main_v35) = Stage.wA0 (F := Ideal) (m ((c : Thread nD τ).loc main_arg6)) :=
  f0_wA (W0 m ρ c)

theorem bA_at3 : W3 m ρ c (Proc.devRef .tc main_v38) = Stage.bA0 (F := Ideal) (m ((c : Thread nD τ).loc main_arg7)) :=
  f0_bA (W0 m ρ c)

theorem wB_at3 : W3 m ρ c (Proc.devRef .tc main_v40) = Stage.wB0 (F := Ideal) (m ((c : Thread nD τ).loc main_arg8)) :=
  f0_wB (W0 m ρ c)

theorem bB_at3 : W3 m ρ c (Proc.devRef .tc main_v43) = Stage.bB0 (F := Ideal) (m ((c : Thread nD τ).loc main_arg9)) :=
  f0_bB (W0 m ρ c)

theorem h_at4 : W4 m ρ c (Proc.devRef .tc main_v44) = (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) :=
  (W4_arr m ρ c 7).trans ((RegionValue.final0 (V3 m ρ) c).trans (by
    rw [show V3 m ρ c main_v6 = _ from (x_at3 m ρ c), show V3 m ρ c main_v29 = _ from (agg_at3 m ρ c),
      show V3 m ρ c main_v33 = _ from (sc_at3 m ρ c), show V3 m ρ c main_v35 = _ from (wA_at3 m ρ c),
      show V3 m ρ c main_v38 = _ from (bA_at3 m ρ c), show V3 m ρ c main_v40 = _ from (wB_at3 m ρ c),
      show V3 m ρ c main_v43 = _ from (bB_at3 m ρ c)]
    rfl))

theorem arg10_at4 : W4 m ρ c (Proc.devRef .tc main_arg10) = (m ((c : Thread nD τ).loc main_arg10)) :=
  (W4_of_ne m ρ c main_arg10 (by decide)).trans ((keep0_2 (W2 m ρ c) main_arg10 (by decide)).trans ((keep0_1 (W1 m ρ c) main_arg10 (by decide)).trans ((keep0 (W0 m ρ c) main_arg10 (by decide)))))

theorem arg11_at4 : W4 m ρ c (Proc.devRef .tc main_arg11) = (m ((c : Thread nD τ).loc main_arg11)) :=
  (W4_of_ne m ρ c main_arg11 (by decide)).trans ((keep0_2 (W2 m ρ c) main_arg11 (by decide)).trans ((keep0_1 (W1 m ρ c) main_arg11 (by decide)).trans ((keep0 (W0 m ρ c) main_arg11 (by decide)))))

theorem h_at7 : W7 m ρ c (Proc.devRef .tc main_v44) = (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) :=
  (f1_h (W4 m ρ c)).trans (h_at4 m ρ c)

theorem mu_at7 : W7 m ρ c (Proc.devRef .tc main_v48) = Stage.rowOf (F := Ideal) (Stage.meanArr (F := Ideal) (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)))) :=
  (f1_mu (W4 m ρ c)).trans (by rw [(h_at4 m ρ c)])

theorem inv_at7 : W7 m ρ c (Proc.devRef .tc main_v53) = Stage.invRow (F := Ideal) (Stage.varArr (F := Ideal) (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)))) :=
  (f1_inv (W4 m ρ c)).trans (by rw [(h_at4 m ρ c)])

theorem ga_at7 : W7 m ρ c (Proc.devRef .tc main_v56) = Stage.gamma0 (F := Ideal) (m ((c : Thread nD τ).loc main_arg10)) :=
  (f1_ga (W4 m ρ c)).trans (by rw [(arg10_at4 m ρ c)])

theorem be_at7 : W7 m ρ c (Proc.devRef .tc main_v59) = Stage.beta0 (F := Ideal) (m ((c : Thread nD τ).loc main_arg11)) :=
  (f1_be (W4 m ρ c)).trans (by rw [(arg11_at4 m ρ c)])

theorem x_at8 : W8 m ρ c (Proc.devRef .tc main_v60) = (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (W8_arr m ρ c 5).trans ((RegionValue.final1 (V7 m ρ) c).trans (by
    rw [show V7 m ρ c main_v44 = _ from (h_at7 m ρ c), show V7 m ρ c main_v48 = _ from (mu_at7 m ρ c),
      show V7 m ρ c main_v53 = _ from (inv_at7 m ρ c), show V7 m ρ c main_v56 = _ from (ga_at7 m ρ c),
      show V7 m ρ c main_v59 = _ from (be_at7 m ρ c)]
    rfl))

theorem arg5_at8 : W8 m ρ c (Proc.devRef .tc main_arg5) = (m ((c : Thread nD τ).loc main_arg5)) :=
  (W8_of_ne m ρ c main_arg5 (by decide)).trans ((keep1_2 (W6 m ρ c) main_arg5 (by decide)).trans ((keep1_1 (W5 m ρ c) main_arg5 (by decide)).trans ((keep1 (W4 m ρ c) main_arg5 (by decide)).trans ((W4_of_ne m ρ c main_arg5 (by decide)).trans ((keep0_2 (W2 m ρ c) main_arg5 (by decide)).trans ((keep0_1 (W1 m ρ c) main_arg5 (by decide)).trans ((keep0 (W0 m ρ c) main_arg5 (by decide)))))))))

theorem arg6_at8 : W8 m ρ c (Proc.devRef .tc main_arg6) = (m ((c : Thread nD τ).loc main_arg6)) :=
  (W8_of_ne m ρ c main_arg6 (by decide)).trans ((keep1_2 (W6 m ρ c) main_arg6 (by decide)).trans ((keep1_1 (W5 m ρ c) main_arg6 (by decide)).trans ((keep1 (W4 m ρ c) main_arg6 (by decide)).trans ((W4_of_ne m ρ c main_arg6 (by decide)).trans ((keep0_2 (W2 m ρ c) main_arg6 (by decide)).trans ((keep0_1 (W1 m ρ c) main_arg6 (by decide)).trans ((keep0 (W0 m ρ c) main_arg6 (by decide)))))))))

theorem arg7_at8 : W8 m ρ c (Proc.devRef .tc main_arg7) = (m ((c : Thread nD τ).loc main_arg7)) :=
  (W8_of_ne m ρ c main_arg7 (by decide)).trans ((keep1_2 (W6 m ρ c) main_arg7 (by decide)).trans ((keep1_1 (W5 m ρ c) main_arg7 (by decide)).trans ((keep1 (W4 m ρ c) main_arg7 (by decide)).trans ((W4_of_ne m ρ c main_arg7 (by decide)).trans ((keep0_2 (W2 m ρ c) main_arg7 (by decide)).trans ((keep0_1 (W1 m ρ c) main_arg7 (by decide)).trans ((keep0 (W0 m ρ c) main_arg7 (by decide)))))))))

theorem arg8_at8 : W8 m ρ c (Proc.devRef .tc main_arg8) = (m ((c : Thread nD τ).loc main_arg8)) :=
  (W8_of_ne m ρ c main_arg8 (by decide)).trans ((keep1_2 (W6 m ρ c) main_arg8 (by decide)).trans ((keep1_1 (W5 m ρ c) main_arg8 (by decide)).trans ((keep1 (W4 m ρ c) main_arg8 (by decide)).trans ((W4_of_ne m ρ c main_arg8 (by decide)).trans ((keep0_2 (W2 m ρ c) main_arg8 (by decide)).trans ((keep0_1 (W1 m ρ c) main_arg8 (by decide)).trans ((keep0 (W0 m ρ c) main_arg8 (by decide)))))))))

theorem arg9_at8 : W8 m ρ c (Proc.devRef .tc main_arg9) = (m ((c : Thread nD τ).loc main_arg9)) :=
  (W8_of_ne m ρ c main_arg9 (by decide)).trans ((keep1_2 (W6 m ρ c) main_arg9 (by decide)).trans ((keep1_1 (W5 m ρ c) main_arg9 (by decide)).trans ((keep1 (W4 m ρ c) main_arg9 (by decide)).trans ((W4_of_ne m ρ c main_arg9 (by decide)).trans ((keep0_2 (W2 m ρ c) main_arg9 (by decide)).trans ((keep0_1 (W1 m ρ c) main_arg9 (by decide)).trans ((keep0 (W0 m ρ c) main_arg9 (by decide)))))))))

theorem v13_at8_from3 : W8 m ρ c (Proc.devRef .tc main_v13) = W3 m ρ c (Proc.devRef .tc main_v13) :=
  (W8_of_ne m ρ c main_v13 (by decide)).trans ((keep1_2 (W6 m ρ c) main_v13 (by decide)).trans ((keep1_1 (W5 m ρ c) main_v13 (by decide)).trans ((keep1 (W4 m ρ c) main_v13 (by decide)).trans ((W4_of_ne m ρ c main_v13 (by decide))))))

theorem v15_at8_from3 : W8 m ρ c (Proc.devRef .tc main_v15) = W3 m ρ c (Proc.devRef .tc main_v15) :=
  (W8_of_ne m ρ c main_v15 (by decide)).trans ((keep1_2 (W6 m ρ c) main_v15 (by decide)).trans ((keep1_1 (W5 m ρ c) main_v15 (by decide)).trans ((keep1 (W4 m ρ c) main_v15 (by decide)).trans ((W4_of_ne m ρ c main_v15 (by decide))))))

theorem v17_at8_from3 : W8 m ρ c (Proc.devRef .tc main_v17) = W3 m ρ c (Proc.devRef .tc main_v17) :=
  (W8_of_ne m ρ c main_v17 (by decide)).trans ((keep1_2 (W6 m ρ c) main_v17 (by decide)).trans ((keep1_1 (W5 m ρ c) main_v17 (by decide)).trans ((keep1 (W4 m ρ c) main_v17 (by decide)).trans ((W4_of_ne m ρ c main_v17 (by decide))))))

theorem x_at11 : W11 m ρ c (Proc.devRef .tc main_v60) = (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (f2_x (W8 m ρ c)).trans (x_at8 m ρ c)

theorem agg_at11 : W11 m ρ c (Proc.devRef .tc main_v72) = Stage.agg (F := Ideal) (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) :=
  (f2_agg (W8 m ρ c)).trans (by rw [(x_at8 m ρ c), (v13_at8_from3 m ρ c), (v15_at8_from3 m ρ c), (v17_at8_from3 m ρ c), (ea_at3 m ρ c), (src_at3 m ρ c), (dst_at3 m ρ c)])

theorem sc_at11 : W11 m ρ c (Proc.devRef .tc main_v76) = Stage.scale1 (F := Ideal) (m ((c : Thread nD τ).loc main_arg5)) :=
  (f2_sc (W8 m ρ c)).trans (by rw [(arg5_at8 m ρ c)])

theorem wA_at11 : W11 m ρ c (Proc.devRef .tc main_v78) = Stage.wA1 (F := Ideal) (m ((c : Thread nD τ).loc main_arg6)) :=
  (f2_wA (W8 m ρ c)).trans (by rw [(arg6_at8 m ρ c)])

theorem bA_at11 : W11 m ρ c (Proc.devRef .tc main_v81) = Stage.bA1 (F := Ideal) (m ((c : Thread nD τ).loc main_arg7)) :=
  (f2_bA (W8 m ρ c)).trans (by rw [(arg7_at8 m ρ c)])

theorem wB_at11 : W11 m ρ c (Proc.devRef .tc main_v83) = Stage.wB1 (F := Ideal) (m ((c : Thread nD τ).loc main_arg8)) :=
  (f2_wB (W8 m ρ c)).trans (by rw [(arg8_at8 m ρ c)])

theorem bB_at11 : W11 m ρ c (Proc.devRef .tc main_v86) = Stage.bB1 (F := Ideal) (m ((c : Thread nD τ).loc main_arg9)) :=
  (f2_bB (W8 m ρ c)).trans (by rw [(arg9_at8 m ρ c)])

theorem h_at12 : W12 m ρ c (Proc.devRef .tc main_v87) = (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) :=
  (W12_arr m ρ c 7).trans ((RegionValue.final2 (V11 m ρ) c).trans (by
    rw [show V11 m ρ c main_v60 = _ from (x_at11 m ρ c), show V11 m ρ c main_v72 = _ from (agg_at11 m ρ c),
      show V11 m ρ c main_v76 = _ from (sc_at11 m ρ c), show V11 m ρ c main_v78 = _ from (wA_at11 m ρ c),
      show V11 m ρ c main_v81 = _ from (bA_at11 m ρ c), show V11 m ρ c main_v83 = _ from (wB_at11 m ρ c),
      show V11 m ρ c main_v86 = _ from (bB_at11 m ρ c)]
    rfl))

theorem arg10_at12 : W12 m ρ c (Proc.devRef .tc main_arg10) = (m ((c : Thread nD τ).loc main_arg10)) :=
  (W12_of_ne m ρ c main_arg10 (by decide)).trans ((keep2_2 (W10 m ρ c) main_arg10 (by decide)).trans ((keep2_1 (W9 m ρ c) main_arg10 (by decide)).trans ((keep2 (W8 m ρ c) main_arg10 (by decide)).trans ((W8_of_ne m ρ c main_arg10 (by decide)).trans ((keep1_2 (W6 m ρ c) main_arg10 (by decide)).trans ((keep1_1 (W5 m ρ c) main_arg10 (by decide)).trans ((keep1 (W4 m ρ c) main_arg10 (by decide)).trans ((W4_of_ne m ρ c main_arg10 (by decide)).trans ((keep0_2 (W2 m ρ c) main_arg10 (by decide)).trans ((keep0_1 (W1 m ρ c) main_arg10 (by decide)).trans ((keep0 (W0 m ρ c) main_arg10 (by decide)))))))))))))

theorem arg11_at12 : W12 m ρ c (Proc.devRef .tc main_arg11) = (m ((c : Thread nD τ).loc main_arg11)) :=
  (W12_of_ne m ρ c main_arg11 (by decide)).trans ((keep2_2 (W10 m ρ c) main_arg11 (by decide)).trans ((keep2_1 (W9 m ρ c) main_arg11 (by decide)).trans ((keep2 (W8 m ρ c) main_arg11 (by decide)).trans ((W8_of_ne m ρ c main_arg11 (by decide)).trans ((keep1_2 (W6 m ρ c) main_arg11 (by decide)).trans ((keep1_1 (W5 m ρ c) main_arg11 (by decide)).trans ((keep1 (W4 m ρ c) main_arg11 (by decide)).trans ((W4_of_ne m ρ c main_arg11 (by decide)).trans ((keep0_2 (W2 m ρ c) main_arg11 (by decide)).trans ((keep0_1 (W1 m ρ c) main_arg11 (by decide)).trans ((keep0 (W0 m ρ c) main_arg11 (by decide)))))))))))))

theorem h_at15 : W15 m ρ c (Proc.devRef .tc main_v87) = (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) :=
  (f3_h (W12 m ρ c)).trans (h_at12 m ρ c)

theorem mu_at15 : W15 m ρ c (Proc.devRef .tc main_v91) = Stage.rowOf (F := Ideal) (Stage.meanArr (F := Ideal) (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)))) :=
  (f3_mu (W12 m ρ c)).trans (by rw [(h_at12 m ρ c)])

theorem inv_at15 : W15 m ρ c (Proc.devRef .tc main_v96) = Stage.invRow (F := Ideal) (Stage.varArr (F := Ideal) (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)))) :=
  (f3_inv (W12 m ρ c)).trans (by rw [(h_at12 m ρ c)])

theorem ga_at15 : W15 m ρ c (Proc.devRef .tc main_v99) = Stage.gamma1 (F := Ideal) (m ((c : Thread nD τ).loc main_arg10)) :=
  (f3_ga (W12 m ρ c)).trans (by rw [(arg10_at12 m ρ c)])

theorem be_at15 : W15 m ρ c (Proc.devRef .tc main_v102) = Stage.beta1 (F := Ideal) (m ((c : Thread nD τ).loc main_arg11)) :=
  (f3_be (W12 m ρ c)).trans (by rw [(arg11_at12 m ρ c)])

theorem x_at16 : W16 m ρ c (Proc.devRef .tc main_v103) = (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (W16_arr m ρ c 5).trans ((RegionValue.final3 (V15 m ρ) c).trans (by
    rw [show V15 m ρ c main_v87 = _ from (h_at15 m ρ c), show V15 m ρ c main_v91 = _ from (mu_at15 m ρ c),
      show V15 m ρ c main_v96 = _ from (inv_at15 m ρ c), show V15 m ρ c main_v99 = _ from (ga_at15 m ρ c),
      show V15 m ρ c main_v102 = _ from (be_at15 m ρ c)]
    rfl))

theorem arg5_at16 : W16 m ρ c (Proc.devRef .tc main_arg5) = (m ((c : Thread nD τ).loc main_arg5)) :=
  (W16_of_ne m ρ c main_arg5 (by decide)).trans ((keep3_2 (W14 m ρ c) main_arg5 (by decide)).trans ((keep3_1 (W13 m ρ c) main_arg5 (by decide)).trans ((keep3 (W12 m ρ c) main_arg5 (by decide)).trans ((W12_of_ne m ρ c main_arg5 (by decide)).trans ((keep2_2 (W10 m ρ c) main_arg5 (by decide)).trans ((keep2_1 (W9 m ρ c) main_arg5 (by decide)).trans ((keep2 (W8 m ρ c) main_arg5 (by decide)).trans ((W8_of_ne m ρ c main_arg5 (by decide)).trans ((keep1_2 (W6 m ρ c) main_arg5 (by decide)).trans ((keep1_1 (W5 m ρ c) main_arg5 (by decide)).trans ((keep1 (W4 m ρ c) main_arg5 (by decide)).trans ((W4_of_ne m ρ c main_arg5 (by decide)).trans ((keep0_2 (W2 m ρ c) main_arg5 (by decide)).trans ((keep0_1 (W1 m ρ c) main_arg5 (by decide)).trans ((keep0 (W0 m ρ c) main_arg5 (by decide)))))))))))))))))

theorem arg6_at16 : W16 m ρ c (Proc.devRef .tc main_arg6) = (m ((c : Thread nD τ).loc main_arg6)) :=
  (W16_of_ne m ρ c main_arg6 (by decide)).trans ((keep3_2 (W14 m ρ c) main_arg6 (by decide)).trans ((keep3_1 (W13 m ρ c) main_arg6 (by decide)).trans ((keep3 (W12 m ρ c) main_arg6 (by decide)).trans ((W12_of_ne m ρ c main_arg6 (by decide)).trans ((keep2_2 (W10 m ρ c) main_arg6 (by decide)).trans ((keep2_1 (W9 m ρ c) main_arg6 (by decide)).trans ((keep2 (W8 m ρ c) main_arg6 (by decide)).trans ((W8_of_ne m ρ c main_arg6 (by decide)).trans ((keep1_2 (W6 m ρ c) main_arg6 (by decide)).trans ((keep1_1 (W5 m ρ c) main_arg6 (by decide)).trans ((keep1 (W4 m ρ c) main_arg6 (by decide)).trans ((W4_of_ne m ρ c main_arg6 (by decide)).trans ((keep0_2 (W2 m ρ c) main_arg6 (by decide)).trans ((keep0_1 (W1 m ρ c) main_arg6 (by decide)).trans ((keep0 (W0 m ρ c) main_arg6 (by decide)))))))))))))))))

theorem arg7_at16 : W16 m ρ c (Proc.devRef .tc main_arg7) = (m ((c : Thread nD τ).loc main_arg7)) :=
  (W16_of_ne m ρ c main_arg7 (by decide)).trans ((keep3_2 (W14 m ρ c) main_arg7 (by decide)).trans ((keep3_1 (W13 m ρ c) main_arg7 (by decide)).trans ((keep3 (W12 m ρ c) main_arg7 (by decide)).trans ((W12_of_ne m ρ c main_arg7 (by decide)).trans ((keep2_2 (W10 m ρ c) main_arg7 (by decide)).trans ((keep2_1 (W9 m ρ c) main_arg7 (by decide)).trans ((keep2 (W8 m ρ c) main_arg7 (by decide)).trans ((W8_of_ne m ρ c main_arg7 (by decide)).trans ((keep1_2 (W6 m ρ c) main_arg7 (by decide)).trans ((keep1_1 (W5 m ρ c) main_arg7 (by decide)).trans ((keep1 (W4 m ρ c) main_arg7 (by decide)).trans ((W4_of_ne m ρ c main_arg7 (by decide)).trans ((keep0_2 (W2 m ρ c) main_arg7 (by decide)).trans ((keep0_1 (W1 m ρ c) main_arg7 (by decide)).trans ((keep0 (W0 m ρ c) main_arg7 (by decide)))))))))))))))))

theorem arg8_at16 : W16 m ρ c (Proc.devRef .tc main_arg8) = (m ((c : Thread nD τ).loc main_arg8)) :=
  (W16_of_ne m ρ c main_arg8 (by decide)).trans ((keep3_2 (W14 m ρ c) main_arg8 (by decide)).trans ((keep3_1 (W13 m ρ c) main_arg8 (by decide)).trans ((keep3 (W12 m ρ c) main_arg8 (by decide)).trans ((W12_of_ne m ρ c main_arg8 (by decide)).trans ((keep2_2 (W10 m ρ c) main_arg8 (by decide)).trans ((keep2_1 (W9 m ρ c) main_arg8 (by decide)).trans ((keep2 (W8 m ρ c) main_arg8 (by decide)).trans ((W8_of_ne m ρ c main_arg8 (by decide)).trans ((keep1_2 (W6 m ρ c) main_arg8 (by decide)).trans ((keep1_1 (W5 m ρ c) main_arg8 (by decide)).trans ((keep1 (W4 m ρ c) main_arg8 (by decide)).trans ((W4_of_ne m ρ c main_arg8 (by decide)).trans ((keep0_2 (W2 m ρ c) main_arg8 (by decide)).trans ((keep0_1 (W1 m ρ c) main_arg8 (by decide)).trans ((keep0 (W0 m ρ c) main_arg8 (by decide)))))))))))))))))

theorem arg9_at16 : W16 m ρ c (Proc.devRef .tc main_arg9) = (m ((c : Thread nD τ).loc main_arg9)) :=
  (W16_of_ne m ρ c main_arg9 (by decide)).trans ((keep3_2 (W14 m ρ c) main_arg9 (by decide)).trans ((keep3_1 (W13 m ρ c) main_arg9 (by decide)).trans ((keep3 (W12 m ρ c) main_arg9 (by decide)).trans ((W12_of_ne m ρ c main_arg9 (by decide)).trans ((keep2_2 (W10 m ρ c) main_arg9 (by decide)).trans ((keep2_1 (W9 m ρ c) main_arg9 (by decide)).trans ((keep2 (W8 m ρ c) main_arg9 (by decide)).trans ((W8_of_ne m ρ c main_arg9 (by decide)).trans ((keep1_2 (W6 m ρ c) main_arg9 (by decide)).trans ((keep1_1 (W5 m ρ c) main_arg9 (by decide)).trans ((keep1 (W4 m ρ c) main_arg9 (by decide)).trans ((W4_of_ne m ρ c main_arg9 (by decide)).trans ((keep0_2 (W2 m ρ c) main_arg9 (by decide)).trans ((keep0_1 (W1 m ρ c) main_arg9 (by decide)).trans ((keep0 (W0 m ρ c) main_arg9 (by decide)))))))))))))))))

theorem v13_at16_from3 : W16 m ρ c (Proc.devRef .tc main_v13) = W3 m ρ c (Proc.devRef .tc main_v13) :=
  (W16_of_ne m ρ c main_v13 (by decide)).trans ((keep3_2 (W14 m ρ c) main_v13 (by decide)).trans ((keep3_1 (W13 m ρ c) main_v13 (by decide)).trans ((keep3 (W12 m ρ c) main_v13 (by decide)).trans ((W12_of_ne m ρ c main_v13 (by decide)).trans ((keep2_2 (W10 m ρ c) main_v13 (by decide)).trans ((keep2_1 (W9 m ρ c) main_v13 (by decide)).trans ((keep2 (W8 m ρ c) main_v13 (by decide)).trans ((W8_of_ne m ρ c main_v13 (by decide)).trans ((keep1_2 (W6 m ρ c) main_v13 (by decide)).trans ((keep1_1 (W5 m ρ c) main_v13 (by decide)).trans ((keep1 (W4 m ρ c) main_v13 (by decide)).trans ((W4_of_ne m ρ c main_v13 (by decide))))))))))))))

theorem v15_at16_from3 : W16 m ρ c (Proc.devRef .tc main_v15) = W3 m ρ c (Proc.devRef .tc main_v15) :=
  (W16_of_ne m ρ c main_v15 (by decide)).trans ((keep3_2 (W14 m ρ c) main_v15 (by decide)).trans ((keep3_1 (W13 m ρ c) main_v15 (by decide)).trans ((keep3 (W12 m ρ c) main_v15 (by decide)).trans ((W12_of_ne m ρ c main_v15 (by decide)).trans ((keep2_2 (W10 m ρ c) main_v15 (by decide)).trans ((keep2_1 (W9 m ρ c) main_v15 (by decide)).trans ((keep2 (W8 m ρ c) main_v15 (by decide)).trans ((W8_of_ne m ρ c main_v15 (by decide)).trans ((keep1_2 (W6 m ρ c) main_v15 (by decide)).trans ((keep1_1 (W5 m ρ c) main_v15 (by decide)).trans ((keep1 (W4 m ρ c) main_v15 (by decide)).trans ((W4_of_ne m ρ c main_v15 (by decide))))))))))))))

theorem v17_at16_from3 : W16 m ρ c (Proc.devRef .tc main_v17) = W3 m ρ c (Proc.devRef .tc main_v17) :=
  (W16_of_ne m ρ c main_v17 (by decide)).trans ((keep3_2 (W14 m ρ c) main_v17 (by decide)).trans ((keep3_1 (W13 m ρ c) main_v17 (by decide)).trans ((keep3 (W12 m ρ c) main_v17 (by decide)).trans ((W12_of_ne m ρ c main_v17 (by decide)).trans ((keep2_2 (W10 m ρ c) main_v17 (by decide)).trans ((keep2_1 (W9 m ρ c) main_v17 (by decide)).trans ((keep2 (W8 m ρ c) main_v17 (by decide)).trans ((W8_of_ne m ρ c main_v17 (by decide)).trans ((keep1_2 (W6 m ρ c) main_v17 (by decide)).trans ((keep1_1 (W5 m ρ c) main_v17 (by decide)).trans ((keep1 (W4 m ρ c) main_v17 (by decide)).trans ((W4_of_ne m ρ c main_v17 (by decide))))))))))))))

theorem x_at19 : W19 m ρ c (Proc.devRef .tc main_v103) = (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (f4_x (W16 m ρ c)).trans (x_at16 m ρ c)

theorem agg_at19 : W19 m ρ c (Proc.devRef .tc main_v115) = Stage.agg (F := Ideal) (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) :=
  (f4_agg (W16 m ρ c)).trans (by rw [(x_at16 m ρ c), (v13_at16_from3 m ρ c), (v15_at16_from3 m ρ c), (v17_at16_from3 m ρ c), (ea_at3 m ρ c), (src_at3 m ρ c), (dst_at3 m ρ c)])

theorem sc_at19 : W19 m ρ c (Proc.devRef .tc main_v119) = Stage.scale2 (F := Ideal) (m ((c : Thread nD τ).loc main_arg5)) :=
  (f4_sc (W16 m ρ c)).trans (by rw [(arg5_at16 m ρ c)])

theorem wA_at19 : W19 m ρ c (Proc.devRef .tc main_v121) = Stage.wA2 (F := Ideal) (m ((c : Thread nD τ).loc main_arg6)) :=
  (f4_wA (W16 m ρ c)).trans (by rw [(arg6_at16 m ρ c)])

theorem bA_at19 : W19 m ρ c (Proc.devRef .tc main_v124) = Stage.bA2 (F := Ideal) (m ((c : Thread nD τ).loc main_arg7)) :=
  (f4_bA (W16 m ρ c)).trans (by rw [(arg7_at16 m ρ c)])

theorem wB_at19 : W19 m ρ c (Proc.devRef .tc main_v126) = Stage.wB2 (F := Ideal) (m ((c : Thread nD τ).loc main_arg8)) :=
  (f4_wB (W16 m ρ c)).trans (by rw [(arg8_at16 m ρ c)])

theorem bB_at19 : W19 m ρ c (Proc.devRef .tc main_v129) = Stage.bB2 (F := Ideal) (m ((c : Thread nD τ).loc main_arg9)) :=
  (f4_bB (W16 m ρ c)).trans (by rw [(arg9_at16 m ρ c)])

theorem h_at20 : W20 m ρ c (Proc.devRef .tc main_v130) = (Model.pre2 (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) :=
  (W20_arr m ρ c 7).trans ((RegionValue.final4 (V19 m ρ) c).trans (by
    rw [show V19 m ρ c main_v103 = _ from (x_at19 m ρ c), show V19 m ρ c main_v115 = _ from (agg_at19 m ρ c),
      show V19 m ρ c main_v119 = _ from (sc_at19 m ρ c), show V19 m ρ c main_v121 = _ from (wA_at19 m ρ c),
      show V19 m ρ c main_v124 = _ from (bA_at19 m ρ c), show V19 m ρ c main_v126 = _ from (wB_at19 m ρ c),
      show V19 m ρ c main_v129 = _ from (bB_at19 m ρ c)]
    rfl))

theorem arg10_at20 : W20 m ρ c (Proc.devRef .tc main_arg10) = (m ((c : Thread nD τ).loc main_arg10)) :=
  (W20_of_ne m ρ c main_arg10 (by decide)).trans ((keep4_2 (W18 m ρ c) main_arg10 (by decide)).trans ((keep4_1 (W17 m ρ c) main_arg10 (by decide)).trans ((keep4 (W16 m ρ c) main_arg10 (by decide)).trans ((W16_of_ne m ρ c main_arg10 (by decide)).trans ((keep3_2 (W14 m ρ c) main_arg10 (by decide)).trans ((keep3_1 (W13 m ρ c) main_arg10 (by decide)).trans ((keep3 (W12 m ρ c) main_arg10 (by decide)).trans ((W12_of_ne m ρ c main_arg10 (by decide)).trans ((keep2_2 (W10 m ρ c) main_arg10 (by decide)).trans ((keep2_1 (W9 m ρ c) main_arg10 (by decide)).trans ((keep2 (W8 m ρ c) main_arg10 (by decide)).trans ((W8_of_ne m ρ c main_arg10 (by decide)).trans ((keep1_2 (W6 m ρ c) main_arg10 (by decide)).trans ((keep1_1 (W5 m ρ c) main_arg10 (by decide)).trans ((keep1 (W4 m ρ c) main_arg10 (by decide)).trans ((W4_of_ne m ρ c main_arg10 (by decide)).trans ((keep0_2 (W2 m ρ c) main_arg10 (by decide)).trans ((keep0_1 (W1 m ρ c) main_arg10 (by decide)).trans ((keep0 (W0 m ρ c) main_arg10 (by decide)))))))))))))))))))))

theorem arg11_at20 : W20 m ρ c (Proc.devRef .tc main_arg11) = (m ((c : Thread nD τ).loc main_arg11)) :=
  (W20_of_ne m ρ c main_arg11 (by decide)).trans ((keep4_2 (W18 m ρ c) main_arg11 (by decide)).trans ((keep4_1 (W17 m ρ c) main_arg11 (by decide)).trans ((keep4 (W16 m ρ c) main_arg11 (by decide)).trans ((W16_of_ne m ρ c main_arg11 (by decide)).trans ((keep3_2 (W14 m ρ c) main_arg11 (by decide)).trans ((keep3_1 (W13 m ρ c) main_arg11 (by decide)).trans ((keep3 (W12 m ρ c) main_arg11 (by decide)).trans ((W12_of_ne m ρ c main_arg11 (by decide)).trans ((keep2_2 (W10 m ρ c) main_arg11 (by decide)).trans ((keep2_1 (W9 m ρ c) main_arg11 (by decide)).trans ((keep2 (W8 m ρ c) main_arg11 (by decide)).trans ((W8_of_ne m ρ c main_arg11 (by decide)).trans ((keep1_2 (W6 m ρ c) main_arg11 (by decide)).trans ((keep1_1 (W5 m ρ c) main_arg11 (by decide)).trans ((keep1 (W4 m ρ c) main_arg11 (by decide)).trans ((W4_of_ne m ρ c main_arg11 (by decide)).trans ((keep0_2 (W2 m ρ c) main_arg11 (by decide)).trans ((keep0_1 (W1 m ρ c) main_arg11 (by decide)).trans ((keep0 (W0 m ρ c) main_arg11 (by decide)))))))))))))))))))))

theorem h_at23 : W23 m ρ c (Proc.devRef .tc main_v130) = (Model.pre2 (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) :=
  (f5_h (W20 m ρ c)).trans (h_at20 m ρ c)

theorem mu_at23 : W23 m ρ c (Proc.devRef .tc main_v134) = Stage.rowOf (F := Ideal) (Stage.meanArr (F := Ideal) (Model.pre2 (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)))) :=
  (f5_mu (W20 m ρ c)).trans (by rw [(h_at20 m ρ c)])

theorem inv_at23 : W23 m ρ c (Proc.devRef .tc main_v139) = Stage.invRow (F := Ideal) (Stage.varArr (F := Ideal) (Model.pre2 (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)))) :=
  (f5_inv (W20 m ρ c)).trans (by rw [(h_at20 m ρ c)])

theorem ga_at23 : W23 m ρ c (Proc.devRef .tc main_v142) = Stage.gamma2 (F := Ideal) (m ((c : Thread nD τ).loc main_arg10)) :=
  (f5_ga (W20 m ρ c)).trans (by rw [(arg10_at20 m ρ c)])

theorem be_at23 : W23 m ρ c (Proc.devRef .tc main_v145) = Stage.beta2 (F := Ideal) (m ((c : Thread nD τ).loc main_arg11)) :=
  (f5_be (W20 m ρ c)).trans (by rw [(arg11_at20 m ρ c)])

theorem x_at24 : W24 m ρ c (Proc.devRef .tc main_v146) = (Model.norm2 (Model.pre2 (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (W24_arr m ρ c 5).trans ((RegionValue.final5 (V23 m ρ) c).trans (by
    rw [show V23 m ρ c main_v130 = _ from (h_at23 m ρ c), show V23 m ρ c main_v134 = _ from (mu_at23 m ρ c),
      show V23 m ρ c main_v139 = _ from (inv_at23 m ρ c), show V23 m ρ c main_v142 = _ from (ga_at23 m ρ c),
      show V23 m ρ c main_v145 = _ from (be_at23 m ρ c)]
    rfl))

theorem arg12_at24 : W24 m ρ c (Proc.devRef .tc main_arg12) = (m ((c : Thread nD τ).loc main_arg12)) :=
  (W24_of_ne m ρ c main_arg12 (by decide)).trans ((keep5_2 (W22 m ρ c) main_arg12 (by decide)).trans ((keep5_1 (W21 m ρ c) main_arg12 (by decide)).trans ((keep5 (W20 m ρ c) main_arg12 (by decide)).trans ((W20_of_ne m ρ c main_arg12 (by decide)).trans ((keep4_2 (W18 m ρ c) main_arg12 (by decide)).trans ((keep4_1 (W17 m ρ c) main_arg12 (by decide)).trans ((keep4 (W16 m ρ c) main_arg12 (by decide)).trans ((W16_of_ne m ρ c main_arg12 (by decide)).trans ((keep3_2 (W14 m ρ c) main_arg12 (by decide)).trans ((keep3_1 (W13 m ρ c) main_arg12 (by decide)).trans ((keep3 (W12 m ρ c) main_arg12 (by decide)).trans ((W12_of_ne m ρ c main_arg12 (by decide)).trans ((keep2_2 (W10 m ρ c) main_arg12 (by decide)).trans ((keep2_1 (W9 m ρ c) main_arg12 (by decide)).trans ((keep2 (W8 m ρ c) main_arg12 (by decide)).trans ((W8_of_ne m ρ c main_arg12 (by decide)).trans ((keep1_2 (W6 m ρ c) main_arg12 (by decide)).trans ((keep1_1 (W5 m ρ c) main_arg12 (by decide)).trans ((keep1 (W4 m ρ c) main_arg12 (by decide)).trans ((W4_of_ne m ρ c main_arg12 (by decide)).trans ((keep0_2 (W2 m ρ c) main_arg12 (by decide)).trans ((keep0_1 (W1 m ρ c) main_arg12 (by decide)).trans ((keep0 (W0 m ρ c) main_arg12 (by decide)))))))))))))))))))))))))

theorem arg13_at24 : W24 m ρ c (Proc.devRef .tc main_arg13) = (m ((c : Thread nD τ).loc main_arg13)) :=
  (W24_of_ne m ρ c main_arg13 (by decide)).trans ((keep5_2 (W22 m ρ c) main_arg13 (by decide)).trans ((keep5_1 (W21 m ρ c) main_arg13 (by decide)).trans ((keep5 (W20 m ρ c) main_arg13 (by decide)).trans ((W20_of_ne m ρ c main_arg13 (by decide)).trans ((keep4_2 (W18 m ρ c) main_arg13 (by decide)).trans ((keep4_1 (W17 m ρ c) main_arg13 (by decide)).trans ((keep4 (W16 m ρ c) main_arg13 (by decide)).trans ((W16_of_ne m ρ c main_arg13 (by decide)).trans ((keep3_2 (W14 m ρ c) main_arg13 (by decide)).trans ((keep3_1 (W13 m ρ c) main_arg13 (by decide)).trans ((keep3 (W12 m ρ c) main_arg13 (by decide)).trans ((W12_of_ne m ρ c main_arg13 (by decide)).trans ((keep2_2 (W10 m ρ c) main_arg13 (by decide)).trans ((keep2_1 (W9 m ρ c) main_arg13 (by decide)).trans ((keep2 (W8 m ρ c) main_arg13 (by decide)).trans ((W8_of_ne m ρ c main_arg13 (by decide)).trans ((keep1_2 (W6 m ρ c) main_arg13 (by decide)).trans ((keep1_1 (W5 m ρ c) main_arg13 (by decide)).trans ((keep1 (W4 m ρ c) main_arg13 (by decide)).trans ((W4_of_ne m ρ c main_arg13 (by decide)).trans ((keep0_2 (W2 m ρ c) main_arg13 (by decide)).trans ((keep0_1 (W1 m ρ c) main_arg13 (by decide)).trans ((keep0 (W0 m ρ c) main_arg13 (by decide)))))))))))))))))))))))))

theorem arg14_at24 : W24 m ρ c (Proc.devRef .tc main_arg14) = (m ((c : Thread nD τ).loc main_arg14)) :=
  (W24_of_ne m ρ c main_arg14 (by decide)).trans ((keep5_2 (W22 m ρ c) main_arg14 (by decide)).trans ((keep5_1 (W21 m ρ c) main_arg14 (by decide)).trans ((keep5 (W20 m ρ c) main_arg14 (by decide)).trans ((W20_of_ne m ρ c main_arg14 (by decide)).trans ((keep4_2 (W18 m ρ c) main_arg14 (by decide)).trans ((keep4_1 (W17 m ρ c) main_arg14 (by decide)).trans ((keep4 (W16 m ρ c) main_arg14 (by decide)).trans ((W16_of_ne m ρ c main_arg14 (by decide)).trans ((keep3_2 (W14 m ρ c) main_arg14 (by decide)).trans ((keep3_1 (W13 m ρ c) main_arg14 (by decide)).trans ((keep3 (W12 m ρ c) main_arg14 (by decide)).trans ((W12_of_ne m ρ c main_arg14 (by decide)).trans ((keep2_2 (W10 m ρ c) main_arg14 (by decide)).trans ((keep2_1 (W9 m ρ c) main_arg14 (by decide)).trans ((keep2 (W8 m ρ c) main_arg14 (by decide)).trans ((W8_of_ne m ρ c main_arg14 (by decide)).trans ((keep1_2 (W6 m ρ c) main_arg14 (by decide)).trans ((keep1_1 (W5 m ρ c) main_arg14 (by decide)).trans ((keep1 (W4 m ρ c) main_arg14 (by decide)).trans ((W4_of_ne m ρ c main_arg14 (by decide)).trans ((keep0_2 (W2 m ρ c) main_arg14 (by decide)).trans ((keep0_1 (W1 m ρ c) main_arg14 (by decide)).trans ((keep0 (W0 m ρ c) main_arg14 (by decide)))))))))))))))))))))))))

theorem arg15_at24 : W24 m ρ c (Proc.devRef .tc main_arg15) = (m ((c : Thread nD τ).loc main_arg15)) :=
  (W24_of_ne m ρ c main_arg15 (by decide)).trans ((keep5_2 (W22 m ρ c) main_arg15 (by decide)).trans ((keep5_1 (W21 m ρ c) main_arg15 (by decide)).trans ((keep5 (W20 m ρ c) main_arg15 (by decide)).trans ((W20_of_ne m ρ c main_arg15 (by decide)).trans ((keep4_2 (W18 m ρ c) main_arg15 (by decide)).trans ((keep4_1 (W17 m ρ c) main_arg15 (by decide)).trans ((keep4 (W16 m ρ c) main_arg15 (by decide)).trans ((W16_of_ne m ρ c main_arg15 (by decide)).trans ((keep3_2 (W14 m ρ c) main_arg15 (by decide)).trans ((keep3_1 (W13 m ρ c) main_arg15 (by decide)).trans ((keep3 (W12 m ρ c) main_arg15 (by decide)).trans ((W12_of_ne m ρ c main_arg15 (by decide)).trans ((keep2_2 (W10 m ρ c) main_arg15 (by decide)).trans ((keep2_1 (W9 m ρ c) main_arg15 (by decide)).trans ((keep2 (W8 m ρ c) main_arg15 (by decide)).trans ((W8_of_ne m ρ c main_arg15 (by decide)).trans ((keep1_2 (W6 m ρ c) main_arg15 (by decide)).trans ((keep1_1 (W5 m ρ c) main_arg15 (by decide)).trans ((keep1 (W4 m ρ c) main_arg15 (by decide)).trans ((W4_of_ne m ρ c main_arg15 (by decide)).trans ((keep0_2 (W2 m ρ c) main_arg15 (by decide)).trans ((keep0_1 (W1 m ρ c) main_arg15 (by decide)).trans ((keep0 (W0 m ρ c) main_arg15 (by decide)))))))))))))))))))))))))

theorem arg16_at24 : W24 m ρ c (Proc.devRef .tc main_arg16) = (m ((c : Thread nD τ).loc main_arg16)) :=
  (W24_of_ne m ρ c main_arg16 (by decide)).trans ((keep5_2 (W22 m ρ c) main_arg16 (by decide)).trans ((keep5_1 (W21 m ρ c) main_arg16 (by decide)).trans ((keep5 (W20 m ρ c) main_arg16 (by decide)).trans ((W20_of_ne m ρ c main_arg16 (by decide)).trans ((keep4_2 (W18 m ρ c) main_arg16 (by decide)).trans ((keep4_1 (W17 m ρ c) main_arg16 (by decide)).trans ((keep4 (W16 m ρ c) main_arg16 (by decide)).trans ((W16_of_ne m ρ c main_arg16 (by decide)).trans ((keep3_2 (W14 m ρ c) main_arg16 (by decide)).trans ((keep3_1 (W13 m ρ c) main_arg16 (by decide)).trans ((keep3 (W12 m ρ c) main_arg16 (by decide)).trans ((W12_of_ne m ρ c main_arg16 (by decide)).trans ((keep2_2 (W10 m ρ c) main_arg16 (by decide)).trans ((keep2_1 (W9 m ρ c) main_arg16 (by decide)).trans ((keep2 (W8 m ρ c) main_arg16 (by decide)).trans ((W8_of_ne m ρ c main_arg16 (by decide)).trans ((keep1_2 (W6 m ρ c) main_arg16 (by decide)).trans ((keep1_1 (W5 m ρ c) main_arg16 (by decide)).trans ((keep1 (W4 m ρ c) main_arg16 (by decide)).trans ((W4_of_ne m ρ c main_arg16 (by decide)).trans ((keep0_2 (W2 m ρ c) main_arg16 (by decide)).trans ((keep0_1 (W1 m ρ c) main_arg16 (by decide)).trans ((keep0 (W0 m ρ c) main_arg16 (by decide)))))))))))))))))))))))))

theorem arg17_at24 : W24 m ρ c (Proc.devRef .tc main_arg17) = (m ((c : Thread nD τ).loc main_arg17)) :=
  (W24_of_ne m ρ c main_arg17 (by decide)).trans ((keep5_2 (W22 m ρ c) main_arg17 (by decide)).trans ((keep5_1 (W21 m ρ c) main_arg17 (by decide)).trans ((keep5 (W20 m ρ c) main_arg17 (by decide)).trans ((W20_of_ne m ρ c main_arg17 (by decide)).trans ((keep4_2 (W18 m ρ c) main_arg17 (by decide)).trans ((keep4_1 (W17 m ρ c) main_arg17 (by decide)).trans ((keep4 (W16 m ρ c) main_arg17 (by decide)).trans ((W16_of_ne m ρ c main_arg17 (by decide)).trans ((keep3_2 (W14 m ρ c) main_arg17 (by decide)).trans ((keep3_1 (W13 m ρ c) main_arg17 (by decide)).trans ((keep3 (W12 m ρ c) main_arg17 (by decide)).trans ((W12_of_ne m ρ c main_arg17 (by decide)).trans ((keep2_2 (W10 m ρ c) main_arg17 (by decide)).trans ((keep2_1 (W9 m ρ c) main_arg17 (by decide)).trans ((keep2 (W8 m ρ c) main_arg17 (by decide)).trans ((W8_of_ne m ρ c main_arg17 (by decide)).trans ((keep1_2 (W6 m ρ c) main_arg17 (by decide)).trans ((keep1_1 (W5 m ρ c) main_arg17 (by decide)).trans ((keep1 (W4 m ρ c) main_arg17 (by decide)).trans ((W4_of_ne m ρ c main_arg17 (by decide)).trans ((keep0_2 (W2 m ρ c) main_arg17 (by decide)).trans ((keep0_1 (W1 m ρ c) main_arg17 (by decide)).trans ((keep0 (W0 m ρ c) main_arg17 (by decide)))))))))))))))))))))))))

theorem x_at25 : W25 m ρ c (Proc.devRef .tc main_v146) = (Model.norm2 (Model.pre2 (Model.norm1 (Model.pre1 (Model.norm0 (Model.pre0 (Stage.x0 (F := Ideal) (m ((c : Thread nD τ).loc main_arg0)) (m ((c : Thread nD τ).loc main_arg3))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (Stage.ea (F := Ideal) (m ((c : Thread nD τ).loc main_arg1)) (m ((c : Thread nD τ).loc main_arg4))) (Stage.src (m ((c : Thread nD τ).loc main_arg2))) (Stage.dst (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (f6_x (W24 m ρ c)).trans (x_at24 m ρ c)

theorem w1_at25 : W25 m ρ c (Proc.devRef .tc main_arg12) = (m ((c : Thread nD τ).loc main_arg12)) :=
  (f6_w1 (W24 m ρ c)).trans (arg12_at24 m ρ c)

theorem w2_at25 : W25 m ρ c (Proc.devRef .tc main_arg14) = (m ((c : Thread nD τ).loc main_arg14)) :=
  (f6_w2 (W24 m ρ c)).trans (arg14_at24 m ρ c)

theorem w3_at25 : W25 m ρ c (Proc.devRef .tc main_arg16) = (m ((c : Thread nD τ).loc main_arg16)) :=
  (f6_w3 (W24 m ρ c)).trans (arg16_at24 m ρ c)

theorem b1_at25 : W25 m ρ c (Proc.devRef .tc main_v147) = Stage.hb1 (F := Ideal) (m ((c : Thread nD τ).loc main_arg13)) :=
  (f6_b1 (W24 m ρ c)).trans (by rw [(arg13_at24 m ρ c)])

theorem b2_at25 : W25 m ρ c (Proc.devRef .tc main_v148) = Stage.hb2 (F := Ideal) (m ((c : Thread nD τ).loc main_arg15)) :=
  (f6_b2 (W24 m ρ c)).trans (by rw [(arg15_at24 m ρ c)])

theorem b3_at25 : W25 m ρ c (Proc.devRef .tc main_v149) = Stage.hb3 (F := Ideal) (m ((c : Thread nD τ).loc main_arg17)) :=
  (f6_b3 (W24 m ρ c)).trans (by rw [(arg17_at24 m ρ c)])

theorem result_at26 : W26 m ρ c (Proc.devRef .tc main_v150) = Model.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (W26_arr m ρ c 7).trans ((RegionValue.final6 (V25 m ρ) c).trans (by
    rw [show V25 m ρ c main_v146 = _ from (x_at25 m ρ c), show V25 m ρ c main_arg12 = _ from (w1_at25 m ρ c),
      show V25 m ρ c main_v147 = _ from (b1_at25 m ρ c), show V25 m ρ c main_arg14 = _ from (w2_at25 m ρ c),
      show V25 m ρ c main_v148 = _ from (b2_at25 m ρ c), show V25 m ρ c main_arg16 = _ from (w3_at25 m ρ c),
      show V25 m ρ c main_v149 = _ from (b3_at25 m ρ c)]
    rfl))

end Cert.KernelIdeal.Hand

end
-- ==== Proof.KRunValue.lean ====
/-
  The idealized kernel program's run, re-posted: the result buffer ends at `Model.out` of the launch contents of the
  eighteen argument buffers, and those end as launched.
-/
import proofs.«124610_j72327249264834_2_alg».proof.Proof.KRun
import proofs.«124610_j72327249264834_2_alg».proof.Proof.KValue

set_option maxRecDepth 16384

noncomputable section

namespace Cert.KernelIdeal.Hand

open Cert.KernelIdeal Cert.KernelIdeal.Gen Idealize.ShloMosaic Idealize.ShloMosaic.TcCoe Idealize.SL.Sem Cert

/-- Every weakly fair execution terminates; the result buffer holds the model's function of the arguments as launched,
    and every argument buffer is unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v150) = Model.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(run_at m ρ main_v150 (by decide) h c).trans (result_at26 m ρ c),
     (run_at m ρ main_arg0 (by decide) h c).trans (W26_main_arg0 m ρ c),
     (run_at m ρ main_arg1 (by decide) h c).trans (W26_main_arg1 m ρ c),
     (run_at m ρ main_arg2 (by decide) h c).trans (W26_main_arg2 m ρ c),
     (run_at m ρ main_arg3 (by decide) h c).trans (W26_main_arg3 m ρ c),
     (run_at m ρ main_arg4 (by decide) h c).trans (W26_main_arg4 m ρ c),
     (run_at m ρ main_arg5 (by decide) h c).trans (W26_main_arg5 m ρ c),
     (run_at m ρ main_arg6 (by decide) h c).trans (W26_main_arg6 m ρ c),
     (run_at m ρ main_arg7 (by decide) h c).trans (W26_main_arg7 m ρ c),
     (run_at m ρ main_arg8 (by decide) h c).trans (W26_main_arg8 m ρ c),
     (run_at m ρ main_arg9 (by decide) h c).trans (W26_main_arg9 m ρ c),
     (run_at m ρ main_arg10 (by decide) h c).trans (W26_main_arg10 m ρ c),
     (run_at m ρ main_arg11 (by decide) h c).trans (W26_main_arg11 m ρ c),
     (run_at m ρ main_arg12 (by decide) h c).trans (W26_main_arg12 m ρ c),
     (run_at m ρ main_arg13 (by decide) h c).trans (W26_main_arg13 m ρ c),
     (run_at m ρ main_arg14 (by decide) h c).trans (W26_main_arg14 m ρ c),
     (run_at m ρ main_arg15 (by decide) h c).trans (W26_main_arg15 m ρ c),
     (run_at m ρ main_arg16 (by decide) h c).trans (W26_main_arg16 m ρ c),
     (run_at m ρ main_arg17 (by decide) h c).trans (W26_main_arg17 m ρ c)⟩)
    (run_all m ρ)

end Cert.KernelIdeal.Hand

end
-- ==== Proof.RefOps.lean ====
/- The reference program's @main as one straight line of host operations: the four printed windows, each
   call to an outlined function (@relu, @relu_0, @_var and, inside it, @_where) replaced at its call site by
   the callee's operations over that call's own buffers. From it the run: every weakly fair execution of
   @main terminates with each buffer at the fold of the operations' results over its launch contents. -/
import proofs.«124610_j72327249264834_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60: the node and edge embeddings, the two index columns, layer 0's aggregation (with @relu inlined), its first linear map (with @relu_0 inlined) and the second up to the bias broadcast. -/
abbrev ops0 : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 4#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg3 main_v5 main_v6 ((fun x i => Host.gather gather_S4x128_S50000x1_S50000x128_1_0_n_n_0_1_1128 x i) : (⟨S4x128, .f32⟩ : BufTy).Contents (Elt F) → (⟨S50000x1, .i32⟩ : BufTy).Contents (Elt F) → (⟨S50000x128, .f32⟩ : BufTy).Contents (Elt F)),
    StableHlo.nullary main_c_1 (constantI S_ 32 0#32),
    StableHlo.unary main_c_1 main_v7 (broadcastInDim S800000 ![] bcast_S_S800000 : (⟨S_, .i32⟩ : BufTy).Contents (Elt F) → (⟨S800000, .i32⟩ : BufTy).Contents (Elt F)),
    StableHlo.binary main_arg1 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 3#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg1 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg1 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_arg4 main_v12 main_v13 ((fun x i => Host.gather gather_S3x128_S800000x1_S800000x128_1_0_n_n_0_1_1128 x i) : (⟨S3x128, .f32⟩ : BufTy).Contents (Elt F) → (⟨S800000x1, .i32⟩ : BufTy).Contents (Elt F) → (⟨S800000x128, .f32⟩ : BufTy).Contents (Elt F)),
    StableHlo.unary main_arg2 main_v14 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v14 main_v15 rfl shapeCasts_S1x800000_S800000,
    StableHlo.unary main_arg2 main_v16 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v16 main_v17 rfl shapeCasts_S1x800000_S800000,
    StableHlo.nullary main_c_3 (constantI S_ 32 0#32),
    StableHlo.unary main_c_3 main_v18 (broadcastInDim S800000 ![] bcast_S_S800000 : (⟨S_, .i32⟩ : BufTy).Contents (Elt F) → (⟨S800000, .i32⟩ : BufTy).Contents (Elt F)),
    StableHlo.binary main_v15 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_v15 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v15 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v6 main_v23 main_v24 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v24 main_v13 main_v25 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v25) main_call0.v0 main_call0.v1 maximumf,
    StableHlo.nullary main_cst (constant S_ .f32 0x00000000#32),
    StableHlo.unary main_cst main_v27 (broadcastInDim S50000x128 ![] bcast_S_S50000x128 : (⟨S_, .f32⟩ : BufTy).Contents (Elt F) → (⟨S50000x128, .f32⟩ : BufTy).Contents (Elt F)),
    StableHlo.unary main_v17 main_v28 (broadcastInDim S800000x1 ![0] bcast_S800000_S800000x1_0 : (⟨S800000, .i32⟩ : BufTy).Contents (Elt F) → (⟨S800000x1, .i32⟩ : BufTy).Contents (Elt F)),
    StableHlo.ternary main_v27 main_v28 main_v26 main_v29 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg5 main_v30 ((extractStridedSlice S1 ![0] · slices_S3_S1_0) : (⟨S3, .f32⟩ : BufTy).Contents (Elt F) → (⟨S1, .f32⟩ : BufTy).Contents (Elt F)),
    StableHlo.reshape main_v30 main_v31 rfl shapeCasts_S1_S_,
    StableHlo.nullary main_cst_5 (constant S_ .f32 0x3F800000#32),
    StableHlo.binary main_cst_5 main_v31 main_v32 (addf : (⟨S_, .f32⟩ : BufTy).Contents (Elt F) → (⟨S_, .f32⟩ : BufTy).Contents (Elt F) → (⟨S_, .f32⟩ : BufTy).Contents (Elt F)),
    StableHlo.unary main_v32 main_v33 (broadcastInDim S50000x128 ![] bcast_S_S50000x128 : (⟨S_, .f32⟩ : BufTy).Contents (Elt F) → (⟨S50000x128, .f32⟩ : BufTy).Contents (Elt F)),
    StableHlo.binary main_v33 main_v6 main_v34 (mulf : (⟨S50000x128, .f32⟩ : BufTy).Contents (Elt F) → (⟨S50000x128, .f32⟩ : BufTy).Contents (Elt F) → (⟨S50000x128, .f32⟩ : BufTy).Contents (Elt F)),
    StableHlo.binary main_v34 main_v29 main_v35 (addf : (⟨S50000x128, .f32⟩ : BufTy).Contents (Elt F) → (⟨S50000x128, .f32⟩ : BufTy).Contents (Elt F) → (⟨S50000x128, .f32⟩ : BufTy).Contents (Elt F)),
    StableHlo.unary main_arg6 main_v36 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v36 main_v37 rfl shapeCasts_S1x128x128_S128x128,
    StableHlo.binary main_v35 main_v37 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v39 ((extractStridedSlice S1x128 ![0, 0] · slices_S3x128_S1x128_0_0) : (⟨S3x128, .f32⟩ : BufTy).Contents (Elt F) → (⟨S1x128, .f32⟩ : BufTy).Contents (Elt F)),
    StableHlo.reshape main_v39 main_v40 rfl shapeCasts_S1x128_S128,
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v42 main_v43 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v43) main_call1.v0 main_call1.v1 maximumf,
    StableHlo.unary main_arg8 main_v45 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v45 main_v46 rfl shapeCasts_S1x128x128_S128x128,
    StableHlo.binary main_v44 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v48 ((extractStridedSlice S1x128 ![0, 0] · slices_S3x128_S1x128_0_0) : (⟨S3x128, .f32⟩ : BufTy).Contents (Elt F) → (⟨S1x128, .f32⟩ : BufTy).Contents (Elt F)),
    StableHlo.reshape main_v48 main_v49 rfl shapeCasts_S1x128_S128,
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)) ]

/-- Statements 61 … 120: layer 0's second bias, the mean, @_var (with @_where) inlined, the normalization and @relu_0; layer 1's aggregation and first linear map. -/
abbrev ops1 : List (HloOp τ sig (Elt F)) :=
  [ StableHlo.binary main_v47 main_v51 main_v52 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.binary main_v52 main_cst_6 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v54 (broadcastInDim S128 ![] bcast_S_S128 : (⟨S_, .f32⟩ : BufTy).Contents (Elt F) → (⟨S128, .f32⟩ : BufTy).Contents (Elt F)),
    StableHlo.binary main_v53 main_v54 main_v55 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v52) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v52) main_call2.v4 main_call2.v5 subf,
    StableHlo.TRef.binary main_call2.v5 main_call2.v5 main_call2.v6 mulf,
    StableHlo.TRef.unary (.of main_c_8) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v55 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v58 main_v59 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v60 (broadcastInDim S128 ![] bcast_S_S128 : (⟨S_, .f32⟩ : BufTy).Contents (Elt F) → (⟨S128, .f32⟩ : BufTy).Contents (Elt F)),
    StableHlo.binary main_v56 main_v60 main_v61 (addf : (⟨S128, .f32⟩ : BufTy).Contents (Elt F) → (⟨S128, .f32⟩ : BufTy).Contents (Elt F) → (⟨S128, .f32⟩ : BufTy).Contents (Elt F)),
    StableHlo.unary main_v61 main_v62 (Host.rsqrt : (⟨S128, .f32⟩ : BufTy).Contents (Elt F) → (⟨S128, .f32⟩ : BufTy).Contents (Elt F)),
    StableHlo.unary main_v62 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v64 main_v65 (mulf : (⟨S50000x128, .f32⟩ : BufTy).Contents (Elt F) → (⟨S50000x128, .f32⟩ : BufTy).Contents (Elt F) → (⟨S50000x128, .f32⟩ : BufTy).Contents (Elt F)),
    StableHlo.unary main_arg10 main_v66 ((extractStridedSlice S1x128 ![0, 0] · slices_S3x128_S1x128_0_0) : (⟨S3x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_arg11 main_v71 ((extractStridedSlice S1x128 ![0, 0] · slices_S3x128_S1x128_0_0) : (⟨S3x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v74 main_v75 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v75) main_call3.v0 main_call3.v1 maximumf,
    StableHlo.nullary main_c_10 (constantI S_ 32 0#32),
    StableHlo.unary main_c_10 main_v77 (broadcastInDim S800000 ![] bcast_S_S800000 : (⟨S_, .i32⟩ : BufTy).Contents (Elt F) → (⟨S800000, .i32⟩ : BufTy).Contents (Elt F)),
    StableHlo.binary main_v15 main_v77 main_v78 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v79 (broadcastInDim S800000 ![] bcast_S_S800000 : (⟨S_, .i32⟩ : BufTy).Contents (Elt F) → (⟨S800000, .i32⟩ : BufTy).Contents (Elt F)),
    StableHlo.binary main_v15 main_v79 main_v80 (addi : (⟨S800000, .i32⟩ : BufTy).Contents (Elt F) → (⟨S800000, .i32⟩ : BufTy).Contents (Elt F) → (⟨S800000, .i32⟩ : BufTy).Contents (Elt F)),
    StableHlo.ternary main_v78 main_v80 main_v15 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v81 main_v82 (broadcastInDim S800000x1 ![0] bcast_S800000_S800000x1_0 : (⟨S800000, .i32⟩ : BufTy).Contents (Elt F) → (⟨S800000x1, .i32⟩ : BufTy).Contents (Elt F)),
    StableHlo.binary main_v76 main_v82 main_v83 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v83 main_v13 main_v84 (addf : (⟨S800000x128, .f32⟩ : BufTy).Contents (Elt F) → (⟨S800000x128, .f32⟩ : BufTy).Contents (Elt F) → (⟨S800000x128, .f32⟩ : BufTy).Contents (Elt F)),
    StableHlo.TRef.nullary main_call4.cst (constant S_ .f32 0x00000000#32),
    StableHlo.TRef.unary main_call4.cst main_call4.v0 (broadcastInDim S800000x128 ![] bcast_S_S800000x128),
    StableHlo.TRef.binary (.of main_v84) main_call4.v0 main_call4.v1 maximumf,
    StableHlo.nullary main_cst_12 (constant S_ .f32 0x00000000#32),
    StableHlo.unary main_cst_12 main_v86 (broadcastInDim S50000x128 ![] bcast_S_S50000x128 : (⟨S_, .f32⟩ : BufTy).Contents (Elt F) → (⟨S50000x128, .f32⟩ : BufTy).Contents (Elt F)),
    StableHlo.unary main_v17 main_v87 (broadcastInDim S800000x1 ![0] bcast_S800000_S800000x1_0 : (⟨S800000, .i32⟩ : BufTy).Contents (Elt F) → (⟨S800000x1, .i32⟩ : BufTy).Contents (Elt F)),
    StableHlo.ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg5 main_v89 ((extractStridedSlice S1 ![1] · slices_S3_S1_1) : (⟨S3, .f32⟩ : BufTy).Contents (Elt F) → (⟨S1, .f32⟩ : BufTy).Contents (Elt F)),
    StableHlo.reshape main_v89 main_v90 rfl shapeCasts_S1_S_,
    StableHlo.nullary main_cst_13 (constant S_ .f32 0x3F800000#32),
    StableHlo.binary main_cst_13 main_v90 main_v91 (addf : (⟨S_, .f32⟩ : BufTy).Contents (Elt F) → (⟨S_, .f32⟩ : BufTy).Contents (Elt F) → (⟨S_, .f32⟩ : BufTy).Contents (Elt F)),
    StableHlo.unary main_v91 main_v92 (broadcastInDim S50000x128 ![] bcast_S_S50000x128 : (⟨S_, .f32⟩ : BufTy).Contents (Elt F) → (⟨S50000x128, .f32⟩ : BufTy).Contents (Elt F)),
    StableHlo.binary main_v92 main_v76 main_v93 (mulf : (⟨S50000x128, .f32⟩ : BufTy).Contents (Elt F) → (⟨S50000x128, .f32⟩ : BufTy).Contents (Elt F) → (⟨S50000x128, .f32⟩ : BufTy).Contents (Elt F)),
    StableHlo.binary main_v93 main_v88 main_v94 (addf : (⟨S50000x128, .f32⟩ : BufTy).Contents (Elt F) → (⟨S50000x128, .f32⟩ : BufTy).Contents (Elt F) → (⟨S50000x128, .f32⟩ : BufTy).Contents (Elt F)),
    StableHlo.unary main_arg6 main_v95 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v95 main_v96 rfl shapeCasts_S1x128x128_S128x128,
    StableHlo.binary main_v94 main_v96 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v98 ((extractStridedSlice S1x128 ![1, 0] · slices_S3x128_S1x128_1_0) : (⟨S3x128, .f32⟩ : BufTy).Contents (Elt F) → (⟨S1x128, .f32⟩ : BufTy).Contents (Elt F)),
    StableHlo.reshape main_v98 main_v99 rfl shapeCasts_S1x128_S128,
    StableHlo.unary main_v99 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v101 main_v102 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v102) main_call5.v0 main_call5.v1 maximumf ]

/-- Statements 121 … 180: layer 1's second linear map, mean, @_var inlined, normalization and @relu_0; layer 2's aggregation and linear maps up to the bias. -/
abbrev ops2 : List (HloOp τ sig (Elt F)) :=
  [ StableHlo.unary main_arg8 main_v104 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v104 main_v105 rfl shapeCasts_S1x128x128_S128x128,
    StableHlo.binary main_v103 main_v105 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v107 ((extractStridedSlice S1x128 ![1, 0] · slices_S3x128_S1x128_1_0) : (⟨S3x128, .f32⟩ : BufTy).Contents (Elt F) → (⟨S1x128, .f32⟩ : BufTy).Contents (Elt F)),
    StableHlo.reshape main_v107 main_v108 rfl shapeCasts_S1x128_S128,
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v110 main_v111 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v111 main_cst_14 main_v112 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v113 (broadcastInDim S128 ![] bcast_S_S128 : (⟨S_, .f32⟩ : BufTy).Contents (Elt F) → (⟨S128, .f32⟩ : BufTy).Contents (Elt F)),
    StableHlo.binary main_v112 main_v113 main_v114 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call6.cst (constant S_ .f32 0x00000000#32),
    StableHlo.TRef.binary (.of main_v111) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v111) main_call6.v4 main_call6.v5 subf,
    StableHlo.TRef.binary main_call6.v5 main_call6.v5 main_call6.v6 mulf,
    StableHlo.TRef.unary (.of main_c_16) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v114 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v117 main_v118 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v119 (broadcastInDim S128 ![] bcast_S_S128 : (⟨S_, .f32⟩ : BufTy).Contents (Elt F) → (⟨S128, .f32⟩ : BufTy).Contents (Elt F)),
    StableHlo.binary main_v115 main_v119 main_v120 (addf : (⟨S128, .f32⟩ : BufTy).Contents (Elt F) → (⟨S128, .f32⟩ : BufTy).Contents (Elt F) → (⟨S128, .f32⟩ : BufTy).Contents (Elt F)),
    StableHlo.unary main_v120 main_v121 (Host.rsqrt : (⟨S128, .f32⟩ : BufTy).Contents (Elt F) → (⟨S128, .f32⟩ : BufTy).Contents (Elt F)),
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v118 main_v123 main_v124 (mulf : (⟨S50000x128, .f32⟩ : BufTy).Contents (Elt F) → (⟨S50000x128, .f32⟩ : BufTy).Contents (Elt F) → (⟨S50000x128, .f32⟩ : BufTy).Contents (Elt F)),
    StableHlo.unary main_arg10 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (mulf : (⟨S50000x128, .f32⟩ : BufTy).Contents (Elt F) → (⟨S50000x128, .f32⟩ : BufTy).Contents (Elt F) → (⟨S50000x128, .f32⟩ : BufTy).Contents (Elt F)),
    StableHlo.unary main_arg11 main_v130 ((extractStridedSlice S1x128 ![1, 0] · slices_S3x128_S1x128_1_0) : (⟨S3x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v133 main_v134 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v134) main_call7.v0 main_call7.v1 maximumf,
    StableHlo.nullary main_c_18 (constantI S_ 32 0#32),
    StableHlo.unary main_c_18 main_v136 (broadcastInDim S800000 ![] bcast_S_S800000 : (⟨S_, .i32⟩ : BufTy).Contents (Elt F) → (⟨S800000, .i32⟩ : BufTy).Contents (Elt F)),
    StableHlo.binary main_v15 main_v136 main_v137 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v138 (broadcastInDim S800000 ![] bcast_S_S800000 : (⟨S_, .i32⟩ : BufTy).Contents (Elt F) → (⟨S800000, .i32⟩ : BufTy).Contents (Elt F)),
    StableHlo.binary main_v15 main_v138 main_v139 (addi : (⟨S800000, .i32⟩ : BufTy).Contents (Elt F) → (⟨S800000, .i32⟩ : BufTy).Contents (Elt F) → (⟨S800000, .i32⟩ : BufTy).Contents (Elt F)),
    StableHlo.ternary main_v137 main_v139 main_v15 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v140 main_v141 (broadcastInDim S800000x1 ![0] bcast_S800000_S800000x1_0 : (⟨S800000, .i32⟩ : BufTy).Contents (Elt F) → (⟨S800000x1, .i32⟩ : BufTy).Contents (Elt F)),
    StableHlo.binary main_v135 main_v141 main_v142 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v142 main_v13 main_v143 (addf : (⟨S800000x128, .f32⟩ : BufTy).Contents (Elt F) → (⟨S800000x128, .f32⟩ : BufTy).Contents (Elt F) → (⟨S800000x128, .f32⟩ : BufTy).Contents (Elt F)),
    StableHlo.TRef.nullary main_call8.cst (constant S_ .f32 0x00000000#32),
    StableHlo.TRef.unary main_call8.cst main_call8.v0 (broadcastInDim S800000x128 ![] bcast_S_S800000x128),
    StableHlo.TRef.binary (.of main_v143) main_call8.v0 main_call8.v1 maximumf,
    StableHlo.nullary main_cst_20 (constant S_ .f32 0x00000000#32),
    StableHlo.unary main_cst_20 main_v145 (broadcastInDim S50000x128 ![] bcast_S_S50000x128 : (⟨S_, .f32⟩ : BufTy).Contents (Elt F) → (⟨S50000x128, .f32⟩ : BufTy).Contents (Elt F)),
    StableHlo.unary main_v17 main_v146 (broadcastInDim S800000x1 ![0] bcast_S800000_S800000x1_0 : (⟨S800000, .i32⟩ : BufTy).Contents (Elt F) → (⟨S800000x1, .i32⟩ : BufTy).Contents (Elt F)),
    StableHlo.ternary main_v145 main_v146 main_v144 main_v147 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg5 main_v148 ((extractStridedSlice S1 ![2] · slices_S3_S1_2) : (⟨S3, .f32⟩ : BufTy).Contents (Elt F) → (⟨S1, .f32⟩ : BufTy).Contents (Elt F)),
    StableHlo.reshape main_v148 main_v149 rfl shapeCasts_S1_S_,
    StableHlo.nullary main_cst_21 (constant S_ .f32 0x3F800000#32),
    StableHlo.binary main_cst_21 main_v149 main_v150 (addf : (⟨S_, .f32⟩ : BufTy).Contents (Elt F) → (⟨S_, .f32⟩ : BufTy).Contents (Elt F) → (⟨S_, .f32⟩ : BufTy).Contents (Elt F)),
    StableHlo.unary main_v150 main_v151 (broadcastInDim S50000x128 ![] bcast_S_S50000x128 : (⟨S_, .f32⟩ : BufTy).Contents (Elt F) → (⟨S50000x128, .f32⟩ : BufTy).Contents (Elt F)),
    StableHlo.binary main_v151 main_v135 main_v152 (mulf : (⟨S50000x128, .f32⟩ : BufTy).Contents (Elt F) → (⟨S50000x128, .f32⟩ : BufTy).Contents (Elt F) → (⟨S50000x128, .f32⟩ : BufTy).Contents (Elt F)),
    StableHlo.binary main_v152 main_v147 main_v153 (addf : (⟨S50000x128, .f32⟩ : BufTy).Contents (Elt F) → (⟨S50000x128, .f32⟩ : BufTy).Contents (Elt F) → (⟨S50000x128, .f32⟩ : BufTy).Contents (Elt F)),
    StableHlo.unary main_arg6 main_v154 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v154 main_v155 rfl shapeCasts_S1x128x128_S128x128 ]

/-- Statements 181 … 238: layer 2's mean, @_var inlined, normalization and @relu_0; the three-layer head. -/
abbrev ops3 : List (HloOp τ sig (Elt F)) :=
  [ StableHlo.binary main_v153 main_v155 main_v156 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v157 ((extractStridedSlice S1x128 ![2, 0] · slices_S3x128_S1x128_2_0) : (⟨S3x128, .f32⟩ : BufTy).Contents (Elt F) → (⟨S1x128, .f32⟩ : BufTy).Contents (Elt F)),
    StableHlo.reshape main_v157 main_v158 rfl shapeCasts_S1x128_S128,
    StableHlo.unary main_v158 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S50000x128 ![0, 1] bcast_S1x128_S50000x128_0_1 : (⟨S1x128, .f32⟩ : BufTy).Contents (Elt F) → (⟨S50000x128, .f32⟩ : BufTy).Contents (Elt F)),
    StableHlo.binary main_v156 main_v160 main_v161 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v161) main_call9.v0 main_call9.v1 maximumf,
    StableHlo.unary main_arg8 main_v163 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v163 main_v164 rfl shapeCasts_S1x128x128_S128x128,
    StableHlo.binary main_v162 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v166 ((extractStridedSlice S1x128 ![2, 0] · slices_S3x128_S1x128_2_0) : (⟨S3x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v165 main_v169 main_v170 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x00000000#32),
    StableHlo.binary main_v170 main_cst_22 main_v171 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v172 (broadcastInDim S128 ![] bcast_S_S128 : (⟨S_, .f32⟩ : BufTy).Contents (Elt F) → (⟨S128, .f32⟩ : BufTy).Contents (Elt F)),
    StableHlo.binary main_v171 main_v172 main_v173 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call10.cst (constant S_ .f32 0x00000000#32),
    StableHlo.TRef.binary (.of main_v170) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v170) main_call10.v4 main_call10.v5 subf,
    StableHlo.TRef.binary main_call10.v5 main_call10.v5 main_call10.v6 mulf,
    StableHlo.TRef.unary (.of main_c_24) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v173 main_v175 (broadcastInDim S1x128 ![1] bcast_S128_S1x128_1 : (⟨S128, .f32⟩ : BufTy).Contents (Elt F) → (⟨S1x128, .f32⟩ : BufTy).Contents (Elt F)),
    StableHlo.unary main_v175 main_v176 (broadcastInDim S50000x128 ![0, 1] bcast_S1x128_S50000x128_0_1 : (⟨S1x128, .f32⟩ : BufTy).Contents (Elt F) → (⟨S50000x128, .f32⟩ : BufTy).Contents (Elt F)),
    StableHlo.binary main_v170 main_v176 main_v177 (subf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v178 (broadcastInDim S128 ![] bcast_S_S128 : (⟨S_, .f32⟩ : BufTy).Contents (Elt F) → (⟨S128, .f32⟩ : BufTy).Contents (Elt F)),
    StableHlo.binary main_v174 main_v178 main_v179 (addf : (⟨S128, .f32⟩ : BufTy).Contents (Elt F) → (⟨S128, .f32⟩ : BufTy).Contents (Elt F) → (⟨S128, .f32⟩ : BufTy).Contents (Elt F)),
    StableHlo.unary main_v179 main_v180 (Host.rsqrt : (⟨S128, .f32⟩ : BufTy).Contents (Elt F) → (⟨S128, .f32⟩ : BufTy).Contents (Elt F)),
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v177 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_arg10 main_v184 ((extractStridedSlice S1x128 ![2, 0] · slices_S3x128_S1x128_2_0) : (⟨S3x128, .f32⟩ : BufTy).Contents (Elt F) → (⟨S1x128, .f32⟩ : BufTy).Contents (Elt F)),
    StableHlo.reshape main_v184 main_v185 rfl shapeCasts_S1x128_S128,
    StableHlo.unary main_v185 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v187 main_v188 (mulf : (⟨S50000x128, .f32⟩ : BufTy).Contents (Elt F) → (⟨S50000x128, .f32⟩ : BufTy).Contents (Elt F) → (⟨S50000x128, .f32⟩ : BufTy).Contents (Elt F)),
    StableHlo.unary main_arg11 main_v189 ((extractStridedSlice S1x128 ![2, 0] · slices_S3x128_S1x128_2_0) : (⟨S3x128, .f32⟩ : BufTy).Contents (Elt F) → (⟨S1x128, .f32⟩ : BufTy).Contents (Elt F)),
    StableHlo.reshape main_v189 main_v190 rfl shapeCasts_S1x128_S128,
    StableHlo.unary main_v190 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v192 main_v193 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v193) main_call11.v0 main_call11.v1 maximumf,
    StableHlo.binary main_v194 main_arg12 main_v195 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S50000x128 ![0, 1] bcast_S1x128_S50000x128_0_1 : (⟨S1x128, .f32⟩ : BufTy).Contents (Elt F) → (⟨S50000x128, .f32⟩ : BufTy).Contents (Elt F)),
    StableHlo.binary main_v195 main_v197 main_v198 (addf : (⟨S50000x128, .f32⟩ : BufTy).Contents (Elt F) → (⟨S50000x128, .f32⟩ : BufTy).Contents (Elt F) → (⟨S50000x128, .f32⟩ : BufTy).Contents (Elt F)),
    StableHlo.TRef.nullary main_call12.cst (constant S_ .f32 0x00000000#32),
    StableHlo.TRef.unary main_call12.cst main_call12.v0 (broadcastInDim S50000x128 ![] bcast_S_S50000x128),
    StableHlo.TRef.binary (.of main_v198) main_call12.v0 main_call12.v1 maximumf,
    StableHlo.binary main_v199 main_arg14 main_v200 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S50000x128 ![0, 1] bcast_S1x128_S50000x128_0_1 : (⟨S1x128, .f32⟩ : BufTy).Contents (Elt F) → (⟨S50000x128, .f32⟩ : BufTy).Contents (Elt F)),
    StableHlo.binary main_v200 main_v202 main_v203 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v203) main_call13.v0 main_call13.v1 maximumf,
    StableHlo.binary main_v204 main_arg16 main_v205 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg17 main_v206 (broadcastInDim S1x1 ![1] bcast_S1_S1x1_1 : (⟨S1, .f32⟩ : BufTy).Contents (Elt F) → (⟨S1x1, .f32⟩ : BufTy).Contents (Elt F)),
    StableHlo.unary main_v206 main_v207 (broadcastInDim S50000x1 ![0, 1] bcast_S1x1_S50000x1_0_1 : (⟨S1x1, .f32⟩ : BufTy).Contents (Elt F) → (⟨S50000x1, .f32⟩ : BufTy).Contents (Elt F)),
    StableHlo.binary main_v205 main_v207 main_v208 (addf : (⟨S50000x1, .f32⟩ : BufTy).Contents (Elt F) → (⟨S50000x1, .f32⟩ : BufTy).Contents (Elt F) → (⟨S50000x1, .f32⟩ : BufTy).Contents (Elt F)) ]

/-- @main's operations, in execution order. -/
abbrev ops : List (HloOp τ sig (Elt F)) := ops0 ++ (ops1 ++ (ops2 ++ ops3))

/-! ## @main is that line -/

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl

/-- @main runs its four windows in order, and a concatenation runs as its pieces one after the other. -/
theorem main_eq (c : Dev nD) : main (F := F) c = seq ops := by
  simp only [ops, seq_append, ← part0_eq c, ← part1_eq c, ← part2_eq c, ← part3_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub ..⟩
theorem ops1_sub : (ops1 : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., reshape_bufs_sub .., unary_bufs_sub ..,
    unary_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub ..⟩
theorem ops2_sub : (ops2 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., unary_bufs_sub .., ternary_bufs_sub .., unary_bufs_sub .., reshape_bufs_sub ..,
    nullary_bufs_sub .., binary_bufs_sub .., unary_bufs_sub .., binary_bufs_sub .., binary_bufs_sub .., unary_bufs_sub ..,
    reshape_bufs_sub ..⟩
theorem ops3_sub : (ops3 : List (HloOp τ sig (Elt F))).Forall fun op => op.bufs ⊆ tcRefs τ sig :=
  ⟨binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

/-- Every operation of the line touches TensorCore buffers only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

/-- No operation of the line leaves a result undetermined. -/
theorem ops_fresh : ∀ op ∈ (ops : List (HloOp τ sig (Elt F))), op.fresh = ∅ := by
  intro op h
  rcases List.mem_append.mp h with h | h
  · exact ops0_fresh op h
  rcases List.mem_append.mp h with h | h
  · exact ops1_fresh op h
  rcases List.mem_append.mp h with h | h
  · exact ops2_fresh op h
  · exact ops3_fresh op h

/-- On every device, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefRead.lean ====
/- The value the reference program leaves in its result buffer, as a layered term of its eighteen argument
   arrays: one definition per stage of the network (embeddings, index columns, a layer's aggregation, its two
   linear maps, the batch statistics, the normalization, the head), each the composed term of that stage's host
   operations, and the theorem that the fold of @main's operations at the result buffer is their composition. -/
import proofs.«124610_j72327249264834_2_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The node embedding x₀: row `node_type n` of the 4-row table, a negative type counted from the table's end. -/
def stX0 (a0 : IVec S50000 32) (a3 : FVec F S4x128 .f32) : FVec F S50000x128 .f32 :=
  Host.gather gather_S4x128_S50000x1_S50000x128_1_0_n_n_0_1_1128 a3
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 4#32))) a0))

/-- The edge embedding: row `edge_type e` of the 3-row table, a negative type counted from the table's end. -/
def stEa (a1 : IVec S800000 32) (a4 : FVec F S3x128 .f32) : FVec F S800000x128 .f32 :=
  Host.gather gather_S3x128_S800000x1_S800000x128_1_0_n_n_0_1_1128 a4
    (broadcastInDim S800000x1 ![0] bcast_S800000_S800000x1_0
      (select (cmpi .slt a1 (broadcastInDim S800000 ![] bcast_S_S800000 (constantI S_ 32 0#32)))
        (addi a1 (broadcastInDim S800000 ![] bcast_S_S800000 (constantI S_ 32 3#32))) a1))

/-- Row 0 of the edge index (the sources), as a vector over the edges. -/
def stCol0 (a2 : IVec S2x800000 32) : IVec S800000 32 :=
  shapeCast S800000 (extractStridedSlice S1x800000 ![0, 0] a2 slices_S2x800000_S1x800000_0_0) shapeCasts_S1x800000_S800000

/-- Row 1 of the edge index (the destinations), as a vector over the edges. -/
def stCol1 (a2 : IVec S2x800000 32) : IVec S800000 32 :=
  shapeCast S800000 (extractStridedSlice S1x800000 ![1, 0] a2 slices_S2x800000_S1x800000_1_0) shapeCasts_S1x800000_S800000

/-- A source column as the gather consumes it: a negative source counted from the last node, one index per edge. -/
def stSrcOf (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- A destination column as the scatter consumes it: one index per edge, unchanged. -/
def stDstOf (col : IVec S800000 32) : IVec S800000x1 32 :=
  broadcastInDim S800000x1 ![0] bcast_S800000_S800000x1_0 col

/-- The gather indices of every layer. -/
def stSrc (a2 : IVec S2x800000 32) : IVec S800000x1 32 := stSrcOf (stCol0 a2)
/-- The scatter indices of every layer. -/
def stDst (a2 : IVec S2x800000 32) : IVec S800000x1 32 := stDstOf (stCol1 a2)

/-- max(·, 0) on a node array. -/
def stRelu (h : FVec F S50000x128 .f32) : FVec F S50000x128 .f32 :=
  maximumf h (broadcastInDim S50000x128 ![] bcast_S_S50000x128 (constant S_ .f32 0x00000000#32))

/-- A 128-vector repeated along the nodes. -/
def stRow (b : FVec F S128 .f32) : FVec F S50000x128 .f32 :=
  broadcastInDim S50000x128 ![0, 1] bcast_S1x128_S50000x128_0_1 (broadcastInDim S1x128 ![1] bcast_S128_S1x128_1 b)

/-- One layer's aggregation: into zeros, at each edge's destination, the sum of max(x[src] + ea, 0). -/
def stAgg (x : FVec F S50000x128 .f32) (ea : FVec F S800000x128 .f32) (src dst : IVec S800000x1 32) : FVec F S50000x128 .f32 :=
  Host.scatterAdd scatter_S50000x128_S800000x1_S800000x128_1_0_0_1
    (broadcastInDim S50000x128 ![] bcast_S_S50000x128 (constant S_ .f32 0x00000000#32)) dst
    (maximumf (addf (Host.gather gather_S50000x128_S800000x1_S800000x128_1_0_n_n_0_1_1128 x src) ea)
      (broadcastInDim S800000x128 ![] bcast_S_S800000x128 (constant S_ .f32 0x00000000#32)))

theorem slices_S3_S1 (l : Fin 3) : S3.Slices ![l.val] S1 := by
  match l with
  | 0 => exact slices_S3_S1_0
  | 1 => exact slices_S3_S1_1
  | 2 => exact slices_S3_S1_2
theorem slices_S3x128x128_S1x128x128 (l : Fin 3) : S3x128x128.Slices ![l.val, 0, 0] S1x128x128 := by
  match l with
  | 0 => exact slices_S3x128x128_S1x128x128_0_0_0
  | 1 => exact slices_S3x128x128_S1x128x128_1_0_0
  | 2 => exact slices_S3x128x128_S1x128x128_2_0_0
theorem slices_S3x128_S1x128 (l : Fin 3) : S3x128.Slices ![l.val, 0] S1x128 := by
  match l with
  | 0 => exact slices_S3x128_S1x128_0_0
  | 1 => exact slices_S3x128_S1x128_1_0
  | 2 => exact slices_S3x128_S1x128_2_0

/-- Entry `l` of a 3-vector, as a scalar. -/
def stScalar (l : Fin 3) (a : FVec F S3 .f32) : FVec F S_ .f32 :=
  shapeCast S_ (extractStridedSlice S1 ![l.val] a (slices_S3_S1 l)) shapeCasts_S1_S_
/-- Matrix `l` of a stack of three 128×128 matrices. -/
def stMat (l : Fin 3) (a : FVec F S3x128x128 .f32) : FVec F S128x128 .f32 :=
  shapeCast S128x128 (extractStridedSlice S1x128x128 ![l.val, 0, 0] a (slices_S3x128x128_S1x128x128 l)) shapeCasts_S1x128x128_S128x128
/-- Row `l` of a 3×128 array, as a 128-vector. -/
def stVec (l : Fin 3) (a : FVec F S3x128 .f32) : FVec F S128 .f32 :=
  shapeCast S128 (extractStridedSlice S1x128 ![l.val, 0] a (slices_S3x128_S1x128 l)) shapeCasts_S1x128_S128

/-- Layer `l`'s pieces of the stacked parameters. -/
def stEps (l : Fin 3) (a5 : FVec F S3 .f32) : FVec F S_ .f32 := stScalar l a5
def stW1 (l : Fin 3) (a6 : FVec F S3x128x128 .f32) : FVec F S128x128 .f32 := stMat l a6
def stB1 (l : Fin 3) (a7 : FVec F S3x128 .f32) : FVec F S128 .f32 := stVec l a7
def stW2 (l : Fin 3) (a8 : FVec F S3x128x128 .f32) : FVec F S128x128 .f32 := stMat l a8
def stB2 (l : Fin 3) (a9 : FVec F S3x128 .f32) : FVec F S128 .f32 := stVec l a9
def stGamma (l : Fin 3) (a10 : FVec F S3x128 .f32) : FVec F S128 .f32 := stVec l a10
def stBeta (l : Fin 3) (a11 : FVec F S3x128 .f32) : FVec F S128 .f32 := stVec l a11

/-- A layer before its normalization: max(((1 + eps)·x + agg) W1 + b1, 0) W2 + b2. -/
def stPre (x agg : FVec F S50000x128 .f32) (eps : FVec F S_ .f32) (W1 : FVec F S128x128 .f32) (b1 : FVec F S128 .f32)
    (W2 : FVec F S128x128 .f32) (b2 : FVec F S128 .f32) : FVec F S50000x128 .f32 :=
  addf
    (Host.dotGeneral dot_S50000x128_S128x128_S50000x128_1_0_0_1_n_n none
      (stRelu
        (addf
          (Host.dotGeneral dot_S50000x128_S128x128_S50000x128_1_0_0_1_n_n none
            (addf (mulf (broadcastInDim S50000x128 ![] bcast_S_S50000x128 (addf (constant S_ .f32 0x3F800000#32) eps)) x) agg) W1)
          (stRow b1)))
      W2)
    (stRow b2)

/-- The column means over the 50000 nodes: the column sums divided by 50000. -/
def stMean (h : FVec F S50000x128 .f32) : FVec F S128 .f32 :=
  Host.divf (Host.reduceAdd h (constant S_ .f32 0x00000000#32) reducesTo_S50000x128_S128_d0 h_S_)
    (broadcastInDim S128 ![] bcast_S_S128 (constant S_ .f32 0x47435000#32))

/-- The deviations the variance squares: h minus its column means (the means computed again, as a 1×128 row). -/
def stDev (h : FVec F S50000x128 .f32) : FVec F S50000x128 .f32 :=
  subf h
    (broadcastInDim S50000x128 ![0, 1] bcast_S1x128_S50000x128_0_1
      (Host.divf
        (broadcastInDim S1x128 ![1] bcast_S128_S1x128_1
          (Host.reduceAdd h (constant S_ .f32 0x00000000#32) reducesTo_S50000x128_S128_d0 h_S_))
        (broadcastInDim S1x128 ![] bcast_S_S1x128 (constant S_ .f32 0x47435000#32))))

/-- The variance's divisor: 50000 minus the correction, which is the integer constant 0 converted. -/
def stDen : FVec F S_ .f32 :=
  subf (constant S_ .f32 0x47435000#32) (sitofp .f32 (constantI S_ 32 0#32))

/-- The column variances: the sums of squared deviations over the divisor where the divisor is positive, the
    quiet NaN pattern elsewhere. -/
def stVar (h : FVec F S50000x128 .f32) : FVec F S128 .f32 :=
  select (broadcastInDim S128 ![] bcast_S_S128 (cmpf .ogt (stDen (F := F)) (constant S_ .f32 0x00000000#32)))
    (Host.divf
      (Host.reduceAdd (mulf (stDev h) (stDev h)) (constant S_ .f32 0x00000000#32) reducesTo_S50000x128_S128_d0 h_S_)
      (broadcastInDim S128 ![] bcast_S_S128 (stDen (F := F))))
    (broadcastInDim S128 ![] bcast_S_S128 (id (constant S_ .f32 0x7FC00000#32)))

/-- The normalization: max((h − mu)·rsqrt(var + 1e-5)·gamma + beta, 0). -/
def stBn (h : FVec F S50000x128 .f32) (mu var gamma beta : FVec F S128 .f32) : FVec F S50000x128 .f32 :=
  stRelu
    (addf
      (mulf
        (mulf (subf h (stRow mu))
          (stRow (Host.rsqrt (addf var (broadcastInDim S128 ![] bcast_S_S128 (constant S_ .f32 0x3727C5AC#32))))))
        (stRow gamma))
      (stRow beta))

/-- A layer's normalization over its own statistics. -/
def stNorm (h : FVec F S50000x128 .f32) (gamma beta : FVec F S128 .f32) : FVec F S50000x128 .f32 :=
  stBn h (stMean h) (stVar h) gamma beta

/-- Layer `l`: aggregation, the two linear maps, the normalization. -/
def stLayer (l : Fin 3) (x : FVec F S50000x128 .f32) (ea : FVec F S800000x128 .f32) (src dst : IVec S800000x1 32)
    (a5 : FVec F S3 .f32) (a6 : FVec F S3x128x128 .f32) (a7 : FVec F S3x128 .f32) (a8 : FVec F S3x128x128 .f32)
    (a9 a10 a11 : FVec F S3x128 .f32) : FVec F S50000x128 .f32 :=
  stNorm (stPre x (stAgg x ea src dst) (stEps l a5) (stW1 l a6) (stB1 l a7) (stW2 l a8) (stB2 l a9)) (stGamma l a10) (stBeta l a11)

/-- The head: max(max(x A + b, 0) B + c, 0) w + d. -/
def stHead (x : FVec F S50000x128 .f32) (a12 : FVec F S128x128 .f32) (a13 : FVec F S128 .f32) (a14 : FVec F S128x128 .f32)
    (a15 : FVec F S128 .f32) (a16 : FVec F S128x1 .f32) (a17 : FVec F S1 .f32) : FVec F S50000x1 .f32 :=
  addf
    (Host.dotGeneral dot_S50000x128_S128x1_S50000x1_1_0_0_1_n_n none
      (stRelu
        (addf
          (Host.dotGeneral dot_S50000x128_S128x128_S50000x128_1_0_0_1_n_n none
            (stRelu (addf (Host.dotGeneral dot_S50000x128_S128x128_S50000x128_1_0_0_1_n_n none x a12) (stRow a13))) a14)
          (stRow a15)))
      a16)
    (broadcastInDim S50000x1 ![0, 1] bcast_S1x1_S50000x1_0_1 (broadcastInDim S1x1 ![1] bcast_S1_S1x1_1 a17))

/-- The reference's result as a term of its arguments. -/
def refOut (a0 : IVec S50000 32) (a1 : IVec S800000 32) (a2 : IVec S2x800000 32) (a3 : FVec F S4x128 .f32) (a4 : FVec F S3x128 .f32)
    (a5 : FVec F S3 .f32) (a6 : FVec F S3x128x128 .f32) (a7 : FVec F S3x128 .f32) (a8 : FVec F S3x128x128 .f32)
    (a9 a10 a11 : FVec F S3x128 .f32) (a12 : FVec F S128x128 .f32) (a13 : FVec F S128 .f32) (a14 : FVec F S128x128 .f32)
    (a15 : FVec F S128 .f32) (a16 : FVec F S128x1 .f32) (a17 : FVec F S1 .f32) : FVec F S50000x1 .f32 :=
  stHead
    (stLayer 2
      (stLayer 1
        (stLayer 0 (stX0 a0 a3) (stEa a1 a4) (stSrc a2) (stDst a2) a5 a6 a7 a8 a9 a10 a11)
        (stEa a1 a4) (stSrc a2) (stDst a2) a5 a6 a7 a8 a9 a10 a11)
      (stEa a1 a4) (stSrc a2) (stDst a2) a5 a6 a7 a8 a9 a10 a11)
    a12 a13 a14 a15 a16 a17

/-! ## The line in stages

The operations again, cut where the network's stages end: the embeddings and index columns; then per layer the
aggregation, the two linear maps, the statistics, the normalization; then the head. For each stage: what it
writes, that it leaves every other buffer alone, and its result as the stage's term of what it reads. -/

theorem writes_sub {op : HloOp τ sig (Elt F)} {y : Ref sig .tc} {Wl : List (Ref sig .tc)}
    (h : op.writes = {Proc.devRef .tc y}) (hy : y ∈ Wl) :
    op.writes ⊆ (Wl.map (Proc.devRef (τ := τ) .tc)).toFinset := by
  rw [h, Finset.singleton_subset_iff, List.mem_toFinset]
  exact List.mem_map_of_mem hy

attribute [local irreducible] Host.gather Host.scatterAdd Host.reduceAdd

abbrev segEmb : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 4#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg3 main_v5 main_v6 ((fun x i => Host.gather gather_S4x128_S50000x1_S50000x128_1_0_n_n_0_1_1128 x i) : (⟨S4x128, .f32⟩ : BufTy).Contents (Elt F) → (⟨S50000x1, .i32⟩ : BufTy).Contents (Elt F) → (⟨S50000x128, .f32⟩ : BufTy).Contents (Elt F)),
    StableHlo.nullary main_c_1 (constantI S_ 32 0#32),
    StableHlo.unary main_c_1 main_v7 (broadcastInDim S800000 ![] bcast_S_S800000 : (⟨S_, .i32⟩ : BufTy).Contents (Elt F) → (⟨S800000, .i32⟩ : BufTy).Contents (Elt F)),
    StableHlo.binary main_arg1 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 3#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg1 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg1 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_arg4 main_v12 main_v13 ((fun x i => Host.gather gather_S3x128_S800000x1_S800000x128_1_0_n_n_0_1_1128 x i) : (⟨S3x128, .f32⟩ : BufTy).Contents (Elt F) → (⟨S800000x1, .i32⟩ : BufTy).Contents (Elt F) → (⟨S800000x128, .f32⟩ : BufTy).Contents (Elt F)),
    StableHlo.unary main_arg2 main_v14 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v14 main_v15 rfl shapeCasts_S1x800000_S800000,
    StableHlo.unary main_arg2 main_v16 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v16 main_v17 rfl shapeCasts_S1x800000_S800000 ]
/-- The buffers `segEmb` writes. -/
abbrev segEmb_W : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17]
theorem segEmb_writes : (segEmb : List (HloOp τ sig (Elt F))).Forall fun op =>
    op.writes ⊆ (segEmb_W.map (Proc.devRef (τ := τ) .tc)).toFinset :=
  ⟨writes_sub (nullary_writes ..) (by decide), writes_sub (unary_writes ..) (by decide), writes_sub (binary_writes ..) (by decide),
   writes_sub (nullary_writes ..) (by decide), writes_sub (unary_writes ..) (by decide), writes_sub (binary_writes ..) (by decide),
   writes_sub (ternary_writes ..) (by decide), writes_sub (unary_writes ..) (by decide), writes_sub (binary_writes ..) (by decide),
   writes_sub (nullary_writes ..) (by decide), writes_sub (unary_writes ..) (by decide), writes_sub (binary_writes ..) (by decide),
   writes_sub (nullary_writes ..) (by decide), writes_sub (unary_writes ..) (by decide), writes_sub (binary_writes ..) (by decide),
   writes_sub (ternary_writes ..) (by decide), writes_sub (unary_writes ..) (by decide), writes_sub (binary_writes ..) (by decide),
   writes_sub (unary_writes ..) (by decide), writes_sub (reshape_writes ..) (by decide), writes_sub (unary_writes ..) (by decide),
   writes_sub (reshape_writes ..) (by decide)⟩
theorem segEmb_keep (W : Valuation τ sig (Elt F)) (r : Ref sig .tc) (h : r ∉ segEmb_W) :
    after segEmb W (no_index (Proc.devRef .tc r)) = W (Proc.devRef .tc r) :=
  after_of_writes_sub segEmb W segEmb_writes h
theorem segEmb_x0 (W : Valuation τ sig (Elt F)) :
    after segEmb W (no_index (Proc.devRef .tc main_v6)) = stX0 (W (Proc.devRef .tc main_arg0)) (W (Proc.devRef .tc main_arg3)) := by
  simp only [segEmb]
  after_results_simp
  rfl
theorem segEmb_ea (W : Valuation τ sig (Elt F)) :
    after segEmb W (no_index (Proc.devRef .tc main_v13)) = stEa (W (Proc.devRef .tc main_arg1)) (W (Proc.devRef .tc main_arg4)) := by
  simp only [segEmb]
  after_results_simp
  rfl
theorem segEmb_col0 (W : Valuation τ sig (Elt F)) :
    after segEmb W (no_index (Proc.devRef .tc main_v15)) = stCol0 (W (Proc.devRef .tc main_arg2)) := by
  simp only [segEmb]
  after_results_simp
  rfl
theorem segEmb_col1 (W : Valuation τ sig (Elt F)) :
    after segEmb W (no_index (Proc.devRef .tc main_v17)) = stCol1 (W (Proc.devRef .tc main_arg2)) := by
  simp only [segEmb]
  after_results_simp
  rfl

abbrev segAgg0 : List (HloOp τ sig (Elt F)) :=
  [ StableHlo.nullary main_c_3 (constantI S_ 32 0#32),
    StableHlo.unary main_c_3 main_v18 (broadcastInDim S800000 ![] bcast_S_S800000 : (⟨S_, .i32⟩ : BufTy).Contents (Elt F) → (⟨S800000, .i32⟩ : BufTy).Contents (Elt F)),
    StableHlo.binary main_v15 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_v15 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v15 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v6 main_v23 main_v24 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v24 main_v13 main_v25 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v25) main_call0.v0 main_call0.v1 maximumf,
    StableHlo.nullary main_cst (constant S_ .f32 0x00000000#32),
    StableHlo.unary main_cst main_v27 (broadcastInDim S50000x128 ![] bcast_S_S50000x128 : (⟨S_, .f32⟩ : BufTy).Contents (Elt F) → (⟨S50000x128, .f32⟩ : BufTy).Contents (Elt F)),
    StableHlo.unary main_v17 main_v28 (broadcastInDim S800000x1 ![0] bcast_S800000_S800000x1_0 : (⟨S800000, .i32⟩ : BufTy).Contents (Elt F) → (⟨S800000x1, .i32⟩ : BufTy).Contents (Elt F)),
    StableHlo.ternary main_v27 main_v28 main_v26 main_v29 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The buffers `segAgg0` writes. -/
abbrev segAgg0_W : List (Ref sig .tc) := [main_c_3, main_v18, main_v19, main_c_4, main_v20, main_v21, main_v22, main_v23, main_v24, main_v25, main_call0_cst, main_call0_v0, main_v26, main_cst, main_v27, main_v28, main_v29]
theorem segAgg0_writes : (segAgg0 : List (HloOp τ sig (Elt F))).Forall fun op =>
    op.writes ⊆ (segAgg0_W.map (Proc.devRef (τ := τ) .tc)).toFinset :=
  ⟨writes_sub (nullary_writes ..) (by decide), writes_sub (unary_writes ..) (by decide), writes_sub (binary_writes ..) (by decide),
   writes_sub (nullary_writes ..) (by decide), writes_sub (unary_writes ..) (by decide), writes_sub (binary_writes ..) (by decide),
   writes_sub (ternary_writes ..) (by decide), writes_sub (unary_writes ..) (by decide), writes_sub (binary_writes ..) (by decide),
   writes_sub (binary_writes ..) (by decide), writes_sub (nullary_writes ..) (by decide), writes_sub (unary_writes ..) (by decide),
   writes_sub (binary_writes ..) (by decide), writes_sub (nullary_writes ..) (by decide), writes_sub (unary_writes ..) (by decide),
   writes_sub (unary_writes ..) (by decide), writes_sub (ternary_writes ..) (by decide)⟩
theorem segAgg0_keep (W : Valuation τ sig (Elt F)) (r : Ref sig .tc) (h : r ∉ segAgg0_W) :
    after segAgg0 W (no_index (Proc.devRef .tc r)) = W (Proc.devRef .tc r) :=
  after_of_writes_sub segAgg0 W segAgg0_writes h
theorem segAgg0_out (W : Valuation τ sig (Elt F)) :
    after segAgg0 W (no_index (Proc.devRef .tc main_v29)) = stAgg (W (Proc.devRef .tc main_v6)) (W (Proc.devRef .tc main_v13)) (stSrcOf (W (Proc.devRef .tc main_v15))) (stDstOf (W (Proc.devRef .tc main_v17))) := by
  simp only [segAgg0]
  after_results_simp
  rfl

abbrev segPre0 : List (HloOp τ sig (Elt F)) :=
  [ StableHlo.unary main_arg5 main_v30 ((extractStridedSlice S1 ![0] · slices_S3_S1_0) : (⟨S3, .f32⟩ : BufTy).Contents (Elt F) → (⟨S1, .f32⟩ : BufTy).Contents (Elt F)),
    StableHlo.reshape main_v30 main_v31 rfl shapeCasts_S1_S_,
    StableHlo.nullary main_cst_5 (constant S_ .f32 0x3F800000#32),
    StableHlo.binary main_cst_5 main_v31 main_v32 (addf : (⟨S_, .f32⟩ : BufTy).Contents (Elt F) → (⟨S_, .f32⟩ : BufTy).Contents (Elt F) → (⟨S_, .f32⟩ : BufTy).Contents (Elt F)),
    StableHlo.unary main_v32 main_v33 (broadcastInDim S50000x128 ![] bcast_S_S50000x128 : (⟨S_, .f32⟩ : BufTy).Contents (Elt F) → (⟨S50000x128, .f32⟩ : BufTy).Contents (Elt F)),
    StableHlo.binary main_v33 main_v6 main_v34 (mulf : (⟨S50000x128, .f32⟩ : BufTy).Contents (Elt F) → (⟨S50000x128, .f32⟩ : BufTy).Contents (Elt F) → (⟨S50000x128, .f32⟩ : BufTy).Contents (Elt F)),
    StableHlo.binary main_v34 main_v29 main_v35 (addf : (⟨S50000x128, .f32⟩ : BufTy).Contents (Elt F) → (⟨S50000x128, .f32⟩ : BufTy).Contents (Elt F) → (⟨S50000x128, .f32⟩ : BufTy).Contents (Elt F)),
    StableHlo.unary main_arg6 main_v36 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v36 main_v37 rfl shapeCasts_S1x128x128_S128x128,
    StableHlo.binary main_v35 main_v37 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v39 ((extractStridedSlice S1x128 ![0, 0] · slices_S3x128_S1x128_0_0) : (⟨S3x128, .f32⟩ : BufTy).Contents (Elt F) → (⟨S1x128, .f32⟩ : BufTy).Contents (Elt F)),
    StableHlo.reshape main_v39 main_v40 rfl shapeCasts_S1x128_S128,
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v42 main_v43 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v43) main_call1.v0 main_call1.v1 maximumf,
    StableHlo.unary main_arg8 main_v45 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v45 main_v46 rfl shapeCasts_S1x128x128_S128x128,
    StableHlo.binary main_v44 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v48 ((extractStridedSlice S1x128 ![0, 0] · slices_S3x128_S1x128_0_0) : (⟨S3x128, .f32⟩ : BufTy).Contents (Elt F) → (⟨S1x128, .f32⟩ : BufTy).Contents (Elt F)),
    StableHlo.reshape main_v48 main_v49 rfl shapeCasts_S1x128_S128,
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v51 main_v52 (addf : (⟨S50000x128, .f32⟩ : BufTy).Contents (Elt F) → (⟨S50000x128, .f32⟩ : BufTy).Contents (Elt F) → (⟨S50000x128, .f32⟩ : BufTy).Contents (Elt F)) ]
/-- The buffers `segPre0` writes. -/
abbrev segPre0_W : List (Ref sig .tc) := [main_v30, main_v31, main_cst_5, main_v32, main_v33, main_v34, main_v35, main_v36, main_v37, main_v38, main_v39, main_v40, main_v41, main_v42, main_v43, main_call1_cst, main_call1_v0, main_v44, main_v45, main_v46, main_v47, main_v48, main_v49, main_v50, main_v51, main_v52]
theorem segPre0_writes : (segPre0 : List (HloOp τ sig (Elt F))).Forall fun op =>
    op.writes ⊆ (segPre0_W.map (Proc.devRef (τ := τ) .tc)).toFinset :=
  ⟨writes_sub (unary_writes ..) (by decide), writes_sub (reshape_writes ..) (by decide), writes_sub (nullary_writes ..) (by decide),
   writes_sub (binary_writes ..) (by decide), writes_sub (unary_writes ..) (by decide), writes_sub (binary_writes ..) (by decide),
   writes_sub (binary_writes ..) (by decide), writes_sub (unary_writes ..) (by decide), writes_sub (reshape_writes ..) (by decide),
   writes_sub (binary_writes ..) (by decide), writes_sub (unary_writes ..) (by decide), writes_sub (reshape_writes ..) (by decide),
   writes_sub (unary_writes ..) (by decide), writes_sub (unary_writes ..) (by decide), writes_sub (binary_writes ..) (by decide),
   writes_sub (nullary_writes ..) (by decide), writes_sub (unary_writes ..) (by decide), writes_sub (binary_writes ..) (by decide),
   writes_sub (unary_writes ..) (by decide), writes_sub (reshape_writes ..) (by decide), writes_sub (binary_writes ..) (by decide),
   writes_sub (unary_writes ..) (by decide), writes_sub (reshape_writes ..) (by decide), writes_sub (unary_writes ..) (by decide),
   writes_sub (unary_writes ..) (by decide), writes_sub (binary_writes ..) (by decide)⟩
theorem segPre0_keep (W : Valuation τ sig (Elt F)) (r : Ref sig .tc) (h : r ∉ segPre0_W) :
    after segPre0 W (no_index (Proc.devRef .tc r)) = W (Proc.devRef .tc r) :=
  after_of_writes_sub segPre0 W segPre0_writes h
theorem segPre0_out (W : Valuation τ sig (Elt F)) :
    after segPre0 W (no_index (Proc.devRef .tc main_v52)) = stPre (W (Proc.devRef .tc main_v6)) (W (Proc.devRef .tc main_v29)) (stEps 0 (W (Proc.devRef .tc main_arg5))) (stW1 0 (W (Proc.devRef .tc main_arg6))) (stB1 0 (W (Proc.devRef .tc main_arg7)))
        (stW2 0 (W (Proc.devRef .tc main_arg8))) (stB2 0 (W (Proc.devRef .tc main_arg9))) := by
  simp only [segPre0]
  after_results_simp
  rfl

abbrev segStat0 : List (HloOp τ sig (Elt F)) :=
  [ StableHlo.nullary main_cst_6 (constant S_ .f32 0x00000000#32),
    StableHlo.binary main_v52 main_cst_6 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v54 (broadcastInDim S128 ![] bcast_S_S128 : (⟨S_, .f32⟩ : BufTy).Contents (Elt F) → (⟨S128, .f32⟩ : BufTy).Contents (Elt F)),
    StableHlo.binary main_v53 main_v54 main_v55 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v52) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v52) main_call2.v4 main_call2.v5 subf,
    StableHlo.TRef.binary main_call2.v5 main_call2.v5 main_call2.v6 mulf,
    StableHlo.TRef.unary (.of main_c_8) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]
/-- The buffers `segStat0` writes. -/
abbrev segStat0_W : List (Ref sig .tc) := [main_cst_6, main_v53, main_cst_7, main_v54, main_v55, main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v56]
theorem segStat0_writes : (segStat0 : List (HloOp τ sig (Elt F))).Forall fun op =>
    op.writes ⊆ (segStat0_W.map (Proc.devRef (τ := τ) .tc)).toFinset :=
  ⟨writes_sub (nullary_writes ..) (by decide), writes_sub (binary_writes ..) (by decide), writes_sub (nullary_writes ..) (by decide),
   writes_sub (unary_writes ..) (by decide), writes_sub (binary_writes ..) (by decide), writes_sub (nullary_writes ..) (by decide),
   writes_sub (nullary_writes ..) (by decide), writes_sub (binary_writes ..) (by decide), writes_sub (unary_writes ..) (by decide),
   writes_sub (nullary_writes ..) (by decide), writes_sub (unary_writes ..) (by decide), writes_sub (binary_writes ..) (by decide),
   writes_sub (unary_writes ..) (by decide), writes_sub (binary_writes ..) (by decide), writes_sub (binary_writes ..) (by decide),
   writes_sub (unary_writes ..) (by decide), writes_sub (nullary_writes ..) (by decide), writes_sub (binary_writes ..) (by decide),
   writes_sub (nullary_writes ..) (by decide), writes_sub (binary_writes ..) (by decide), writes_sub (unary_writes ..) (by decide),
   writes_sub (binary_writes ..) (by decide), writes_sub (nullary_writes ..) (by decide), writes_sub (binary_writes ..) (by decide),
   writes_sub (nullary_writes ..) (by decide), writes_sub (unary_writes ..) (by decide), writes_sub (unary_writes ..) (by decide),
   writes_sub (ternary_writes ..) (by decide)⟩
theorem segStat0_keep (W : Valuation τ sig (Elt F)) (r : Ref sig .tc) (h : r ∉ segStat0_W) :
    after segStat0 W (no_index (Proc.devRef .tc r)) = W (Proc.devRef .tc r) :=
  after_of_writes_sub segStat0 W segStat0_writes h
theorem segStat0_mean (W : Valuation τ sig (Elt F)) :
    after segStat0 W (no_index (Proc.devRef .tc main_v55)) = stMean (W (Proc.devRef .tc main_v52)) := by
  simp only [segStat0]
  after_results_simp
  rfl
theorem segStat0_var (W : Valuation τ sig (Elt F)) :
    after segStat0 W (no_index (Proc.devRef .tc main_v56)) = stVar (W (Proc.devRef .tc main_v52)) := by
  simp only [segStat0]
  after_results_simp
  rfl

abbrev segBn0 : List (HloOp τ sig (Elt F)) :=
  [ StableHlo.unary main_v55 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v58 main_v59 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v60 (broadcastInDim S128 ![] bcast_S_S128 : (⟨S_, .f32⟩ : BufTy).Contents (Elt F) → (⟨S128, .f32⟩ : BufTy).Contents (Elt F)),
    StableHlo.binary main_v56 main_v60 main_v61 (addf : (⟨S128, .f32⟩ : BufTy).Contents (Elt F) → (⟨S128, .f32⟩ : BufTy).Contents (Elt F) → (⟨S128, .f32⟩ : BufTy).Contents (Elt F)),
    StableHlo.unary main_v61 main_v62 (Host.rsqrt : (⟨S128, .f32⟩ : BufTy).Contents (Elt F) → (⟨S128, .f32⟩ : BufTy).Contents (Elt F)),
    StableHlo.unary main_v62 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v64 main_v65 (mulf : (⟨S50000x128, .f32⟩ : BufTy).Contents (Elt F) → (⟨S50000x128, .f32⟩ : BufTy).Contents (Elt F) → (⟨S50000x128, .f32⟩ : BufTy).Contents (Elt F)),
    StableHlo.unary main_arg10 main_v66 ((extractStridedSlice S1x128 ![0, 0] · slices_S3x128_S1x128_0_0) : (⟨S3x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_arg11 main_v71 ((extractStridedSlice S1x128 ![0, 0] · slices_S3x128_S1x128_0_0) : (⟨S3x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v74 main_v75 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v75) main_call3.v0 main_call3.v1 maximumf ]
/-- The buffers `segBn0` writes. -/
abbrev segBn0_W : List (Ref sig .tc) := [main_v57, main_v58, main_v59, main_cst_9, main_v60, main_v61, main_v62, main_v63, main_v64, main_v65, main_v66, main_v67, main_v68, main_v69, main_v70, main_v71, main_v72, main_v73, main_v74, main_v75, main_call3_cst, main_call3_v0, main_v76]
theorem segBn0_writes : (segBn0 : List (HloOp τ sig (Elt F))).Forall fun op =>
    op.writes ⊆ (segBn0_W.map (Proc.devRef (τ := τ) .tc)).toFinset :=
  ⟨writes_sub (unary_writes ..) (by decide), writes_sub (unary_writes ..) (by decide), writes_sub (binary_writes ..) (by decide),
   writes_sub (nullary_writes ..) (by decide), writes_sub (unary_writes ..) (by decide), writes_sub (binary_writes ..) (by decide),
   writes_sub (unary_writes ..) (by decide), writes_sub (unary_writes ..) (by decide), writes_sub (unary_writes ..) (by decide),
   writes_sub (binary_writes ..) (by decide), writes_sub (unary_writes ..) (by decide), writes_sub (reshape_writes ..) (by decide),
   writes_sub (unary_writes ..) (by decide), writes_sub (unary_writes ..) (by decide), writes_sub (binary_writes ..) (by decide),
   writes_sub (unary_writes ..) (by decide), writes_sub (reshape_writes ..) (by decide), writes_sub (unary_writes ..) (by decide),
   writes_sub (unary_writes ..) (by decide), writes_sub (binary_writes ..) (by decide), writes_sub (nullary_writes ..) (by decide),
   writes_sub (unary_writes ..) (by decide), writes_sub (binary_writes ..) (by decide)⟩
theorem segBn0_keep (W : Valuation τ sig (Elt F)) (r : Ref sig .tc) (h : r ∉ segBn0_W) :
    after segBn0 W (no_index (Proc.devRef .tc r)) = W (Proc.devRef .tc r) :=
  after_of_writes_sub segBn0 W segBn0_writes h
theorem segBn0_out (W : Valuation τ sig (Elt F)) :
    after segBn0 W (no_index (Proc.devRef .tc main_v76)) = stBn (W (Proc.devRef .tc main_v52)) (W (Proc.devRef .tc main_v55)) (W (Proc.devRef .tc main_v56)) (stGamma 0 (W (Proc.devRef .tc main_arg10))) (stBeta 0 (W (Proc.devRef .tc main_arg11))) := by
  simp only [segBn0]
  after_results_simp
  rfl

abbrev segAgg1 : List (HloOp τ sig (Elt F)) :=
  [ StableHlo.nullary main_c_10 (constantI S_ 32 0#32),
    StableHlo.unary main_c_10 main_v77 (broadcastInDim S800000 ![] bcast_S_S800000 : (⟨S_, .i32⟩ : BufTy).Contents (Elt F) → (⟨S800000, .i32⟩ : BufTy).Contents (Elt F)),
    StableHlo.binary main_v15 main_v77 main_v78 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v79 (broadcastInDim S800000 ![] bcast_S_S800000 : (⟨S_, .i32⟩ : BufTy).Contents (Elt F) → (⟨S800000, .i32⟩ : BufTy).Contents (Elt F)),
    StableHlo.binary main_v15 main_v79 main_v80 (addi : (⟨S800000, .i32⟩ : BufTy).Contents (Elt F) → (⟨S800000, .i32⟩ : BufTy).Contents (Elt F) → (⟨S800000, .i32⟩ : BufTy).Contents (Elt F)),
    StableHlo.ternary main_v78 main_v80 main_v15 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v81 main_v82 (broadcastInDim S800000x1 ![0] bcast_S800000_S800000x1_0 : (⟨S800000, .i32⟩ : BufTy).Contents (Elt F) → (⟨S800000x1, .i32⟩ : BufTy).Contents (Elt F)),
    StableHlo.binary main_v76 main_v82 main_v83 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v83 main_v13 main_v84 (addf : (⟨S800000x128, .f32⟩ : BufTy).Contents (Elt F) → (⟨S800000x128, .f32⟩ : BufTy).Contents (Elt F) → (⟨S800000x128, .f32⟩ : BufTy).Contents (Elt F)),
    StableHlo.TRef.nullary main_call4.cst (constant S_ .f32 0x00000000#32),
    StableHlo.TRef.unary main_call4.cst main_call4.v0 (broadcastInDim S800000x128 ![] bcast_S_S800000x128),
    StableHlo.TRef.binary (.of main_v84) main_call4.v0 main_call4.v1 maximumf,
    StableHlo.nullary main_cst_12 (constant S_ .f32 0x00000000#32),
    StableHlo.unary main_cst_12 main_v86 (broadcastInDim S50000x128 ![] bcast_S_S50000x128 : (⟨S_, .f32⟩ : BufTy).Contents (Elt F) → (⟨S50000x128, .f32⟩ : BufTy).Contents (Elt F)),
    StableHlo.unary main_v17 main_v87 (broadcastInDim S800000x1 ![0] bcast_S800000_S800000x1_0 : (⟨S800000, .i32⟩ : BufTy).Contents (Elt F) → (⟨S800000x1, .i32⟩ : BufTy).Contents (Elt F)),
    StableHlo.ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The buffers `segAgg1` writes. -/
abbrev segAgg1_W : List (Ref sig .tc) := [main_c_10, main_v77, main_v78, main_c_11, main_v79, main_v80, main_v81, main_v82, main_v83, main_v84, main_call4_cst, main_call4_v0, main_v85, main_cst_12, main_v86, main_v87, main_v88]
theorem segAgg1_writes : (segAgg1 : List (HloOp τ sig (Elt F))).Forall fun op =>
    op.writes ⊆ (segAgg1_W.map (Proc.devRef (τ := τ) .tc)).toFinset :=
  ⟨writes_sub (nullary_writes ..) (by decide), writes_sub (unary_writes ..) (by decide), writes_sub (binary_writes ..) (by decide),
   writes_sub (nullary_writes ..) (by decide), writes_sub (unary_writes ..) (by decide), writes_sub (binary_writes ..) (by decide),
   writes_sub (ternary_writes ..) (by decide), writes_sub (unary_writes ..) (by decide), writes_sub (binary_writes ..) (by decide),
   writes_sub (binary_writes ..) (by decide), writes_sub (nullary_writes ..) (by decide), writes_sub (unary_writes ..) (by decide),
   writes_sub (binary_writes ..) (by decide), writes_sub (nullary_writes ..) (by decide), writes_sub (unary_writes ..) (by decide),
   writes_sub (unary_writes ..) (by decide), writes_sub (ternary_writes ..) (by decide)⟩
theorem segAgg1_keep (W : Valuation τ sig (Elt F)) (r : Ref sig .tc) (h : r ∉ segAgg1_W) :
    after segAgg1 W (no_index (Proc.devRef .tc r)) = W (Proc.devRef .tc r) :=
  after_of_writes_sub segAgg1 W segAgg1_writes h
theorem segAgg1_out (W : Valuation τ sig (Elt F)) :
    after segAgg1 W (no_index (Proc.devRef .tc main_v88)) = stAgg (W (Proc.devRef .tc main_v76)) (W (Proc.devRef .tc main_v13)) (stSrcOf (W (Proc.devRef .tc main_v15))) (stDstOf (W (Proc.devRef .tc main_v17))) := by
  simp only [segAgg1]
  after_results_simp
  rfl

abbrev segPre1 : List (HloOp τ sig (Elt F)) :=
  [ StableHlo.unary main_arg5 main_v89 ((extractStridedSlice S1 ![1] · slices_S3_S1_1) : (⟨S3, .f32⟩ : BufTy).Contents (Elt F) → (⟨S1, .f32⟩ : BufTy).Contents (Elt F)),
    StableHlo.reshape main_v89 main_v90 rfl shapeCasts_S1_S_,
    StableHlo.nullary main_cst_13 (constant S_ .f32 0x3F800000#32),
    StableHlo.binary main_cst_13 main_v90 main_v91 (addf : (⟨S_, .f32⟩ : BufTy).Contents (Elt F) → (⟨S_, .f32⟩ : BufTy).Contents (Elt F) → (⟨S_, .f32⟩ : BufTy).Contents (Elt F)),
    StableHlo.unary main_v91 main_v92 (broadcastInDim S50000x128 ![] bcast_S_S50000x128 : (⟨S_, .f32⟩ : BufTy).Contents (Elt F) → (⟨S50000x128, .f32⟩ : BufTy).Contents (Elt F)),
    StableHlo.binary main_v92 main_v76 main_v93 (mulf : (⟨S50000x128, .f32⟩ : BufTy).Contents (Elt F) → (⟨S50000x128, .f32⟩ : BufTy).Contents (Elt F) → (⟨S50000x128, .f32⟩ : BufTy).Contents (Elt F)),
    StableHlo.binary main_v93 main_v88 main_v94 (addf : (⟨S50000x128, .f32⟩ : BufTy).Contents (Elt F) → (⟨S50000x128, .f32⟩ : BufTy).Contents (Elt F) → (⟨S50000x128, .f32⟩ : BufTy).Contents (Elt F)),
    StableHlo.unary main_arg6 main_v95 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v95 main_v96 rfl shapeCasts_S1x128x128_S128x128,
    StableHlo.binary main_v94 main_v96 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v98 ((extractStridedSlice S1x128 ![1, 0] · slices_S3x128_S1x128_1_0) : (⟨S3x128, .f32⟩ : BufTy).Contents (Elt F) → (⟨S1x128, .f32⟩ : BufTy).Contents (Elt F)),
    StableHlo.reshape main_v98 main_v99 rfl shapeCasts_S1x128_S128,
    StableHlo.unary main_v99 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v101 main_v102 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v102) main_call5.v0 main_call5.v1 maximumf,
    StableHlo.unary main_arg8 main_v104 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v104 main_v105 rfl shapeCasts_S1x128x128_S128x128,
    StableHlo.binary main_v103 main_v105 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v107 ((extractStridedSlice S1x128 ![1, 0] · slices_S3x128_S1x128_1_0) : (⟨S3x128, .f32⟩ : BufTy).Contents (Elt F) → (⟨S1x128, .f32⟩ : BufTy).Contents (Elt F)),
    StableHlo.reshape main_v107 main_v108 rfl shapeCasts_S1x128_S128,
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v110 main_v111 (addf : (⟨S50000x128, .f32⟩ : BufTy).Contents (Elt F) → (⟨S50000x128, .f32⟩ : BufTy).Contents (Elt F) → (⟨S50000x128, .f32⟩ : BufTy).Contents (Elt F)) ]
/-- The buffers `segPre1` writes. -/
abbrev segPre1_W : List (Ref sig .tc) := [main_v89, main_v90, main_cst_13, main_v91, main_v92, main_v93, main_v94, main_v95, main_v96, main_v97, main_v98, main_v99, main_v100, main_v101, main_v102, main_call5_cst, main_call5_v0, main_v103, main_v104, main_v105, main_v106, main_v107, main_v108, main_v109, main_v110, main_v111]
theorem segPre1_writes : (segPre1 : List (HloOp τ sig (Elt F))).Forall fun op =>
    op.writes ⊆ (segPre1_W.map (Proc.devRef (τ := τ) .tc)).toFinset :=
  ⟨writes_sub (unary_writes ..) (by decide), writes_sub (reshape_writes ..) (by decide), writes_sub (nullary_writes ..) (by decide),
   writes_sub (binary_writes ..) (by decide), writes_sub (unary_writes ..) (by decide), writes_sub (binary_writes ..) (by decide),
   writes_sub (binary_writes ..) (by decide), writes_sub (unary_writes ..) (by decide), writes_sub (reshape_writes ..) (by decide),
   writes_sub (binary_writes ..) (by decide), writes_sub (unary_writes ..) (by decide), writes_sub (reshape_writes ..) (by decide),
   writes_sub (unary_writes ..) (by decide), writes_sub (unary_writes ..) (by decide), writes_sub (binary_writes ..) (by decide),
   writes_sub (nullary_writes ..) (by decide), writes_sub (unary_writes ..) (by decide), writes_sub (binary_writes ..) (by decide),
   writes_sub (unary_writes ..) (by decide), writes_sub (reshape_writes ..) (by decide), writes_sub (binary_writes ..) (by decide),
   writes_sub (unary_writes ..) (by decide), writes_sub (reshape_writes ..) (by decide), writes_sub (unary_writes ..) (by decide),
   writes_sub (unary_writes ..) (by decide), writes_sub (binary_writes ..) (by decide)⟩
theorem segPre1_keep (W : Valuation τ sig (Elt F)) (r : Ref sig .tc) (h : r ∉ segPre1_W) :
    after segPre1 W (no_index (Proc.devRef .tc r)) = W (Proc.devRef .tc r) :=
  after_of_writes_sub segPre1 W segPre1_writes h
theorem segPre1_out (W : Valuation τ sig (Elt F)) :
    after segPre1 W (no_index (Proc.devRef .tc main_v111)) = stPre (W (Proc.devRef .tc main_v76)) (W (Proc.devRef .tc main_v88)) (stEps 1 (W (Proc.devRef .tc main_arg5))) (stW1 1 (W (Proc.devRef .tc main_arg6))) (stB1 1 (W (Proc.devRef .tc main_arg7)))
        (stW2 1 (W (Proc.devRef .tc main_arg8))) (stB2 1 (W (Proc.devRef .tc main_arg9))) := by
  simp only [segPre1]
  after_results_simp
  rfl

abbrev segStat1 : List (HloOp τ sig (Elt F)) :=
  [ StableHlo.nullary main_cst_14 (constant S_ .f32 0x00000000#32),
    StableHlo.binary main_v111 main_cst_14 main_v112 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v113 (broadcastInDim S128 ![] bcast_S_S128 : (⟨S_, .f32⟩ : BufTy).Contents (Elt F) → (⟨S128, .f32⟩ : BufTy).Contents (Elt F)),
    StableHlo.binary main_v112 main_v113 main_v114 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call6.cst (constant S_ .f32 0x00000000#32),
    StableHlo.TRef.binary (.of main_v111) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v111) main_call6.v4 main_call6.v5 subf,
    StableHlo.TRef.binary main_call6.v5 main_call6.v5 main_call6.v6 mulf,
    StableHlo.TRef.unary (.of main_c_16) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]
/-- The buffers `segStat1` writes. -/
abbrev segStat1_W : List (Ref sig .tc) := [main_cst_14, main_v112, main_cst_15, main_v113, main_v114, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v115]
theorem segStat1_writes : (segStat1 : List (HloOp τ sig (Elt F))).Forall fun op =>
    op.writes ⊆ (segStat1_W.map (Proc.devRef (τ := τ) .tc)).toFinset :=
  ⟨writes_sub (nullary_writes ..) (by decide), writes_sub (binary_writes ..) (by decide), writes_sub (nullary_writes ..) (by decide),
   writes_sub (unary_writes ..) (by decide), writes_sub (binary_writes ..) (by decide), writes_sub (nullary_writes ..) (by decide),
   writes_sub (nullary_writes ..) (by decide), writes_sub (binary_writes ..) (by decide), writes_sub (unary_writes ..) (by decide),
   writes_sub (nullary_writes ..) (by decide), writes_sub (unary_writes ..) (by decide), writes_sub (binary_writes ..) (by decide),
   writes_sub (unary_writes ..) (by decide), writes_sub (binary_writes ..) (by decide), writes_sub (binary_writes ..) (by decide),
   writes_sub (unary_writes ..) (by decide), writes_sub (nullary_writes ..) (by decide), writes_sub (binary_writes ..) (by decide),
   writes_sub (nullary_writes ..) (by decide), writes_sub (binary_writes ..) (by decide), writes_sub (unary_writes ..) (by decide),
   writes_sub (binary_writes ..) (by decide), writes_sub (nullary_writes ..) (by decide), writes_sub (binary_writes ..) (by decide),
   writes_sub (nullary_writes ..) (by decide), writes_sub (unary_writes ..) (by decide), writes_sub (unary_writes ..) (by decide),
   writes_sub (ternary_writes ..) (by decide)⟩
theorem segStat1_keep (W : Valuation τ sig (Elt F)) (r : Ref sig .tc) (h : r ∉ segStat1_W) :
    after segStat1 W (no_index (Proc.devRef .tc r)) = W (Proc.devRef .tc r) :=
  after_of_writes_sub segStat1 W segStat1_writes h
theorem segStat1_mean (W : Valuation τ sig (Elt F)) :
    after segStat1 W (no_index (Proc.devRef .tc main_v114)) = stMean (W (Proc.devRef .tc main_v111)) := by
  simp only [segStat1]
  after_results_simp
  rfl
theorem segStat1_var (W : Valuation τ sig (Elt F)) :
    after segStat1 W (no_index (Proc.devRef .tc main_v115)) = stVar (W (Proc.devRef .tc main_v111)) := by
  simp only [segStat1]
  after_results_simp
  rfl

abbrev segBn1 : List (HloOp τ sig (Elt F)) :=
  [ StableHlo.unary main_v114 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v117 main_v118 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v119 (broadcastInDim S128 ![] bcast_S_S128 : (⟨S_, .f32⟩ : BufTy).Contents (Elt F) → (⟨S128, .f32⟩ : BufTy).Contents (Elt F)),
    StableHlo.binary main_v115 main_v119 main_v120 (addf : (⟨S128, .f32⟩ : BufTy).Contents (Elt F) → (⟨S128, .f32⟩ : BufTy).Contents (Elt F) → (⟨S128, .f32⟩ : BufTy).Contents (Elt F)),
    StableHlo.unary main_v120 main_v121 (Host.rsqrt : (⟨S128, .f32⟩ : BufTy).Contents (Elt F) → (⟨S128, .f32⟩ : BufTy).Contents (Elt F)),
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v118 main_v123 main_v124 (mulf : (⟨S50000x128, .f32⟩ : BufTy).Contents (Elt F) → (⟨S50000x128, .f32⟩ : BufTy).Contents (Elt F) → (⟨S50000x128, .f32⟩ : BufTy).Contents (Elt F)),
    StableHlo.unary main_arg10 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (mulf : (⟨S50000x128, .f32⟩ : BufTy).Contents (Elt F) → (⟨S50000x128, .f32⟩ : BufTy).Contents (Elt F) → (⟨S50000x128, .f32⟩ : BufTy).Contents (Elt F)),
    StableHlo.unary main_arg11 main_v130 ((extractStridedSlice S1x128 ![1, 0] · slices_S3x128_S1x128_1_0) : (⟨S3x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v133 main_v134 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v134) main_call7.v0 main_call7.v1 maximumf ]
/-- The buffers `segBn1` writes. -/
abbrev segBn1_W : List (Ref sig .tc) := [main_v116, main_v117, main_v118, main_cst_17, main_v119, main_v120, main_v121, main_v122, main_v123, main_v124, main_v125, main_v126, main_v127, main_v128, main_v129, main_v130, main_v131, main_v132, main_v133, main_v134, main_call7_cst, main_call7_v0, main_v135]
theorem segBn1_writes : (segBn1 : List (HloOp τ sig (Elt F))).Forall fun op =>
    op.writes ⊆ (segBn1_W.map (Proc.devRef (τ := τ) .tc)).toFinset :=
  ⟨writes_sub (unary_writes ..) (by decide), writes_sub (unary_writes ..) (by decide), writes_sub (binary_writes ..) (by decide),
   writes_sub (nullary_writes ..) (by decide), writes_sub (unary_writes ..) (by decide), writes_sub (binary_writes ..) (by decide),
   writes_sub (unary_writes ..) (by decide), writes_sub (unary_writes ..) (by decide), writes_sub (unary_writes ..) (by decide),
   writes_sub (binary_writes ..) (by decide), writes_sub (unary_writes ..) (by decide), writes_sub (reshape_writes ..) (by decide),
   writes_sub (unary_writes ..) (by decide), writes_sub (unary_writes ..) (by decide), writes_sub (binary_writes ..) (by decide),
   writes_sub (unary_writes ..) (by decide), writes_sub (reshape_writes ..) (by decide), writes_sub (unary_writes ..) (by decide),
   writes_sub (unary_writes ..) (by decide), writes_sub (binary_writes ..) (by decide), writes_sub (nullary_writes ..) (by decide),
   writes_sub (unary_writes ..) (by decide), writes_sub (binary_writes ..) (by decide)⟩
theorem segBn1_keep (W : Valuation τ sig (Elt F)) (r : Ref sig .tc) (h : r ∉ segBn1_W) :
    after segBn1 W (no_index (Proc.devRef .tc r)) = W (Proc.devRef .tc r) :=
  after_of_writes_sub segBn1 W segBn1_writes h
theorem segBn1_out (W : Valuation τ sig (Elt F)) :
    after segBn1 W (no_index (Proc.devRef .tc main_v135)) = stBn (W (Proc.devRef .tc main_v111)) (W (Proc.devRef .tc main_v114)) (W (Proc.devRef .tc main_v115)) (stGamma 1 (W (Proc.devRef .tc main_arg10))) (stBeta 1 (W (Proc.devRef .tc main_arg11))) := by
  simp only [segBn1]
  after_results_simp
  rfl

abbrev segAgg2 : List (HloOp τ sig (Elt F)) :=
  [ StableHlo.nullary main_c_18 (constantI S_ 32 0#32),
    StableHlo.unary main_c_18 main_v136 (broadcastInDim S800000 ![] bcast_S_S800000 : (⟨S_, .i32⟩ : BufTy).Contents (Elt F) → (⟨S800000, .i32⟩ : BufTy).Contents (Elt F)),
    StableHlo.binary main_v15 main_v136 main_v137 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v138 (broadcastInDim S800000 ![] bcast_S_S800000 : (⟨S_, .i32⟩ : BufTy).Contents (Elt F) → (⟨S800000, .i32⟩ : BufTy).Contents (Elt F)),
    StableHlo.binary main_v15 main_v138 main_v139 (addi : (⟨S800000, .i32⟩ : BufTy).Contents (Elt F) → (⟨S800000, .i32⟩ : BufTy).Contents (Elt F) → (⟨S800000, .i32⟩ : BufTy).Contents (Elt F)),
    StableHlo.ternary main_v137 main_v139 main_v15 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v140 main_v141 (broadcastInDim S800000x1 ![0] bcast_S800000_S800000x1_0 : (⟨S800000, .i32⟩ : BufTy).Contents (Elt F) → (⟨S800000x1, .i32⟩ : BufTy).Contents (Elt F)),
    StableHlo.binary main_v135 main_v141 main_v142 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v142 main_v13 main_v143 (addf : (⟨S800000x128, .f32⟩ : BufTy).Contents (Elt F) → (⟨S800000x128, .f32⟩ : BufTy).Contents (Elt F) → (⟨S800000x128, .f32⟩ : BufTy).Contents (Elt F)),
    StableHlo.TRef.nullary main_call8.cst (constant S_ .f32 0x00000000#32),
    StableHlo.TRef.unary main_call8.cst main_call8.v0 (broadcastInDim S800000x128 ![] bcast_S_S800000x128),
    StableHlo.TRef.binary (.of main_v143) main_call8.v0 main_call8.v1 maximumf,
    StableHlo.nullary main_cst_20 (constant S_ .f32 0x00000000#32),
    StableHlo.unary main_cst_20 main_v145 (broadcastInDim S50000x128 ![] bcast_S_S50000x128 : (⟨S_, .f32⟩ : BufTy).Contents (Elt F) → (⟨S50000x128, .f32⟩ : BufTy).Contents (Elt F)),
    StableHlo.unary main_v17 main_v146 (broadcastInDim S800000x1 ![0] bcast_S800000_S800000x1_0 : (⟨S800000, .i32⟩ : BufTy).Contents (Elt F) → (⟨S800000x1, .i32⟩ : BufTy).Contents (Elt F)),
    StableHlo.ternary main_v145 main_v146 main_v144 main_v147 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The buffers `segAgg2` writes. -/
abbrev segAgg2_W : List (Ref sig .tc) := [main_c_18, main_v136, main_v137, main_c_19, main_v138, main_v139, main_v140, main_v141, main_v142, main_v143, main_call8_cst, main_call8_v0, main_v144, main_cst_20, main_v145, main_v146, main_v147]
theorem segAgg2_writes : (segAgg2 : List (HloOp τ sig (Elt F))).Forall fun op =>
    op.writes ⊆ (segAgg2_W.map (Proc.devRef (τ := τ) .tc)).toFinset :=
  ⟨writes_sub (nullary_writes ..) (by decide), writes_sub (unary_writes ..) (by decide), writes_sub (binary_writes ..) (by decide),
   writes_sub (nullary_writes ..) (by decide), writes_sub (unary_writes ..) (by decide), writes_sub (binary_writes ..) (by decide),
   writes_sub (ternary_writes ..) (by decide), writes_sub (unary_writes ..) (by decide), writes_sub (binary_writes ..) (by decide),
   writes_sub (binary_writes ..) (by decide), writes_sub (nullary_writes ..) (by decide), writes_sub (unary_writes ..) (by decide),
   writes_sub (binary_writes ..) (by decide), writes_sub (nullary_writes ..) (by decide), writes_sub (unary_writes ..) (by decide),
   writes_sub (unary_writes ..) (by decide), writes_sub (ternary_writes ..) (by decide)⟩
theorem segAgg2_keep (W : Valuation τ sig (Elt F)) (r : Ref sig .tc) (h : r ∉ segAgg2_W) :
    after segAgg2 W (no_index (Proc.devRef .tc r)) = W (Proc.devRef .tc r) :=
  after_of_writes_sub segAgg2 W segAgg2_writes h
theorem segAgg2_out (W : Valuation τ sig (Elt F)) :
    after segAgg2 W (no_index (Proc.devRef .tc main_v147)) = stAgg (W (Proc.devRef .tc main_v135)) (W (Proc.devRef .tc main_v13)) (stSrcOf (W (Proc.devRef .tc main_v15))) (stDstOf (W (Proc.devRef .tc main_v17))) := by
  simp only [segAgg2]
  after_results_simp
  rfl

abbrev segPre2 : List (HloOp τ sig (Elt F)) :=
  [ StableHlo.unary main_arg5 main_v148 ((extractStridedSlice S1 ![2] · slices_S3_S1_2) : (⟨S3, .f32⟩ : BufTy).Contents (Elt F) → (⟨S1, .f32⟩ : BufTy).Contents (Elt F)),
    StableHlo.reshape main_v148 main_v149 rfl shapeCasts_S1_S_,
    StableHlo.nullary main_cst_21 (constant S_ .f32 0x3F800000#32),
    StableHlo.binary main_cst_21 main_v149 main_v150 (addf : (⟨S_, .f32⟩ : BufTy).Contents (Elt F) → (⟨S_, .f32⟩ : BufTy).Contents (Elt F) → (⟨S_, .f32⟩ : BufTy).Contents (Elt F)),
    StableHlo.unary main_v150 main_v151 (broadcastInDim S50000x128 ![] bcast_S_S50000x128 : (⟨S_, .f32⟩ : BufTy).Contents (Elt F) → (⟨S50000x128, .f32⟩ : BufTy).Contents (Elt F)),
    StableHlo.binary main_v151 main_v135 main_v152 (mulf : (⟨S50000x128, .f32⟩ : BufTy).Contents (Elt F) → (⟨S50000x128, .f32⟩ : BufTy).Contents (Elt F) → (⟨S50000x128, .f32⟩ : BufTy).Contents (Elt F)),
    StableHlo.binary main_v152 main_v147 main_v153 (addf : (⟨S50000x128, .f32⟩ : BufTy).Contents (Elt F) → (⟨S50000x128, .f32⟩ : BufTy).Contents (Elt F) → (⟨S50000x128, .f32⟩ : BufTy).Contents (Elt F)),
    StableHlo.unary main_arg6 main_v154 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v154 main_v155 rfl shapeCasts_S1x128x128_S128x128,
    StableHlo.binary main_v153 main_v155 main_v156 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v157 ((extractStridedSlice S1x128 ![2, 0] · slices_S3x128_S1x128_2_0) : (⟨S3x128, .f32⟩ : BufTy).Contents (Elt F) → (⟨S1x128, .f32⟩ : BufTy).Contents (Elt F)),
    StableHlo.reshape main_v157 main_v158 rfl shapeCasts_S1x128_S128,
    StableHlo.unary main_v158 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S50000x128 ![0, 1] bcast_S1x128_S50000x128_0_1 : (⟨S1x128, .f32⟩ : BufTy).Contents (Elt F) → (⟨S50000x128, .f32⟩ : BufTy).Contents (Elt F)),
    StableHlo.binary main_v156 main_v160 main_v161 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v161) main_call9.v0 main_call9.v1 maximumf,
    StableHlo.unary main_arg8 main_v163 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v163 main_v164 rfl shapeCasts_S1x128x128_S128x128,
    StableHlo.binary main_v162 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v166 ((extractStridedSlice S1x128 ![2, 0] · slices_S3x128_S1x128_2_0) : (⟨S3x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v165 main_v169 main_v170 (addf : (⟨S50000x128, .f32⟩ : BufTy).Contents (Elt F) → (⟨S50000x128, .f32⟩ : BufTy).Contents (Elt F) → (⟨S50000x128, .f32⟩ : BufTy).Contents (Elt F)) ]
/-- The buffers `segPre2` writes. -/
abbrev segPre2_W : List (Ref sig .tc) := [main_v148, main_v149, main_cst_21, main_v150, main_v151, main_v152, main_v153, main_v154, main_v155, main_v156, main_v157, main_v158, main_v159, main_v160, main_v161, main_call9_cst, main_call9_v0, main_v162, main_v163, main_v164, main_v165, main_v166, main_v167, main_v168, main_v169, main_v170]
theorem segPre2_writes : (segPre2 : List (HloOp τ sig (Elt F))).Forall fun op =>
    op.writes ⊆ (segPre2_W.map (Proc.devRef (τ := τ) .tc)).toFinset :=
  ⟨writes_sub (unary_writes ..) (by decide), writes_sub (reshape_writes ..) (by decide), writes_sub (nullary_writes ..) (by decide),
   writes_sub (binary_writes ..) (by decide), writes_sub (unary_writes ..) (by decide), writes_sub (binary_writes ..) (by decide),
   writes_sub (binary_writes ..) (by decide), writes_sub (unary_writes ..) (by decide), writes_sub (reshape_writes ..) (by decide),
   writes_sub (binary_writes ..) (by decide), writes_sub (unary_writes ..) (by decide), writes_sub (reshape_writes ..) (by decide),
   writes_sub (unary_writes ..) (by decide), writes_sub (unary_writes ..) (by decide), writes_sub (binary_writes ..) (by decide),
   writes_sub (nullary_writes ..) (by decide), writes_sub (unary_writes ..) (by decide), writes_sub (binary_writes ..) (by decide),
   writes_sub (unary_writes ..) (by decide), writes_sub (reshape_writes ..) (by decide), writes_sub (binary_writes ..) (by decide),
   writes_sub (unary_writes ..) (by decide), writes_sub (reshape_writes ..) (by decide), writes_sub (unary_writes ..) (by decide),
   writes_sub (unary_writes ..) (by decide), writes_sub (binary_writes ..) (by decide)⟩
theorem segPre2_keep (W : Valuation τ sig (Elt F)) (r : Ref sig .tc) (h : r ∉ segPre2_W) :
    after segPre2 W (no_index (Proc.devRef .tc r)) = W (Proc.devRef .tc r) :=
  after_of_writes_sub segPre2 W segPre2_writes h
theorem segPre2_out (W : Valuation τ sig (Elt F)) :
    after segPre2 W (no_index (Proc.devRef .tc main_v170)) = stPre (W (Proc.devRef .tc main_v135)) (W (Proc.devRef .tc main_v147)) (stEps 2 (W (Proc.devRef .tc main_arg5))) (stW1 2 (W (Proc.devRef .tc main_arg6))) (stB1 2 (W (Proc.devRef .tc main_arg7)))
        (stW2 2 (W (Proc.devRef .tc main_arg8))) (stB2 2 (W (Proc.devRef .tc main_arg9))) := by
  simp only [segPre2]
  after_results_simp
  rfl

abbrev segStat2 : List (HloOp τ sig (Elt F)) :=
  [ StableHlo.nullary main_cst_22 (constant S_ .f32 0x00000000#32),
    StableHlo.binary main_v170 main_cst_22 main_v171 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v172 (broadcastInDim S128 ![] bcast_S_S128 : (⟨S_, .f32⟩ : BufTy).Contents (Elt F) → (⟨S128, .f32⟩ : BufTy).Contents (Elt F)),
    StableHlo.binary main_v171 main_v172 main_v173 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call10.cst (constant S_ .f32 0x00000000#32),
    StableHlo.TRef.binary (.of main_v170) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v170) main_call10.v4 main_call10.v5 subf,
    StableHlo.TRef.binary main_call10.v5 main_call10.v5 main_call10.v6 mulf,
    StableHlo.TRef.unary (.of main_c_24) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b) ]
/-- The buffers `segStat2` writes. -/
abbrev segStat2_W : List (Ref sig .tc) := [main_cst_22, main_v171, main_cst_23, main_v172, main_v173, main_c_24, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v174]
theorem segStat2_writes : (segStat2 : List (HloOp τ sig (Elt F))).Forall fun op =>
    op.writes ⊆ (segStat2_W.map (Proc.devRef (τ := τ) .tc)).toFinset :=
  ⟨writes_sub (nullary_writes ..) (by decide), writes_sub (binary_writes ..) (by decide), writes_sub (nullary_writes ..) (by decide),
   writes_sub (unary_writes ..) (by decide), writes_sub (binary_writes ..) (by decide), writes_sub (nullary_writes ..) (by decide),
   writes_sub (nullary_writes ..) (by decide), writes_sub (binary_writes ..) (by decide), writes_sub (unary_writes ..) (by decide),
   writes_sub (nullary_writes ..) (by decide), writes_sub (unary_writes ..) (by decide), writes_sub (binary_writes ..) (by decide),
   writes_sub (unary_writes ..) (by decide), writes_sub (binary_writes ..) (by decide), writes_sub (binary_writes ..) (by decide),
   writes_sub (unary_writes ..) (by decide), writes_sub (nullary_writes ..) (by decide), writes_sub (binary_writes ..) (by decide),
   writes_sub (nullary_writes ..) (by decide), writes_sub (binary_writes ..) (by decide), writes_sub (unary_writes ..) (by decide),
   writes_sub (binary_writes ..) (by decide), writes_sub (nullary_writes ..) (by decide), writes_sub (binary_writes ..) (by decide),
   writes_sub (nullary_writes ..) (by decide), writes_sub (unary_writes ..) (by decide), writes_sub (unary_writes ..) (by decide),
   writes_sub (ternary_writes ..) (by decide)⟩
theorem segStat2_keep (W : Valuation τ sig (Elt F)) (r : Ref sig .tc) (h : r ∉ segStat2_W) :
    after segStat2 W (no_index (Proc.devRef .tc r)) = W (Proc.devRef .tc r) :=
  after_of_writes_sub segStat2 W segStat2_writes h
theorem segStat2_mean (W : Valuation τ sig (Elt F)) :
    after segStat2 W (no_index (Proc.devRef .tc main_v173)) = stMean (W (Proc.devRef .tc main_v170)) := by
  simp only [segStat2]
  after_results_simp
  rfl
theorem segStat2_var (W : Valuation τ sig (Elt F)) :
    after segStat2 W (no_index (Proc.devRef .tc main_v174)) = stVar (W (Proc.devRef .tc main_v170)) := by
  simp only [segStat2]
  after_results_simp
  rfl

abbrev segBn2 : List (HloOp τ sig (Elt F)) :=
  [ StableHlo.unary main_v173 main_v175 (broadcastInDim S1x128 ![1] bcast_S128_S1x128_1 : (⟨S128, .f32⟩ : BufTy).Contents (Elt F) → (⟨S1x128, .f32⟩ : BufTy).Contents (Elt F)),
    StableHlo.unary main_v175 main_v176 (broadcastInDim S50000x128 ![0, 1] bcast_S1x128_S50000x128_0_1 : (⟨S1x128, .f32⟩ : BufTy).Contents (Elt F) → (⟨S50000x128, .f32⟩ : BufTy).Contents (Elt F)),
    StableHlo.binary main_v170 main_v176 main_v177 (subf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v178 (broadcastInDim S128 ![] bcast_S_S128 : (⟨S_, .f32⟩ : BufTy).Contents (Elt F) → (⟨S128, .f32⟩ : BufTy).Contents (Elt F)),
    StableHlo.binary main_v174 main_v178 main_v179 (addf : (⟨S128, .f32⟩ : BufTy).Contents (Elt F) → (⟨S128, .f32⟩ : BufTy).Contents (Elt F) → (⟨S128, .f32⟩ : BufTy).Contents (Elt F)),
    StableHlo.unary main_v179 main_v180 (Host.rsqrt : (⟨S128, .f32⟩ : BufTy).Contents (Elt F) → (⟨S128, .f32⟩ : BufTy).Contents (Elt F)),
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v177 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_arg10 main_v184 ((extractStridedSlice S1x128 ![2, 0] · slices_S3x128_S1x128_2_0) : (⟨S3x128, .f32⟩ : BufTy).Contents (Elt F) → (⟨S1x128, .f32⟩ : BufTy).Contents (Elt F)),
    StableHlo.reshape main_v184 main_v185 rfl shapeCasts_S1x128_S128,
    StableHlo.unary main_v185 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v187 main_v188 (mulf : (⟨S50000x128, .f32⟩ : BufTy).Contents (Elt F) → (⟨S50000x128, .f32⟩ : BufTy).Contents (Elt F) → (⟨S50000x128, .f32⟩ : BufTy).Contents (Elt F)),
    StableHlo.unary main_arg11 main_v189 ((extractStridedSlice S1x128 ![2, 0] · slices_S3x128_S1x128_2_0) : (⟨S3x128, .f32⟩ : BufTy).Contents (Elt F) → (⟨S1x128, .f32⟩ : BufTy).Contents (Elt F)),
    StableHlo.reshape main_v189 main_v190 rfl shapeCasts_S1x128_S128,
    StableHlo.unary main_v190 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v192 main_v193 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v193) main_call11.v0 main_call11.v1 maximumf ]
/-- The buffers `segBn2` writes. -/
abbrev segBn2_W : List (Ref sig .tc) := [main_v175, main_v176, main_v177, main_cst_25, main_v178, main_v179, main_v180, main_v181, main_v182, main_v183, main_v184, main_v185, main_v186, main_v187, main_v188, main_v189, main_v190, main_v191, main_v192, main_v193, main_call11_cst, main_call11_v0, main_v194]
theorem segBn2_writes : (segBn2 : List (HloOp τ sig (Elt F))).Forall fun op =>
    op.writes ⊆ (segBn2_W.map (Proc.devRef (τ := τ) .tc)).toFinset :=
  ⟨writes_sub (unary_writes ..) (by decide), writes_sub (unary_writes ..) (by decide), writes_sub (binary_writes ..) (by decide),
   writes_sub (nullary_writes ..) (by decide), writes_sub (unary_writes ..) (by decide), writes_sub (binary_writes ..) (by decide),
   writes_sub (unary_writes ..) (by decide), writes_sub (unary_writes ..) (by decide), writes_sub (unary_writes ..) (by decide),
   writes_sub (binary_writes ..) (by decide), writes_sub (unary_writes ..) (by decide), writes_sub (reshape_writes ..) (by decide),
   writes_sub (unary_writes ..) (by decide), writes_sub (unary_writes ..) (by decide), writes_sub (binary_writes ..) (by decide),
   writes_sub (unary_writes ..) (by decide), writes_sub (reshape_writes ..) (by decide), writes_sub (unary_writes ..) (by decide),
   writes_sub (unary_writes ..) (by decide), writes_sub (binary_writes ..) (by decide), writes_sub (nullary_writes ..) (by decide),
   writes_sub (unary_writes ..) (by decide), writes_sub (binary_writes ..) (by decide)⟩
theorem segBn2_keep (W : Valuation τ sig (Elt F)) (r : Ref sig .tc) (h : r ∉ segBn2_W) :
    after segBn2 W (no_index (Proc.devRef .tc r)) = W (Proc.devRef .tc r) :=
  after_of_writes_sub segBn2 W segBn2_writes h
theorem segBn2_out (W : Valuation τ sig (Elt F)) :
    after segBn2 W (no_index (Proc.devRef .tc main_v194)) = stBn (W (Proc.devRef .tc main_v170)) (W (Proc.devRef .tc main_v173)) (W (Proc.devRef .tc main_v174)) (stGamma 2 (W (Proc.devRef .tc main_arg10))) (stBeta 2 (W (Proc.devRef .tc main_arg11))) := by
  simp only [segBn2]
  after_results_simp
  rfl

abbrev segHead : List (HloOp τ sig (Elt F)) :=
  [ StableHlo.binary main_v194 main_arg12 main_v195 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S50000x128 ![0, 1] bcast_S1x128_S50000x128_0_1 : (⟨S1x128, .f32⟩ : BufTy).Contents (Elt F) → (⟨S50000x128, .f32⟩ : BufTy).Contents (Elt F)),
    StableHlo.binary main_v195 main_v197 main_v198 (addf : (⟨S50000x128, .f32⟩ : BufTy).Contents (Elt F) → (⟨S50000x128, .f32⟩ : BufTy).Contents (Elt F) → (⟨S50000x128, .f32⟩ : BufTy).Contents (Elt F)),
    StableHlo.TRef.nullary main_call12.cst (constant S_ .f32 0x00000000#32),
    StableHlo.TRef.unary main_call12.cst main_call12.v0 (broadcastInDim S50000x128 ![] bcast_S_S50000x128),
    StableHlo.TRef.binary (.of main_v198) main_call12.v0 main_call12.v1 maximumf,
    StableHlo.binary main_v199 main_arg14 main_v200 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S50000x128 ![0, 1] bcast_S1x128_S50000x128_0_1 : (⟨S1x128, .f32⟩ : BufTy).Contents (Elt F) → (⟨S50000x128, .f32⟩ : BufTy).Contents (Elt F)),
    StableHlo.binary main_v200 main_v202 main_v203 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v203) main_call13.v0 main_call13.v1 maximumf,
    StableHlo.binary main_v204 main_arg16 main_v205 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg17 main_v206 (broadcastInDim S1x1 ![1] bcast_S1_S1x1_1 : (⟨S1, .f32⟩ : BufTy).Contents (Elt F) → (⟨S1x1, .f32⟩ : BufTy).Contents (Elt F)),
    StableHlo.unary main_v206 main_v207 (broadcastInDim S50000x1 ![0, 1] bcast_S1x1_S50000x1_0_1 : (⟨S1x1, .f32⟩ : BufTy).Contents (Elt F) → (⟨S50000x1, .f32⟩ : BufTy).Contents (Elt F)),
    StableHlo.binary main_v205 main_v207 main_v208 (addf : (⟨S50000x1, .f32⟩ : BufTy).Contents (Elt F) → (⟨S50000x1, .f32⟩ : BufTy).Contents (Elt F) → (⟨S50000x1, .f32⟩ : BufTy).Contents (Elt F)) ]
/-- The buffers `segHead` writes. -/
abbrev segHead_W : List (Ref sig .tc) := [main_v195, main_v196, main_v197, main_v198, main_call12_cst, main_call12_v0, main_v199, main_v200, main_v201, main_v202, main_v203, main_call13_cst, main_call13_v0, main_v204, main_v205, main_v206, main_v207, main_v208]
theorem segHead_writes : (segHead : List (HloOp τ sig (Elt F))).Forall fun op =>
    op.writes ⊆ (segHead_W.map (Proc.devRef (τ := τ) .tc)).toFinset :=
  ⟨writes_sub (binary_writes ..) (by decide), writes_sub (unary_writes ..) (by decide), writes_sub (unary_writes ..) (by decide),
   writes_sub (binary_writes ..) (by decide), writes_sub (nullary_writes ..) (by decide), writes_sub (unary_writes ..) (by decide),
   writes_sub (binary_writes ..) (by decide), writes_sub (binary_writes ..) (by decide), writes_sub (unary_writes ..) (by decide),
   writes_sub (unary_writes ..) (by decide), writes_sub (binary_writes ..) (by decide), writes_sub (nullary_writes ..) (by decide),
   writes_sub (unary_writes ..) (by decide), writes_sub (binary_writes ..) (by decide), writes_sub (binary_writes ..) (by decide),
   writes_sub (unary_writes ..) (by decide), writes_sub (unary_writes ..) (by decide), writes_sub (binary_writes ..) (by decide)⟩
theorem segHead_keep (W : Valuation τ sig (Elt F)) (r : Ref sig .tc) (h : r ∉ segHead_W) :
    after segHead W (no_index (Proc.devRef .tc r)) = W (Proc.devRef .tc r) :=
  after_of_writes_sub segHead W segHead_writes h
theorem segHead_out (W : Valuation τ sig (Elt F)) :
    after segHead W (no_index (Proc.devRef .tc main_v208)) = stHead (W (Proc.devRef .tc main_v194)) (W (Proc.devRef .tc main_arg12)) (W (Proc.devRef .tc main_arg13)) (W (Proc.devRef .tc main_arg14)) (W (Proc.devRef .tc main_arg15))
        (W (Proc.devRef .tc main_arg16)) (W (Proc.devRef .tc main_arg17)) := by
  simp only [segHead]
  after_results_simp
  rfl

/-! ## The whole line -/

/-- The four windows concatenated are the stages concatenated: the same operations in the same order. -/
theorem ops_eq_segs : (ops : List (HloOp τ sig (Elt F))) =
    segEmb ++ (segAgg0 ++ (segPre0 ++ (segStat0 ++ (segBn0 ++ (segAgg1 ++ (segPre1 ++ (segStat1 ++ (segBn1 ++ (segAgg2 ++ (segPre2 ++ (segStat2 ++ (segBn2 ++ (segHead))))))))))))) := rfl

/-- The fold of @main's operations at the result buffer is the stages' composition at the arguments' contents. -/
theorem result_eq (V : Valuation τ sig (Elt F)) :
    after ops V (main_v208 : DevRef τ sig) =
      refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [ops_eq_segs]
  simp (disch := decide) only [after_append, segEmb_x0, segEmb_ea, segEmb_col0, segEmb_col1, segAgg0_out, segPre0_out, segStat0_mean, segStat0_var, segBn0_out, segAgg1_out, segPre1_out, segStat1_mean, segStat1_var, segBn1_out, segAgg2_out, segPre2_out, segStat2_mean, segStat2_var, segBn2_out, segHead_out,
    segEmb_keep, segAgg0_keep, segPre0_keep, segStat0_keep, segBn0_keep, segAgg1_keep, segPre1_keep, segStat1_keep, segBn1_keep, segAgg2_keep, segPre2_keep, segStat2_keep, segBn2_keep, segHead_keep]
  rfl

theorem arg0_eq (V : Valuation τ sig (Elt F)) : after ops V (main_arg0 : DevRef τ sig) = V (main_arg0 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg1_eq (V : Valuation τ sig (Elt F)) : after ops V (main_arg1 : DevRef τ sig) = V (main_arg1 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg2_eq (V : Valuation τ sig (Elt F)) : after ops V (main_arg2 : DevRef τ sig) = V (main_arg2 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg3_eq (V : Valuation τ sig (Elt F)) : after ops V (main_arg3 : DevRef τ sig) = V (main_arg3 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg4_eq (V : Valuation τ sig (Elt F)) : after ops V (main_arg4 : DevRef τ sig) = V (main_arg4 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg5_eq (V : Valuation τ sig (Elt F)) : after ops V (main_arg5 : DevRef τ sig) = V (main_arg5 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg6_eq (V : Valuation τ sig (Elt F)) : after ops V (main_arg6 : DevRef τ sig) = V (main_arg6 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg7_eq (V : Valuation τ sig (Elt F)) : after ops V (main_arg7 : DevRef τ sig) = V (main_arg7 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg8_eq (V : Valuation τ sig (Elt F)) : after ops V (main_arg8 : DevRef τ sig) = V (main_arg8 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg9_eq (V : Valuation τ sig (Elt F)) : after ops V (main_arg9 : DevRef τ sig) = V (main_arg9 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg10_eq (V : Valuation τ sig (Elt F)) : after ops V (main_arg10 : DevRef τ sig) = V (main_arg10 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg11_eq (V : Valuation τ sig (Elt F)) : after ops V (main_arg11 : DevRef τ sig) = V (main_arg11 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg12_eq (V : Valuation τ sig (Elt F)) : after ops V (main_arg12 : DevRef τ sig) = V (main_arg12 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg13_eq (V : Valuation τ sig (Elt F)) : after ops V (main_arg13 : DevRef τ sig) = V (main_arg13 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg14_eq (V : Valuation τ sig (Elt F)) : after ops V (main_arg14 : DevRef τ sig) = V (main_arg14 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg15_eq (V : Valuation τ sig (Elt F)) : after ops V (main_arg15 : DevRef τ sig) = V (main_arg15 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg16_eq (V : Valuation τ sig (Elt F)) : after ops V (main_arg16 : DevRef τ sig) = V (main_arg16 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]
theorem arg17_eq (V : Valuation τ sig (Elt F)) : after ops V (main_arg17 : DevRef τ sig) = V (main_arg17 : DevRef τ sig) := by
  rw [ops_eq_segs]
  simp (disch := decide) only [after_append, segEmb_keep, segAgg0_keep, segPre0_keep, segStat0_keep, segBn0_keep, segAgg1_keep, segPre1_keep, segStat1_keep, segBn1_keep, segAgg2_keep, segPre2_keep, segStat2_keep, segBn2_keep, segHead_keep]

end Cert.ReferenceIdeal.Hand

end
-- ==== Proof.RefModel.lean ====
/- The reference's layered result is the common model: stage by stage, the reference's host terms at the ideal
   values are the row-wise mathematics (the perceptrons as finite sums over the 128 hidden units, the
   normalization entry by entry) over the same embeddings, aggregation and column statistics. -/
import proofs.«124610_j72327249264834_2_alg».proof.Proof.RefRead
import proofs.«124610_j72327249264834_2_alg».proof.Proof.KModel
import Idealize.ShloMosaic.Lib.StackMember
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.ValueIdx Cert.Spec

/-! ## The stages the two programs spell alike -/

theorem stX0_eq (a0 : IVec S50000 32) (a3 : FVec Ideal S4x128 .f32) :
    stX0 (F := Ideal) a0 a3 = Cert.KernelIdeal.Stage.x0 a0 a3 := rfl
theorem stEa_eq (a1 : IVec S800000 32) (a4 : FVec Ideal S3x128 .f32) :
    stEa (F := Ideal) a1 a4 = Cert.KernelIdeal.Stage.ea a1 a4 := rfl
theorem stCol0_eq (a2 : IVec S2x800000 32) : stCol0 a2 = Cert.KernelIdeal.Stage.src a2 := rfl
theorem stCol1_eq (a2 : IVec S2x800000 32) : stCol1 a2 = Cert.KernelIdeal.Stage.dst a2 := rfl
theorem stAgg_eq (x : FVec Ideal S50000x128 .f32) (e : FVec Ideal S800000x128 .f32) (s d : IVec S800000 32) :
    stAgg (F := Ideal) x e (stSrcOf s) (stDstOf d) = Cert.KernelIdeal.Stage.agg x e s d := rfl
theorem stMean_eq (h : FVec Ideal S50000x128 .f32) : stMean (F := Ideal) h = Cert.KernelIdeal.Stage.meanArr h := rfl
theorem stVar_eq (h : FVec Ideal S50000x128 .f32) : stVar (F := Ideal) h = Cert.KernelIdeal.Stage.varArr h := rfl

/-! ## The layout operations read at an index -/

section Apply
variable {α : Type}

/-- A scalar broadcast over the node array reads the scalar everywhere. -/
theorem bcastNode_apply (dims : Fin S_.rank → Fin S50000x128.rank) (h : S_.BroadcastsInDim S50000x128 dims)
    (v : S_.Idx → α) (j : S50000x128.Idx) : broadcastInDim S50000x128 dims h v j = v ix0 :=
  broadcastInDim_apply dims h v j ix0 (fun a => a.elim0)

/-- A scalar broadcast over a 128-vector reads the scalar everywhere. -/
theorem bcastVec_apply (dims : Fin S_.rank → Fin S128.rank) (h : S_.BroadcastsInDim S128 dims)
    (v : S_.Idx → α) (j : S128.Idx) : broadcastInDim S128 dims h v j = v ix0 :=
  broadcastInDim_apply dims h v j ix0 (fun a => a.elim0)

/-- A 128-vector as a one-row matrix reads, at column `c`, entry `c`. -/
theorem rowVec_apply (b : S128.Idx → α) (c : Fin 128) :
    broadcastInDim S1x128 ![1] bcast_S128_S1x128_1 b (ix2 (0 : Fin 1) c) = b (ix1 c) :=
  broadcastInDim_apply ![1] bcast_S128_S1x128_1 b (ix2 (0 : Fin 1) c) (ix1 c) (fun a => by
    match a with
    | ⟨0, _⟩ => rfl)

/-- A 128-vector repeated along the nodes reads, at (r, c), entry `c`. -/
theorem stRow_apply (b : FVec Ideal S128 .f32) (r : Fin 50000) (c : Fin 128) :
    stRow b (ix2 r c) = b (ix1 c) := by
  unfold stRow
  rw [broadcastInDim_oneRow_apply (m := 50000) (n := 128)]
  exact rowVec_apply b c

end Apply

/-- The node-by-128 product at (r, c): the sum over the contracted coordinate. -/
theorem dot128_apply (A : FVec Ideal S50000x128 .f32) (B : FVec Ideal S128x128 .f32) (r : Fin 50000) (c : Fin 128) :
    Host.dotGeneral dot_S50000x128_S128x128_S50000x128_1_0_0_1_n_n none A B (ix2 r c)
      = ∑ i : Fin 128, A (ix2 r i) * B (ix2 i c) :=
  StackMember.dotGeneral_plain_apply (m := 50000) (n := 128) (k := 128) none A B r c

/-- The node-by-1 product at (r, c). -/
theorem dot1_apply (A : FVec Ideal S50000x128 .f32) (B : FVec Ideal S128x1 .f32) (r : Fin 50000) (c : Fin 1) :
    Host.dotGeneral dot_S50000x128_S128x1_S50000x1_1_0_0_1_n_n none A B (ix2 r c)
      = ∑ i : Fin 128, A (ix2 r i) * B (ix2 i c) :=
  StackMember.dotGeneral_plain_apply (m := 50000) (n := 1) (k := 128) none A B r c

/-- max(·, 0) at an index. -/
theorem stRelu_apply (h : FVec Ideal S50000x128 .f32) (j : S50000x128.Idx) : stRelu h j = max (h j) 0 := by
  unfold stRelu
  rw [maximumf_apply, bcastNode_apply, constant_apply, Ideal.ofBits_zero_f32]

/-! ## The perceptrons and the normalization, index by index -/

/-- A layer before its normalization is the row-wise perceptron, the factor being 1 + eps. -/
theorem stPre_eq (x agg : FVec Ideal S50000x128 .f32) (eps : FVec Ideal S_ .f32) (W1 : FVec Ideal S128x128 .f32)
    (b1 : FVec Ideal S128 .f32) (W2 : FVec Ideal S128x128 .f32) (b2 : FVec Ideal S128 .f32) :
    stPre x agg eps W1 b1 W2 b2
      = nodeMlp x agg (Ideal.ofBits .f32 0x3F800000#32 + eps ix0) W1 (fun k => b1 (ix1 k)) W2 (fun k => b2 (ix1 k)) := by
  funext j
  obtain ⟨r, c, rfl⟩ : ∃ (r : Fin 50000) (c : Fin 128), j = ix2 r c := ⟨j 0, j 1, eq_ix2 j⟩
  rw [nodeMlp_apply]
  simp only [stPre, nodeRow, nodeHidden, addf_apply, mulf_apply, dot128_apply, stRow_apply, stRelu_apply, bcastNode_apply,
    constant_apply]
  simp only [mul_comm (Ideal.ofBits .f32 0x3F800000#32 + eps ix0)]

/-- The host's reciprocal square root at an index. -/
theorem hostRsqrt_apply {s : Shape} (v : FVec Ideal s .f32) (i : s.Idx) : Host.rsqrt v i = Ideal.rsqrt (v i) := rfl

/-- The normalization is the entry-wise one, the statistics read as vectors. -/
theorem stBn_eq (h : FVec Ideal S50000x128 .f32) (mu var gamma beta : FVec Ideal S128 .f32) :
    stBn h mu var gamma beta
      = bnAct h (fun k => mu (ix1 k)) (fun k => Ideal.rsqrt (var (ix1 k) + Ideal.ofBits .f32 0x3727C5AC#32))
          (fun k => gamma (ix1 k)) (fun k => beta (ix1 k)) := by
  funext j
  obtain ⟨r, c, rfl⟩ : ∃ (r : Fin 50000) (c : Fin 128), j = ix2 r c := ⟨j 0, j 1, eq_ix2 j⟩
  rw [bnAct_apply]
  simp only [stBn, bnRow, stRelu_apply, addf_apply, mulf_apply, subf_apply, stRow_apply, hostRsqrt_apply, bcastVec_apply,
    constant_apply]

/-- The last bias at (r, c): the one entry. -/
theorem outBias_apply (a17 : FVec Ideal S1 .f32) (r : Fin 50000) (c : Fin 1) :
    broadcastInDim S50000x1 ![0, 1] bcast_S1x1_S50000x1_0_1 (broadcastInDim S1x1 ![1] bcast_S1_S1x1_1 a17) (ix2 r c)
      = a17 (ix1 (0 : Fin 1)) := by
  rw [broadcastInDim_oneRow_apply (m := 50000) (n := 1)]
  exact broadcastInDim_apply ![1] bcast_S1_S1x1_1 a17 (ix2 (0 : Fin 1) c) (ix1 (0 : Fin 1)) (fun a => by
    match a with
    | ⟨0, _⟩ => rfl)

/-- The head is the row-wise three-layer perceptron. -/
theorem stHead_eq (x : FVec Ideal S50000x128 .f32) (a12 : FVec Ideal S128x128 .f32) (a13 : FVec Ideal S128 .f32)
    (a14 : FVec Ideal S128x128 .f32) (a15 : FVec Ideal S128 .f32) (a16 : FVec Ideal S128x1 .f32) (a17 : FVec Ideal S1 .f32) :
    stHead x a12 a13 a14 a15 a16 a17
      = head x a12 (fun k => a13 (ix1 k)) a14 (fun k => a15 (ix1 k)) a16 (a17 (ix1 (0 : Fin 1))) := by
  funext j
  obtain ⟨r, c, rfl⟩ : ∃ (r : Fin 50000) (c : Fin 1), j = ix2 r c := ⟨j 0, j 1, eq_ix2 j⟩
  rw [head_apply]
  simp only [stHead, headRow, headHidden2, headHidden1, addf_apply, dot128_apply, dot1_apply, stRow_apply, stRelu_apply]
  rw [outBias_apply]

/-! ## The kernel program's parameter pieces read at an index -/

open Cert.KernelIdeal.Stage in
/-- A vector as a one-row matrix reads, at column `k`, entry `k`. -/
theorem rowOf_apply (u : FVec Ideal S128 .f32) (k : Fin 128) : rowOf u (ix2 (0 : Fin 1) k) = u (ix1 k) :=
  shapeCast_a_1a_apply u _ 0 k

/-- A scalar as a one-entry matrix reads the scalar. -/
theorem cast11_apply {α : Type} (v : S_.Idx → α) (h : S_.ShapeCasts S1x1) :
    shapeCast S1x1 v h (ix2 (0 : Fin 1) (0 : Fin 1)) = v ix0 :=
  shapeCast_apply v h _ ix0 (by rfl)

/-- A scalar broadcast over a one-row matrix reads the scalar everywhere. -/
theorem bcastRow_apply {α : Type} (dims : Fin S_.rank → Fin S1x128.rank) (h : S_.BroadcastsInDim S1x128 dims)
    (v : S_.Idx → α) (j : S1x128.Idx) : broadcastInDim S1x128 dims h v j = v ix0 :=
  broadcastInDim_apply dims h v j ix0 (fun a => a.elim0)

open Cert.KernelIdeal.Stage in
/-- The reciprocal standard deviations' row reads, at column `k`, rsqrt (v k + 1e-5). -/
theorem invRow_apply (v : FVec Ideal S128 .f32) (k : Fin 128) :
    invRow v (ix2 (0 : Fin 1) k) = Ideal.rsqrt (v (ix1 k) + Ideal.ofBits .f32 0x3727C5AC#32) := by
  unfold invRow
  rw [hostRsqrt_apply, addf_apply, shapeCast_a_1a_apply, bcastRow_apply, constant_apply]

/-! ### Layer 0 -/

open Cert.KernelIdeal.Stage in
theorem scale0_apply (a5 : FVec Ideal S3 .f32) :
    scale0 a5 (ix2 (0 : Fin 1) (0 : Fin 1)) = Ideal.ofBits .f32 0x3F800000#32 + stEps 0 a5 ix0 := by
  unfold scale0
  rw [cast11_apply]
  rfl

open Cert.KernelIdeal.Stage in
theorem wA0_eq (a6 : FVec Ideal S3x128x128 .f32) : wA0 a6 = stW1 0 a6 := rfl
open Cert.KernelIdeal.Stage in
theorem wB0_eq (a8 : FVec Ideal S3x128x128 .f32) : wB0 a8 = stW2 0 a8 := rfl

open Cert.KernelIdeal.Stage in
theorem bA0_apply (a7 : FVec Ideal S3x128 .f32) (k : Fin 128) : bA0 a7 (ix2 (0 : Fin 1) k) = stB1 0 a7 (ix1 k) :=
  shapeCast_a_1a_apply (stB1 0 a7) _ 0 k
open Cert.KernelIdeal.Stage in
theorem bB0_apply (a9 : FVec Ideal S3x128 .f32) (k : Fin 128) : bB0 a9 (ix2 (0 : Fin 1) k) = stB2 0 a9 (ix1 k) :=
  shapeCast_a_1a_apply (stB2 0 a9) _ 0 k
open Cert.KernelIdeal.Stage in
theorem gamma0_apply (a10 : FVec Ideal S3x128 .f32) (k : Fin 128) : gamma0 a10 (ix2 (0 : Fin 1) k) = stGamma 0 a10 (ix1 k) :=
  shapeCast_a_1a_apply (stGamma 0 a10) _ 0 k
open Cert.KernelIdeal.Stage in
theorem beta0_apply (a11 : FVec Ideal S3x128 .f32) (k : Fin 128) : beta0 a11 (ix2 (0 : Fin 1) k) = stBeta 0 a11 (ix1 k) :=
  shapeCast_a_1a_apply (stBeta 0 a11) _ 0 k

/-- Layer 0 of the reference is layer 0 of the model. -/
theorem stLayer0_eq (x : FVec Ideal S50000x128 .f32) (e : FVec Ideal S800000x128 .f32) (s d : IVec S800000 32)
    (a5 : FVec Ideal S3 .f32) (a6 : FVec Ideal S3x128x128 .f32) (a7 : FVec Ideal S3x128 .f32) (a8 : FVec Ideal S3x128x128 .f32)
    (a9 a10 a11 : FVec Ideal S3x128 .f32) :
    stLayer 0 x e (stSrcOf s) (stDstOf d) a5 a6 a7 a8 a9 a10 a11 = Cert.Model.layer0 x e s d a5 a6 a7 a8 a9 a10 a11 := by
  unfold stLayer stNorm Cert.Model.layer0 Cert.Model.norm0 Cert.Model.pre0
  rw [stBn_eq, stPre_eq, stAgg_eq]
  simp only [scale0_apply, wA0_eq, wB0_eq, bA0_apply, bB0_apply, gamma0_apply, beta0_apply, rowOf_apply, invRow_apply,
    stMean_eq, stVar_eq]

/-! ### Layer 1 -/

open Cert.KernelIdeal.Stage in
theorem scale1_apply (a5 : FVec Ideal S3 .f32) :
    scale1 a5 (ix2 (0 : Fin 1) (0 : Fin 1)) = Ideal.ofBits .f32 0x3F800000#32 + stEps 1 a5 ix0 := by
  unfold scale1
  rw [cast11_apply]
  rfl

open Cert.KernelIdeal.Stage in
theorem wA1_eq (a6 : FVec Ideal S3x128x128 .f32) : wA1 a6 = stW1 1 a6 := rfl
open Cert.KernelIdeal.Stage in
theorem wB1_eq (a8 : FVec Ideal S3x128x128 .f32) : wB1 a8 = stW2 1 a8 := rfl

open Cert.KernelIdeal.Stage in
theorem bA1_apply (a7 : FVec Ideal S3x128 .f32) (k : Fin 128) : bA1 a7 (ix2 (0 : Fin 1) k) = stB1 1 a7 (ix1 k) :=
  shapeCast_a_1a_apply (stB1 1 a7) _ 0 k
open Cert.KernelIdeal.Stage in
theorem bB1_apply (a9 : FVec Ideal S3x128 .f32) (k : Fin 128) : bB1 a9 (ix2 (0 : Fin 1) k) = stB2 1 a9 (ix1 k) :=
  shapeCast_a_1a_apply (stB2 1 a9) _ 0 k
open Cert.KernelIdeal.Stage in
theorem gamma1_apply (a10 : FVec Ideal S3x128 .f32) (k : Fin 128) : gamma1 a10 (ix2 (0 : Fin 1) k) = stGamma 1 a10 (ix1 k) :=
  shapeCast_a_1a_apply (stGamma 1 a10) _ 0 k
open Cert.KernelIdeal.Stage in
theorem beta1_apply (a11 : FVec Ideal S3x128 .f32) (k : Fin 128) : beta1 a11 (ix2 (0 : Fin 1) k) = stBeta 1 a11 (ix1 k) :=
  shapeCast_a_1a_apply (stBeta 1 a11) _ 0 k

/-- Layer 1 of the reference is layer 1 of the model. -/
theorem stLayer1_eq (x : FVec Ideal S50000x128 .f32) (e : FVec Ideal S800000x128 .f32) (s d : IVec S800000 32)
    (a5 : FVec Ideal S3 .f32) (a6 : FVec Ideal S3x128x128 .f32) (a7 : FVec Ideal S3x128 .f32) (a8 : FVec Ideal S3x128x128 .f32)
    (a9 a10 a11 : FVec Ideal S3x128 .f32) :
    stLayer 1 x e (stSrcOf s) (stDstOf d) a5 a6 a7 a8 a9 a10 a11 = Cert.Model.layer1 x e s d a5 a6 a7 a8 a9 a10 a11 := by
  unfold stLayer stNorm Cert.Model.layer1 Cert.Model.norm1 Cert.Model.pre1
  rw [stBn_eq, stPre_eq, stAgg_eq]
  simp only [scale1_apply, wA1_eq, wB1_eq, bA1_apply, bB1_apply, gamma1_apply, beta1_apply, rowOf_apply, invRow_apply,
    stMean_eq, stVar_eq]

/-! ### Layer 2 -/

open Cert.KernelIdeal.Stage in
theorem scale2_apply (a5 : FVec Ideal S3 .f32) :
    scale2 a5 (ix2 (0 : Fin 1) (0 : Fin 1)) = Ideal.ofBits .f32 0x3F800000#32 + stEps 2 a5 ix0 := by
  unfold scale2
  rw [cast11_apply]
  rfl

open Cert.KernelIdeal.Stage in
theorem wA2_eq (a6 : FVec Ideal S3x128x128 .f32) : wA2 a6 = stW1 2 a6 := rfl
open Cert.KernelIdeal.Stage in
theorem wB2_eq (a8 : FVec Ideal S3x128x128 .f32) : wB2 a8 = stW2 2 a8 := rfl

open Cert.KernelIdeal.Stage in
theorem bA2_apply (a7 : FVec Ideal S3x128 .f32) (k : Fin 128) : bA2 a7 (ix2 (0 : Fin 1) k) = stB1 2 a7 (ix1 k) :=
  shapeCast_a_1a_apply (stB1 2 a7) _ 0 k
open Cert.KernelIdeal.Stage in
theorem bB2_apply (a9 : FVec Ideal S3x128 .f32) (k : Fin 128) : bB2 a9 (ix2 (0 : Fin 1) k) = stB2 2 a9 (ix1 k) :=
  shapeCast_a_1a_apply (stB2 2 a9) _ 0 k
open Cert.KernelIdeal.Stage in
theorem gamma2_apply (a10 : FVec Ideal S3x128 .f32) (k : Fin 128) : gamma2 a10 (ix2 (0 : Fin 1) k) = stGamma 2 a10 (ix1 k) :=
  shapeCast_a_1a_apply (stGamma 2 a10) _ 0 k
open Cert.KernelIdeal.Stage in
theorem beta2_apply (a11 : FVec Ideal S3x128 .f32) (k : Fin 128) : beta2 a11 (ix2 (0 : Fin 1) k) = stBeta 2 a11 (ix1 k) :=
  shapeCast_a_1a_apply (stBeta 2 a11) _ 0 k

/-- Layer 2 of the reference is layer 2 of the model. -/
theorem stLayer2_eq (x : FVec Ideal S50000x128 .f32) (e : FVec Ideal S800000x128 .f32) (s d : IVec S800000 32)
    (a5 : FVec Ideal S3 .f32) (a6 : FVec Ideal S3x128x128 .f32) (a7 : FVec Ideal S3x128 .f32) (a8 : FVec Ideal S3x128x128 .f32)
    (a9 a10 a11 : FVec Ideal S3x128 .f32) :
    stLayer 2 x e (stSrcOf s) (stDstOf d) a5 a6 a7 a8 a9 a10 a11 = Cert.Model.layer2 x e s d a5 a6 a7 a8 a9 a10 a11 := by
  unfold stLayer stNorm Cert.Model.layer2 Cert.Model.norm2 Cert.Model.pre2
  rw [stBn_eq, stPre_eq, stAgg_eq]
  simp only [scale2_apply, wA2_eq, wB2_eq, bA2_apply, bB2_apply, gamma2_apply, beta2_apply, rowOf_apply, invRow_apply,
    stMean_eq, stVar_eq]

/-! ## The whole -/

open Cert.KernelIdeal.Stage in
/-- The read-out's biases read at an index. -/
theorem hb1_apply (a13 : FVec Ideal S128 .f32) (k : Fin 128) : hb1 a13 (ix2 (0 : Fin 1) k) = a13 (ix1 k) :=
  shapeCast_a_1a_apply a13 _ 0 k
open Cert.KernelIdeal.Stage in
theorem hb2_apply (a15 : FVec Ideal S128 .f32) (k : Fin 128) : hb2 a15 (ix2 (0 : Fin 1) k) = a15 (ix1 k) :=
  shapeCast_a_1a_apply a15 _ 0 k
open Cert.KernelIdeal.Stage in
theorem hb3_apply (a17 : FVec Ideal S1 .f32) : hb3 a17 (ix2 (0 : Fin 1) (0 : Fin 1)) = a17 (ix1 (0 : Fin 1)) :=
  shapeCast_a_1a_apply a17 _ 0 0

/-- The reference's head is the model's read-out. -/
theorem stHead_readout (x : FVec Ideal S50000x128 .f32) (a12 : FVec Ideal S128x128 .f32) (a13 : FVec Ideal S128 .f32)
    (a14 : FVec Ideal S128x128 .f32) (a15 : FVec Ideal S128 .f32) (a16 : FVec Ideal S128x1 .f32) (a17 : FVec Ideal S1 .f32) :
    stHead x a12 a13 a14 a15 a16 a17 = Cert.Model.readout x a12 a13 a14 a15 a16 a17 := by
  unfold Cert.Model.readout
  rw [stHead_eq]
  simp only [hb1_apply, hb2_apply, hb3_apply]

/-- The reference's result, as a term of its arguments at the ideal values, is the model's. -/
theorem ref_eq_model (a0 : IVec S50000 32) (a1 : IVec S800000 32) (a2 : IVec S2x800000 32) (a3 : FVec Ideal S4x128 .f32)
    (a4 : FVec Ideal S3x128 .f32) (a5 : FVec Ideal S3 .f32) (a6 : FVec Ideal S3x128x128 .f32) (a7 : FVec Ideal S3x128 .f32)
    (a8 : FVec Ideal S3x128x128 .f32) (a9 a10 a11 : FVec Ideal S3x128 .f32) (a12 : FVec Ideal S128x128 .f32)
    (a13 : FVec Ideal S128 .f32) (a14 : FVec Ideal S128x128 .f32) (a15 : FVec Ideal S128 .f32) (a16 : FVec Ideal S128x1 .f32)
    (a17 : FVec Ideal S1 .f32) :
    refOut (F := Ideal) a0 a1 a2 a3 a4 a5 a6 a7 a8 a9 a10 a11 a12 a13 a14 a15 a16 a17
      = Cert.Model.out a0 a1 a2 a3 a4 a5 a6 a7 a8 a9 a10 a11 a12 a13 a14 a15 a16 a17 := by
  unfold refOut Cert.Model.out stSrc stDst
  rw [stHead_readout, stLayer2_eq, stLayer1_eq, stLayer0_eq, stX0_eq, stEa_eq, stCol0_eq, stCol1_eq]

end Cert.ReferenceIdeal.Hand

end
-- ==== Proof.lean ====
/-
  The certificate's claims.

  Both idealized programs compute one function of the eighteen argument arrays, `Model.out`: a node embedding,
  three message-passing layers (each: sum the rectified edge messages into their target nodes, update every node's
  row by a two-layer perceptron of `x·(1+ε) + agg`, normalise by the matrix's own column means and variances, scale,
  shift, rectify), and a three-layer read-out perceptron.  The kernel program computes the perceptrons and the
  normalisation block of rows by block of rows inside its seven kernel regions, the reference computes them as whole
  matrix products; at the extended reals a row of a matrix product is the same finite sum either way, and no
  finiteness of the inputs is used.  The three frame claims are the programs' runs with the result dropped; the
  kernel program's idealization rewrote nothing.
-/
import proofs.«124610_j72327249264834_2_alg».proof.Defs
import proofs.«124610_j72327249264834_2_alg».proof.Proof.Gen.Kernel
import proofs.«124610_j72327249264834_2_alg».proof.Proof.Gen.Kernel.Skeleton
import proofs.«124610_j72327249264834_2_alg».proof.Proof.Gen.Kernel.Launch
import proofs.«124610_j72327249264834_2_alg».proof.Proof.Gen.Kernel.Points
import proofs.«124610_j72327249264834_2_alg».proof.Proof.Gen.Kernel.Frame
import proofs.«124610_j72327249264834_2_alg».proof.Proof.Gen.KernelIdeal
import proofs.«124610_j72327249264834_2_alg».proof.Proof.Gen.KernelIdeal.Skeleton
import proofs.«124610_j72327249264834_2_alg».proof.Proof.Gen.KernelIdeal.Launch
import proofs.«124610_j72327249264834_2_alg».proof.Proof.Gen.KernelIdeal.Points
import proofs.«124610_j72327249264834_2_alg».proof.Proof.Gen.KernelIdeal.Frame
import proofs.«124610_j72327249264834_2_alg».proof.Proof.Gen.ReferenceIdeal
import proofs.«124610_j72327249264834_2_alg».proof.Proof.Gen.Pre_finite_inputs
import proofs.«124610_j72327249264834_2_alg».proof.Proof.KRunValue
import proofs.«124610_j72327249264834_2_alg».proof.Proof.RefRead
import proofs.«124610_j72327249264834_2_alg».proof.Proof.RefModel
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a line of host operations none of which writes an argument buffer. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _),
     (h c Cert.ReferenceIdeal.main_arg6).trans (Cert.ReferenceIdeal.Hand.arg6_eq _),
     (h c Cert.ReferenceIdeal.main_arg7).trans (Cert.ReferenceIdeal.Hand.arg7_eq _),
     (h c Cert.ReferenceIdeal.main_arg8).trans (Cert.ReferenceIdeal.Hand.arg8_eq _),
     (h c Cert.ReferenceIdeal.main_arg9).trans (Cert.ReferenceIdeal.Hand.arg9_eq _),
     (h c Cert.ReferenceIdeal.main_arg10).trans (Cert.ReferenceIdeal.Hand.arg10_eq _),
     (h c Cert.ReferenceIdeal.main_arg11).trans (Cert.ReferenceIdeal.Hand.arg11_eq _),
     (h c Cert.ReferenceIdeal.main_arg12).trans (Cert.ReferenceIdeal.Hand.arg12_eq _),
     (h c Cert.ReferenceIdeal.main_arg13).trans (Cert.ReferenceIdeal.Hand.arg13_eq _),
     (h c Cert.ReferenceIdeal.main_arg14).trans (Cert.ReferenceIdeal.Hand.arg14_eq _),
     (h c Cert.ReferenceIdeal.main_arg15).trans (Cert.ReferenceIdeal.Hand.arg15_eq _),
     (h c Cert.ReferenceIdeal.main_arg16).trans (Cert.ReferenceIdeal.Hand.arg16_eq _),
     (h c Cert.ReferenceIdeal.main_arg17).trans (Cert.ReferenceIdeal.Hand.arg17_eq _)⟩)
    (Cert.ReferenceIdeal.Hand.run_main (F := Ideal) m ρ)

/-- The idealization rewrote no operation. -/
theorem preserves : Cert.preserves_Kernel_KernelIdeal := trivial

/-- Both runs end with the result buffer at `Model.out` of arguments that agree. -/
theorem algebraic : Cert.algebraic_KernelIdeal_ReferenceIdeal := by
  intro m ρ m' ρ' _ hagree
  refine ⟨fun c => Cert.Model.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.Hand.run_value m ρ, ?_⟩
  refine (θ_run Cert.ReferenceIdeal.defs _ _).mono (fun r h c =>
    ⟨?_, (h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _),
     (h c Cert.ReferenceIdeal.main_arg6).trans (Cert.ReferenceIdeal.Hand.arg6_eq _),
     (h c Cert.ReferenceIdeal.main_arg7).trans (Cert.ReferenceIdeal.Hand.arg7_eq _),
     (h c Cert.ReferenceIdeal.main_arg8).trans (Cert.ReferenceIdeal.Hand.arg8_eq _),
     (h c Cert.ReferenceIdeal.main_arg9).trans (Cert.ReferenceIdeal.Hand.arg9_eq _),
     (h c Cert.ReferenceIdeal.main_arg10).trans (Cert.ReferenceIdeal.Hand.arg10_eq _),
     (h c Cert.ReferenceIdeal.main_arg11).trans (Cert.ReferenceIdeal.Hand.arg11_eq _),
     (h c Cert.ReferenceIdeal.main_arg12).trans (Cert.ReferenceIdeal.Hand.arg12_eq _),
     (h c Cert.ReferenceIdeal.main_arg13).trans (Cert.ReferenceIdeal.Hand.arg13_eq _),
     (h c Cert.ReferenceIdeal.main_arg14).trans (Cert.ReferenceIdeal.Hand.arg14_eq _),
     (h c Cert.ReferenceIdeal.main_arg15).trans (Cert.ReferenceIdeal.Hand.arg15_eq _),
     (h c Cert.ReferenceIdeal.main_arg16).trans (Cert.ReferenceIdeal.Hand.arg16_eq _),
     (h c Cert.ReferenceIdeal.main_arg17).trans (Cert.ReferenceIdeal.Hand.arg17_eq _)⟩)
    (Cert.ReferenceIdeal.Hand.run_main (F := Ideal) m' ρ')
  obtain ⟨e0, e1, e2, e3, e4, e5, e6, e7, e8, e9, e10, e11, e12, e13, e14, e15, e16, e17⟩ := hagree c
  refine (h c Cert.ReferenceIdeal.main_v208).trans ((Cert.ReferenceIdeal.Hand.result_eq _).trans ((Cert.ReferenceIdeal.Hand.ref_eq_model _ _ _ _ _ _ _ _ _ _ _ _ _ _ _ _ _ _).trans ?_))
  show Cert.Model.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
  rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
